-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x32 : Shape := ⟨2, ![800000, 32]⟩
abbrev S50000 : Shape := ⟨1, ![50000]⟩
abbrev S128x96 : Shape := ⟨2, ![128, 96]⟩
abbrev S96 : Shape := ⟨1, ![96]⟩
abbrev S96x96 : Shape := ⟨2, ![96, 96]⟩
abbrev S32x96 : Shape := ⟨2, ![32, 96]⟩
abbrev S3x96x96 : Shape := ⟨3, ![3, 96, 96]⟩
abbrev S3x96 : Shape := ⟨2, ![3, 96]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S32x96 : S_.BroadcastsInDim S32x96 (![] : Fin 0 → Fin S32x96.rank)
  reducesTo_S32x96_S_d0_1 : S32x96.ReducesTo [0, 1] S_
  bcast_S_S3x96x96 : S_.BroadcastsInDim S3x96x96 (![] : Fin 0 → Fin S3x96x96.rank)
  reducesTo_S3x96x96_S_d0_1_2 : S3x96x96.ReducesTo [0, 1, 2] S_
  bcast_S_S3x96 : S_.BroadcastsInDim S3x96 (![] : Fin 0 → Fin S3x96.rank)
  reducesTo_S3x96_S_d0_1 : S3x96.ReducesTo [0, 1] S_

variable [Facts]

def fn_part4 {F : FTy → Type} [FloatOps F] (main_arg16 : FVec F S3x96x96 .f32) (main_v63 : IVec S_ 1) (main_v67 : IVec S_ 1) : IVec S_ 1 :=
  let main_v68 : IVec S_ 1 := andi main_v63 main_v67
  let main_v69 : FVec F S3x96x96 .f32 := Host.absf main_arg16
  let main_cst_26 : FVec F S_ .f32 := constant S_ .f32 0x7F800000#32
  let main_v70 : FVec F S3x96x96 .f32 := broadcastInDim S3x96x96 ![] bcast_S_S3x96x96 main_cst_26
  let main_v71 : IVec S3x96x96 1 := cmpf .olt main_v69 main_v70
  let main_c_27 : IVec S_ 1 := constantI S_ 1 1#1
  let main_v72 : IVec S_ 1 := (fun x v => Host.reduce IntOp.andi x v reducesTo_S3x96x96_S_d0_1_2 h_S_) main_v71 main_c_27
  let main_v73 : IVec S_ 1 := andi main_v68 main_v72
  main_v73

def fn_part3 {F : FTy → Type} [FloatOps F] (main_arg13 : FVec F S3x96 .f32) (main_arg14 : FVec F S3x96x96 .f32) (main_arg15 : FVec F S3x96 .f32) (main_arg16 : FVec F S3x96x96 .f32) (main_v48 : IVec S_ 1) (main_v49 : FVec F S3x96x96 .f32) (main_v50 : FVec F S3x96x96 .f32) : IVec S_ 1 :=
  let main_v51 : IVec S3x96x96 1 := cmpf .olt main_v49 main_v50
  let main_c_19 : IVec S_ 1 := constantI S_ 1 1#1
  let main_v52 : IVec S_ 1 := (fun x v => Host.reduce IntOp.andi x v reducesTo_S3x96x96_S_d0_1_2 h_S_) main_v51 main_c_19
  let main_v53 : IVec S_ 1 := andi main_v48 main_v52
  let main_v54 : FVec F S3x96 .f32 := Host.absf main_arg13
  let main_cst_20 : FVec F S_ .f32 := constant S_ .f32 0x7F800000#32
  let main_v55 : FVec F S3x96 .f32 := broadcastInDim S3x96 ![] bcast_S_S3x96 main_cst_20
  let main_v56 : IVec S3x96 1 := cmpf .olt main_v54 main_v55
  let main_c_21 : IVec S_ 1 := constantI S_ 1 1#1
  let main_v57 : IVec S_ 1 := (fun x v => Host.reduce IntOp.andi x v reducesTo_S3x96_S_d0_1 h_S_) main_v56 main_c_21
  let main_v58 : IVec S_ 1 := andi main_v53 main_v57
  let main_v59 : FVec F S3x96x96 .f32 := Host.absf main_arg14
  let main_cst_22 : FVec F S_ .f32 := constant S_ .f32 0x7F800000#32
  let main_v60 : FVec F S3x96x96 .f32 := broadcastInDim S3x96x96 ![] bcast_S_S3x96x96 main_cst_22
  let main_v61 : IVec S3x96x96 1 := cmpf .olt main_v59 main_v60
  let main_c_23 : IVec S_ 1 := constantI S_ 1 1#1
  let main_v62 : IVec S_ 1 := (fun x v => Host.reduce IntOp.andi x v reducesTo_S3x96x96_S_d0_1_2 h_S_) main_v61 main_c_23
  let main_v63 : IVec S_ 1 := andi main_v58 main_v62
  let main_v64 : FVec F S3x96 .f32 := Host.absf main_arg15
  let main_cst_24 : FVec F S_ .f32 := constant S_ .f32 0x7F800000#32
  let main_v65 : FVec F S3x96 .f32 := broadcastInDim S3x96 ![] bcast_S_S3x96 main_cst_24
  let main_v66 : IVec S3x96 1 := cmpf .olt main_v64 main_v65
  let main_c_25 : IVec S_ 1 := constantI S_ 1 1#1
  let main_v67 : IVec S_ 1 := (fun x v => Host.reduce IntOp.andi x v reducesTo_S3x96_S_d0_1 h_S_) main_v66 main_c_25
  fn_part4 (F := F) main_arg16 main_v63 main_v67

def fn_part2 {F : FTy → Type} [FloatOps F] (main_arg9 : FVec F S96 .f32) (main_arg10 : FVec F S96x96 .f32) (main_arg11 : FVec F S96 .f32) (main_arg12 : FVec F S3x96x96 .f32) (main_arg13 : FVec F S3x96 .f32) (main_arg14 : FVec F S3x96x96 .f32) (main_arg15 : FVec F S3x96 .f32) (main_arg16 : FVec F S3x96x96 .f32) (main_v33 : IVec S_ 1) : IVec S_ 1 :=
  let main_v34 : FVec F S96 .f32 := Host.absf main_arg9
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96x96 .f32 := Host.absf main_arg10
  let main_cst_14 : FVec F S_ .f32 := constant S_ .f32 0x7F800000#32
  let main_v40 : FVec F S96x96 .f32 := broadcastInDim S96x96 ![] bcast_S_S96x96 main_cst_14
  let main_v41 : IVec S96x96 1 := cmpf .olt main_v39 main_v40
  let main_c_15 : IVec S_ 1 := constantI S_ 1 1#1
  let main_v42 : IVec S_ 1 := (fun x v => Host.reduce IntOp.andi x v reducesTo_S96x96_S_d0_1 h_S_) main_v41 main_c_15
  let main_v43 : IVec S_ 1 := andi main_v38 main_v42
  let main_v44 : FVec F S96 .f32 := Host.absf main_arg11
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_v49 : FVec F S3x96x96 .f32 := Host.absf main_arg12
  let main_cst_18 : FVec F S_ .f32 := constant S_ .f32 0x7F800000#32
  let main_v50 : FVec F S3x96x96 .f32 := broadcastInDim S3x96x96 ![] bcast_S_S3x96x96 main_cst_18
  fn_part3 (F := F) main_arg13 main_arg14 main_arg15 main_arg16 main_v48 main_v49 main_v50

def fn_part1 {F : FTy → Type} [FloatOps F] (main_arg6 : FVec F S96x96 .f32) (main_arg7 : FVec F S96 .f32) (main_arg8 : FVec F S32x96 .f32) (main_arg9 : FVec F S96 .f32) (main_arg10 : FVec F S96x96 .f32) (main_arg11 : FVec F S96 .f32) (main_arg12 : FVec F S3x96x96 .f32) (main_arg13 : FVec F S3x96 .f32) (main_arg14 : FVec F S3x96x96 .f32) (main_arg15 : FVec F S3x96 .f32) (main_arg16 : FVec F S3x96x96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg6
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg7
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S32x96 .f32 := Host.absf main_arg8
  let main_cst_10 : FVec F S_ .f32 := constant S_ .f32 0x7F800000#32
  let main_v30 : FVec F S32x96 .f32 := broadcastInDim S32x96 ![] bcast_S_S32x96 main_cst_10
  let main_v31 : IVec S32x96 1 := cmpf .olt main_v29 main_v30
  let main_c_11 : IVec S_ 1 := constantI S_ 1 1#1
  let main_v32 : IVec S_ 1 := (fun x v => Host.reduce IntOp.andi x v reducesTo_S32x96_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S2x800000 32) (main_arg2 : FVec F S800000x32 .f32) (main_arg3 : IVec S50000 32) (main_arg4 : FVec F S128x96 .f32) (main_arg5 : FVec F S96 .f32) (main_arg6 : FVec F S96x96 .f32) (main_arg7 : FVec F S96 .f32) (main_arg8 : FVec F S32x96 .f32) (main_arg9 : FVec F S96 .f32) (main_arg10 : FVec F S96x96 .f32) (main_arg11 : FVec F S96 .f32) (main_arg12 : FVec F S3x96x96 .f32) (main_arg13 : FVec F S3x96 .f32) (main_arg14 : FVec F S3x96x96 .f32) (main_arg15 : FVec F S3x96 .f32) (main_arg16 : FVec F S3x96x96 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S128x96 .f32 := Host.absf main_arg4
  let main_cst_2 : FVec F S_ .f32 := constant S_ .f32 0x7F800000#32
  let main_v10 : FVec F S128x96 .f32 := broadcastInDim S128x96 ![] bcast_S_S128x96 main_cst_2
  let main_v11 : IVec S128x96 1 := cmpf .olt main_v9 main_v10
  let main_c_3 : IVec S_ 1 := constantI S_ 1 1#1
  let main_v12 : IVec S_ 1 := (fun x v => Host.reduce IntOp.andi x v reducesTo_S128x96_S_d0_1 h_S_) main_v11 main_c_3
  let main_v13 : IVec S_ 1 := andi main_v8 main_v12
  let main_v14 : FVec F S96 .f32 := Host.absf main_arg5
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S800000x32 : Shape := ⟨2, ![800000, 32]⟩
abbrev S50000 : Shape := ⟨1, ![50000]⟩
abbrev S128x96 : Shape := ⟨2, ![128, 96]⟩
abbrev S96 : Shape := ⟨1, ![96]⟩
abbrev S96x96 : Shape := ⟨2, ![96, 96]⟩
abbrev S32x96 : Shape := ⟨2, ![32, 96]⟩
abbrev S3x96x96 : Shape := ⟨3, ![3, 96, 96]⟩
abbrev S3x96 : Shape := ⟨2, ![3, 96]⟩
abbrev S1x800000 : Shape := ⟨2, ![1, 800000]⟩
abbrev S800000 : Shape := ⟨1, ![800000]⟩
abbrev S1x96 : Shape := ⟨2, ![1, 96]⟩
abbrev S50000x96 : Shape := ⟨2, ![50000, 96]⟩
abbrev S5000x128 : Shape := ⟨2, ![5000, 128]⟩
abbrev S5000x96 : Shape := ⟨2, ![5000, 96]⟩
abbrev S3x1x96 : Shape := ⟨3, ![3, 1, 96]⟩
abbrev S800000x96 : Shape := ⟨2, ![800000, 96]⟩
abbrev S8000x32 : Shape := ⟨2, ![8000, 32]⟩
abbrev S8000x96 : Shape := ⟨2, ![8000, 96]⟩
abbrev S1x96x96 : Shape := ⟨3, ![1, 96, 96]⟩
abbrev S1x1x96 : Shape := ⟨3, ![1, 1, 96]⟩
abbrev S_ : Shape := ⟨0, ![]⟩
abbrev S800000x1 : Shape := ⟨2, ![800000, 1]⟩
abbrev S50000x1 : Shape := ⟨2, ![50000, 1]⟩
abbrev S64x96 : Shape := ⟨2, ![64, 96]⟩
abbrev S64 : Shape := ⟨1, ![64]⟩
abbrev S64x1 : Shape := ⟨2, ![64, 1]⟩

abbrev nBuf : Space → Nat
  | .hbm => 128
  | .vmem => 49
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x32, .f32⟩
  | .hbm, ⟨3, _⟩ => ⟨S50000, .i32⟩
  | .hbm, ⟨4, _⟩ => ⟨S128x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S32x96, .f32⟩
  | .hbm, ⟨9, _⟩ => ⟨S96, .f32⟩
  | .hbm, ⟨10, _⟩ => ⟨S96x96, .f32⟩
  | .hbm, ⟨11, _⟩ => ⟨S96, .f32⟩
  | .hbm, ⟨12, _⟩ => ⟨S3x96x96, .f32⟩
  | .hbm, ⟨13, _⟩ => ⟨S3x96, .f32⟩
  | .hbm, ⟨14, _⟩ => ⟨S3x96x96, .f32⟩
  | .hbm, ⟨15, _⟩ => ⟨S3x96, .f32⟩
  | .hbm, ⟨16, _⟩ => ⟨S3x96x96, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S1x96, .f32⟩
  | .hbm, ⟨22, _⟩ => ⟨S1x96, .f32⟩
  | .hbm, ⟨23, _⟩ => ⟨S50000x96, .f32⟩
  | .hbm, ⟨24, _⟩ => ⟨S1x96, .f32⟩
  | .hbm, ⟨25, _⟩ => ⟨S1x96, .f32⟩
  | .hbm, ⟨26, _⟩ => ⟨S3x1x96, .f32⟩
  | .hbm, ⟨27, _⟩ => ⟨S800000x96, .f32⟩
  | .hbm, ⟨28, _⟩ => ⟨S800000x96, .f32⟩
  | .hbm, ⟨29, _⟩ => ⟨S800000x96, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S50000, .f32⟩
  | .hbm, ⟨34, _⟩ => ⟨S800000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x96, .f32⟩
  | .hbm, ⟨49, _⟩ => ⟨S800000x96, .f32⟩
  | .hbm, ⟨50, _⟩ => ⟨S_, .f32⟩
  | .hbm, ⟨51, _⟩ => ⟨S50000x96, .f32⟩
  | .hbm, ⟨52, _⟩ => ⟨S800000x1, .i32⟩
  | .hbm, ⟨53, _⟩ => ⟨S50000x96, .f32⟩
  | .hbm, ⟨54, _⟩ => ⟨S50000x96, .f32⟩
  | .hbm, ⟨55, _⟩ => ⟨S50000x96, .f32⟩
  | .hbm, ⟨56, _⟩ => ⟨S1x96x96, .f32⟩
  | .hbm, ⟨57, _⟩ => ⟨S96x96, .f32⟩
  | .hbm, ⟨58, _⟩ => ⟨S1x96, .f32⟩
  | .hbm, ⟨59, _⟩ => ⟨S96, .f32⟩
  | .hbm, ⟨60, _⟩ => ⟨S1x96x96, .f32⟩
  | .hbm, ⟨61, _⟩ => ⟨S96x96, .f32⟩
  | .hbm, ⟨62, _⟩ => ⟨S1x96, .f32⟩
  | .hbm, ⟨63, _⟩ => ⟨S50000x96, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x96, .f32⟩
  | .hbm, ⟨73, _⟩ => ⟨S800000x96, .f32⟩
  | .hbm, ⟨74, _⟩ => ⟨S_, .f32⟩
  | .hbm, ⟨75, _⟩ => ⟨S50000x96, .f32⟩
  | .hbm, ⟨76, _⟩ => ⟨S800000x1, .i32⟩
  | .hbm, ⟨77, _⟩ => ⟨S50000x96, .f32⟩
  | .hbm, ⟨78, _⟩ => ⟨S50000x96, .f32⟩
  | .hbm, ⟨79, _⟩ => ⟨S50000x96, .f32⟩
  | .hbm, ⟨80, _⟩ => ⟨S1x96x96, .f32⟩
  | .hbm, ⟨81, _⟩ => ⟨S96x96, .f32⟩
  | .hbm, ⟨82, _⟩ => ⟨S1x96, .f32⟩
  | .hbm, ⟨83, _⟩ => ⟨S96, .f32⟩
  | .hbm, ⟨84, _⟩ => ⟨S1x96x96, .f32⟩
  | .hbm, ⟨85, _⟩ => ⟨S96x96, .f32⟩
  | .hbm, ⟨86, _⟩ => ⟨S1x96, .f32⟩
  | .hbm, ⟨87, _⟩ => ⟨S50000x96, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000x96, .f32⟩
  | .hbm, ⟨97, _⟩ => ⟨S800000x96, .f32⟩
  | .hbm, ⟨98, _⟩ => ⟨S_, .f32⟩
  | .hbm, ⟨99, _⟩ => ⟨S50000x96, .f32⟩
  | .hbm, ⟨100, _⟩ => ⟨S800000x1, .i32⟩
  | .hbm, ⟨101, _⟩ => ⟨S50000x96, .f32⟩
  | .hbm, ⟨102, _⟩ => ⟨S50000x96, .f32⟩
  | .hbm, ⟨103, _⟩ => ⟨S50000x96, .f32⟩
  | .hbm, ⟨104, _⟩ => ⟨S1x96x96, .f32⟩
  | .hbm, ⟨105, _⟩ => ⟨S96x96, .f32⟩
  | .hbm, ⟨106, _⟩ => ⟨S1x96, .f32⟩
  | .hbm, ⟨107, _⟩ => ⟨S96, .f32⟩
  | .hbm, ⟨108, _⟩ => ⟨S1x96x96, .f32⟩
  | .hbm, ⟨109, _⟩ => ⟨S96x96, .f32⟩
  | .hbm, ⟨110, _⟩ => ⟨S1x96, .f32⟩
  | .hbm, ⟨111, _⟩ => ⟨S50000x96, .f32⟩
  | .hbm, ⟨112, _⟩ => ⟨S_, .f32⟩
  | .hbm, ⟨113, _⟩ => ⟨S64x96, .f32⟩
  | .hbm, ⟨114, _⟩ => ⟨S50000x1, .i32⟩
  | .hbm, ⟨115, _⟩ => ⟨S64x96, .f32⟩
  | .hbm, ⟨116, _⟩ => ⟨S_, .f32⟩
  | .hbm, ⟨117, _⟩ => ⟨S50000, .f32⟩
  | .hbm, ⟨118, _⟩ => ⟨S_, .f32⟩
  | .hbm, ⟨119, _⟩ => ⟨S64, .f32⟩
  | .hbm, ⟨120, _⟩ => ⟨S50000x1, .i32⟩
  | .hbm, ⟨121, _⟩ => ⟨S64, .f32⟩
  | .hbm, ⟨122, _⟩ => ⟨S_, .f32⟩
  | .hbm, ⟨123, _⟩ => ⟨S64, .f32⟩
  | .hbm, ⟨124, _⟩ => ⟨S64, .f32⟩
  | .hbm, ⟨125, _⟩ => ⟨S64x1, .f32⟩
  | .hbm, ⟨126, _⟩ => ⟨S64x96, .f32⟩
  | .hbm, ⟨127, _⟩ => ⟨S64x96, .f32⟩
  | .local _ .vmem, ⟨0, _⟩ => ⟨S5000x128, .f32⟩
  | .local _ .vmem, ⟨1, _⟩ => ⟨S5000x128, .f32⟩
  | .local _ .vmem, ⟨2, _⟩ => ⟨S128x96, .f32⟩
  | .local _ .vmem, ⟨3, _⟩ => ⟨S1x96, .f32⟩
  | .local _ .vmem, ⟨4, _⟩ => ⟨S96x96, .f32⟩
  | .local _ .vmem, ⟨5, _⟩ => ⟨S1x96, .f32⟩
  | .local _ .vmem, ⟨6, _⟩ => ⟨S5000x96, .f32⟩
  | .local _ .vmem, ⟨7, _⟩ => ⟨S5000x96, .f32⟩
  | .local _ .vmem, ⟨8, _⟩ => ⟨S8000x32, .f32⟩
  | .local _ .vmem, ⟨9, _⟩ => ⟨S8000x32, .f32⟩
  | .local _ .vmem, ⟨10, _⟩ => ⟨S32x96, .f32⟩
  | .local _ .vmem, ⟨11, _⟩ => ⟨S1x96, .f32⟩
  | .local _ .vmem, ⟨12, _⟩ => ⟨S96x96, .f32⟩
  | .local _ .vmem, ⟨13, _⟩ => ⟨S1x96, .f32⟩
  | .local _ .vmem, ⟨14, _⟩ => ⟨S3x96x96, .f32⟩
  | .local _ .vmem, ⟨15, _⟩ => ⟨S3x1x96, .f32⟩
  | .local _ .vmem, ⟨16, _⟩ => ⟨S8000x96, .f32⟩
  | .local _ .vmem, ⟨17, _⟩ => ⟨S8000x96, .f32⟩
  | .local _ .vmem, ⟨18, _⟩ => ⟨S8000x96, .f32⟩
  | .local _ .vmem, ⟨19, _⟩ => ⟨S8000x96, .f32⟩
  | .local _ .vmem, ⟨20, _⟩ => ⟨S8000x96, .f32⟩
  | .local _ .vmem, ⟨21, _⟩ => ⟨S8000x96, .f32⟩
  | .local _ .vmem, ⟨22, _⟩ => ⟨S5000x96, .f32⟩
  | .local _ .vmem, ⟨23, _⟩ => ⟨S5000x96, .f32⟩
  | .local _ .vmem, ⟨24, _⟩ => ⟨S5000x96, .f32⟩
  | .local _ .vmem, ⟨25, _⟩ => ⟨S5000x96, .f32⟩
  | .local _ .vmem, ⟨26, _⟩ => ⟨S96x96, .f32⟩
  | .local _ .vmem, ⟨27, _⟩ => ⟨S1x96, .f32⟩
  | .local _ .vmem, ⟨28, _⟩ => ⟨S96x96, .f32⟩
  | .local _ .vmem, ⟨29, _⟩ => ⟨S5000x96, .f32⟩
  | .local _ .vmem, ⟨30, _⟩ => ⟨S5000x96, .f32⟩
  | .local _ .vmem, ⟨31, _⟩ => ⟨S5000x96, .f32⟩
  | .local _ .vmem, ⟨32, _⟩ => ⟨S5000x96, .f32⟩
  | .local _ .vmem, ⟨33, _⟩ => ⟨S5000x96, .f32⟩
  | .local _ .vmem, ⟨34, _⟩ => ⟨S5000x96, .f32⟩
  | .local _ .vmem, ⟨35, _⟩ => ⟨S96x96, .f32⟩
  | .local _ .vmem, ⟨36, _⟩ => ⟨S1x96, .f32⟩
  | .local _ .vmem, ⟨37, _⟩ => ⟨S96x96, .f32⟩
  | .local _ .vmem, ⟨38, _⟩ => ⟨S5000x96, .f32⟩
  | .local _ .vmem, ⟨39, _⟩ => ⟨S5000x96, .f32⟩
  | .local _ .vmem, ⟨40, _⟩ => ⟨S5000x96, .f32⟩
  | .local _ .vmem, ⟨41, _⟩ => ⟨S5000x96, .f32⟩
  | .local _ .vmem, ⟨42, _⟩ => ⟨S5000x96, .f32⟩
  | .local _ .vmem, ⟨43, _⟩ => ⟨S5000x96, .f32⟩
  | .local _ .vmem, ⟨44, _⟩ => ⟨S96x96, .f32⟩
  | .local _ .vmem, ⟨45, _⟩ => ⟨S1x96, .f32⟩
  | .local _ .vmem, ⟨46, _⟩ => ⟨S96x96, .f32⟩
  | .local _ .vmem, ⟨47, _⟩ => ⟨S5000x96, .f32⟩
  | .local _ .vmem, ⟨48, _⟩ => ⟨S5000x96, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10_0 : Ref sig .tc := ⟨.hbm, 27, rfl⟩
abbrev main_v10_1 : Ref sig .tc := ⟨.hbm, 28, rfl⟩
abbrev main_v10_2 : Ref sig .tc := ⟨.hbm, 29, rfl⟩
abbrev main_cst : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_4 : Ref sig .tc := ⟨.hbm, 64, rfl⟩
abbrev main_v39 : Ref sig .tc := ⟨.hbm, 65, rfl⟩
abbrev main_v40 : Ref sig .tc := ⟨.hbm, 66, rfl⟩
abbrev main_c_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_7 : Ref sig .tc := ⟨.hbm, 88, rfl⟩
abbrev main_v60 : Ref sig .tc := ⟨.hbm, 89, rfl⟩
abbrev main_v61 : Ref sig .tc := ⟨.hbm, 90, rfl⟩
abbrev main_c_8 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_9 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_10 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_11 : Ref sig .tc := ⟨.hbm, 116, rfl⟩
abbrev main_v84 : Ref sig .tc := ⟨.hbm, 117, rfl⟩
abbrev main_cst_12 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_13 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg5_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem5_1 : DmaSem sig := 48

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x96x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3x1x96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8000x96 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8000x96 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8000x96 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S96x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S96x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S96x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S96x96 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x96 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x96 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S96x96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S96x96 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x96 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S96_S1x96 : S96.ShapeCasts S1x96
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S96x96_S96x96_0_0 : ∀ a, (![0, 0] : Fin 2 → Nat) a + S96x96.size a ≤ S96x96.size a
  h_S96x96 : 0 < S96x96.numel
  inb_S5000x96_S5000x96_0_0 : ∀ a, (![0, 0] : Fin 2 → Nat) a + S5000x96.size a ≤ S5000x96.size a
  h_S5000x96 : 0 < S5000x96.numel
  shapeCasts_S3x96_S3x1x96 : S3x96.ShapeCasts S3x1x96
  inb_S8000x32_S8000x32_0_0 : ∀ a, (![0, 0] : Fin 2 → Nat) a + S8000x32.size a ≤ S8000x32.size a
  h_S8000x32 : 0 < S8000x32.numel
  inb_S32x96_S32x96_0_0 : ∀ a, (![0, 0] : Fin 2 → Nat) a + S32x96.size a ≤ S32x96.size a
  h_S32x96 : 0 < S32x96.numel
  broadcasts_S1x96_S8000x96 : S1x96.Broadcasts S8000x96
  inb_S3x96x96_S1x96x96_0_0_0 : ∀ a, (![0, 0, 0] : Fin 3 → Nat) a + S1x96x96.size a ≤ S3x96x96.size a
  h_S1x96x96 : 0 < S1x96x96.numel
  shapeCasts_S1x96x96_S96x96 : S1x96x96.ShapeCasts S96x96
  inb_S3x96x96_S1x96x96_1_0_0 : ∀ a, (![1, 0, 0] : Fin 3 → Nat) a + S1x96x96.size a ≤ S3x96x96.size a
  inb_S3x96x96_S1x96x96_2_0_0 : ∀ a, (![2, 0, 0] : Fin 3 → Nat) a + S1x96x96.size a ≤ S3x96x96.size a
  inb_S3x1x96_S1x1x96_0_0_0 : ∀ a, (![0, 0, 0] : Fin 3 → Nat) a + S1x1x96.size a ≤ S3x1x96.size a
  h_S1x1x96 : 0 < S1x1x96.numel
  shapeCasts_S1x1x96_S1x96 : S1x1x96.ShapeCasts S1x96
  inb_S8000x96_S8000x96_0_0 : ∀ a, (![0, 0] : Fin 2 → Nat) a + S8000x96.size a ≤ S8000x96.size a
  h_S8000x96 : 0 < S8000x96.numel
  inb_S3x1x96_S1x1x96_1_0_0 : ∀ a, (![1, 0, 0] : Fin 3 → Nat) a + S1x1x96.size a ≤ S3x1x96.size a
  inb_S3x1x96_S1x1x96_2_0_0 : ∀ a, (![2, 0, 0] : Fin 3 → Nat) a + S1x1x96.size a ≤ S3x1x96.size a
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x96 : S_.BroadcastsInDim S50000x96 (![] : Fin 0 → Fin S50000x96.rank)
  bcast_S50000x1_S50000x96_0_1 : S50000x1.BroadcastsInDim S50000x96 (![0, 1] : Fin 2 → Fin S50000x96.rank)
  slices_S3x96x96_S1x96x96_0_0_0 : S3x96x96.Slices ![0, 0, 0] S1x96x96
  slices_S3x96_S1x96_0_0 : S3x96.Slices ![0, 0] S1x96
  shapeCasts_S1x96_S96 : S1x96.ShapeCasts S96
  shapeCasts_S5000x96_S5000x96 : S5000x96.ShapeCasts S5000x96
  shapeCasts_S96x96_S96x96 : S96x96.ShapeCasts S96x96
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  bcast_S_S64x96 : S_.BroadcastsInDim S64x96 (![] : Fin 0 → Fin S64x96.rank)
  bcast_S_S64 : S_.BroadcastsInDim S64 (![] : Fin 0 → Fin S64.rank)
  bcast_S64_S64x1_0 : S64.BroadcastsInDim S64x1 (![0] : Fin 1 → Fin S64x1.rank)
  bcast_S64x1_S64x96_0_1 : S64x1.BroadcastsInDim S64x96 (![0, 1] : Fin 2 → Fin S64x96.rank)
  dot_S5000x128_S128x96_S5000x96_1_0_0_1_n_n_wf : DotDims.WF S5000x128 S128x96 S5000x96 [1] [0] [0] [1] [] []
  dot_S5000x96_S96x96_S5000x96_1_0_0_1_n_n_wf : DotDims.WF S5000x96 S96x96 S5000x96 [1] [0] [0] [1] [] []
  dot_S8000x32_S32x96_S8000x96_1_0_0_1_n_n_wf : DotDims.WF S8000x32 S32x96 S8000x96 [1] [0] [0] [1] [] []
  dot_S8000x96_S96x96_S8000x96_1_0_0_1_n_n_wf : DotDims.WF S8000x96 S96x96 S8000x96 [1] [0] [0] [1] [] []
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S64x96_S50000x1_S50000x96_1_0_0_1_wf : ScatterDims.WF S64x96 S50000x1 S50000x96 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x96.size a ≤ S50000x96.size a
  hwx0_5 : ∀ i : grid0.Coords, EltTy.bits .f32 = 32 ∨ (Rect.block (s := S50000x96) S5000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S800000x32.size a
  hwx1_0 : ∀ i : grid1.Coords, EltTy.bits .f32 = 32 ∨ (Rect.block (s := S800000x32) S8000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x96.size a ≤ S32x96.size a
  hwx1_1 : ∀ i : grid1.Coords, EltTy.bits .f32 = 32 ∨ (Rect.block (s := S32x96) S32x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x96.size a ≤ S96x96.size a
  hwx1_3 : ∀ i : grid1.Coords, EltTy.bits .f32 = 32 ∨ (Rect.block (s := S96x96) S96x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x96x96.size a ≤ S3x96x96.size a
  hwx1_5 : ∀ i : grid1.Coords, EltTy.bits .f32 = 32 ∨ (Rect.block (s := S3x96x96) S3x96x96.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3x1x96.size a ≤ S3x1x96.size a
  hwx1_6 : ∀ i : grid1.Coords, EltTy.bits .f32 = 32 ∨ (Rect.block (s := S3x1x96) S3x1x96.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8000x96.size a ≤ S800000x96.size a
  hwx1_7 : ∀ i : grid1.Coords, EltTy.bits .f32 = 32 ∨ (Rect.block (s := S800000x96) S8000x96.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8000x96.size a ≤ S800000x96.size a
  hwx1_8 : ∀ i : grid1.Coords, EltTy.bits .f32 = 32 ∨ (Rect.block (s := S800000x96) S8000x96.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8000x96.size a ≤ S800000x96.size a
  hwx1_9 : ∀ i : grid1.Coords, EltTy.bits .f32 = 32 ∨ (Rect.block (s := S800000x96) S8000x96.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x96.size a ≤ S50000x96.size a
  hwx2_1 : ∀ i : grid2.Coords, EltTy.bits .f32 = 32 ∨ (Rect.block (s := S50000x96) S5000x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x96.size a ≤ S96x96.size a
  hwx2_2 : ∀ i : grid2.Coords, EltTy.bits .f32 = 32 ∨ (Rect.block (s := S96x96) S96x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S96x96.size a ≤ S96x96.size a
  hwx2_4 : ∀ i : grid2.Coords, EltTy.bits .f32 = 32 ∨ (Rect.block (s := S96x96) S96x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x96.size a ≤ S50000x96.size a
  hwx2_5 : ∀ i : grid2.Coords, EltTy.bits .f32 = 32 ∨ (Rect.block (s := S50000x96) S5000x96.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x96.size a ≤ S50000x96.size a
  hwx3_1 : ∀ i : grid3.Coords, EltTy.bits .f32 = 32 ∨ (Rect.block (s := S50000x96) S5000x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S96x96.size a ≤ S96x96.size a
  hwx3_2 : ∀ i : grid3.Coords, EltTy.bits .f32 = 32 ∨ (Rect.block (s := S96x96) S96x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S96x96.size a ≤ S96x96.size a
  hwx3_4 : ∀ i : grid3.Coords, EltTy.bits .f32 = 32 ∨ (Rect.block (s := S96x96) S96x96.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x96.size a ≤ S50000x96.size a
  hwx3_5 : ∀ i : grid3.Coords, EltTy.bits .f32 = 32 ∨ (Rect.block (s := S50000x96) S5000x96.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x96.size a ≤ S50000x96.size a
  hwx4_1 : ∀ i : grid4.Coords, EltTy.bits .f32 = 32 ∨ (Rect.block (s := S50000x96) S5000x96.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S96x96.size a ≤ S96x96.size a
  hwx4_2 : ∀ i : grid4.Coords, EltTy.bits .f32 = 32 ∨ (Rect.block (s := S96x96) S96x96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x96.size a ≤ S1x96.size a
  hwx4_3 : ∀ i : grid4.Coords, EltTy.bits .f32 = 32 ∨ (Rect.block (s := S1x96) S1x96.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S96x96.size a ≤ S96x96.size a
  hwx4_4 : ∀ i : grid4.Coords, EltTy.bits .f32 = 32 ∨ (Rect.block (s := S96x96) S96x96.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x96.size a ≤ S50000x96.size a
  hwx4_5 : ∀ i : grid4.Coords, EltTy.bits .f32 = 32 ∨ (Rect.block (s := S50000x96) S5000x96.size (cc4_transform_5 i) (hinb4_5 i)).WholeWords (EltTy.packing .f32)

variable [Facts₀]

def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S8000x32_S32x96_S8000x96_1_0_0_1_n_n : DotDims S8000x32 S32x96 S8000x96 where
  lhsContracting := [1]
  rhsContracting := [0]
  lhsNonContracting := [0]
  rhsNonContracting := [1]
  lhsBatch := []
  rhsBatch := []
  wf := dot_S8000x32_S32x96_S8000x96_1_0_0_1_n_n_wf
def dot_S8000x96_S96x96_S8000x96_1_0_0_1_n_n : DotDims S8000x96 S96x96 S8000x96 where
  lhsContracting := [1]
  rhsContracting := [0]
  lhsNonContracting := [0]
  rhsNonContracting := [1]
  lhsBatch := []
  rhsBatch := []
  wf := dot_S8000x96_S96x96_S8000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S64x96_S50000x1_S50000x96_1_0_0_1 : ScatterDims S64x96 S50000x1 S50000x96 where
  updateWindowDims := [1]
  insertedWindowDims := [0]
  scatterDimsToOperandDims := [0]
  indexVectorDim := 1
  wf := scatter_S64x96_S50000x1_S50000x96_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S5000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S32x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S96x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S3x96x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S3x1x96.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10_0) S8000x96.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v10_1) S8000x96.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v10_2) S8000x96.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v30) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S5000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S96x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S96x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S5000x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v51) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S5000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S96x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S96x96.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S5000x96.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v72) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S5000x96.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v74) S96x96.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S1x96.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v78) S96x96.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v80) S5000x96.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x32 : Shape := ⟨2, ![800000, 32]⟩
abbrev S50000 : Shape := ⟨1, ![50000]⟩
abbrev S128x96 : Shape := ⟨2, ![128, 96]⟩
abbrev S96 : Shape := ⟨1, ![96]⟩
abbrev S96x96 : Shape := ⟨2, ![96, 96]⟩
abbrev S32x96 : Shape := ⟨2, ![32, 96]⟩
abbrev S3x96x96 : Shape := ⟨3, ![3, 96, 96]⟩
abbrev S3x96 : Shape := ⟨2, ![3, 96]⟩
abbrev S1x800000 : Shape := ⟨2, ![1, 800000]⟩
abbrev S800000 : Shape := ⟨1, ![800000]⟩
abbrev S50000x96 : Shape := ⟨2, ![50000, 96]⟩
abbrev S1x96 : Shape := ⟨2, ![1, 96]⟩
abbrev S_ : Shape := ⟨0, ![]⟩
abbrev S800000x96 : Shape := ⟨2, ![800000, 96]⟩
abbrev S800000x1 : Shape := ⟨2, ![800000, 1]⟩
abbrev S50000x1 : Shape := ⟨2, ![50000, 1]⟩
abbrev S1x96x96 : Shape := ⟨3, ![1, 96, 96]⟩
abbrev S64x96 : Shape := ⟨2, ![64, 96]⟩
abbrev S64 : Shape := ⟨1, ![64]⟩
abbrev S64x1 : Shape := ⟨2, ![64, 1]⟩

abbrev nBuf : Space → Nat
  | .hbm => 185
  | .vmem => 0
  | .smem => 0
  | _ => 0

abbrev hbmTy0_0 (i : Nat) : BufTy := match i % 128 with
  | 0 => ⟨S50000x128, .f32⟩
  | 1 => ⟨S2x800000, .i32⟩
  | 2 => ⟨S800000x32, .f32⟩
  | 3 => ⟨S50000, .i32⟩
  | 4 => ⟨S128x96, .f32⟩
  | 5 => ⟨S96, .f32⟩
  | 6 => ⟨S96x96, .f32⟩
  | 7 => ⟨S96, .f32⟩
  | 8 => ⟨S32x96, .f32⟩
  | 9 => ⟨S96, .f32⟩
  | 10 => ⟨S96x96, .f32⟩
  | 11 => ⟨S96, .f32⟩
  | 12 => ⟨S3x96x96, .f32⟩
  | 13 => ⟨S3x96, .f32⟩
  | 14 => ⟨S3x96x96, .f32⟩
  | 15 => ⟨S3x96, .f32⟩
  | 16 => ⟨S3x96x96, .f32⟩
  | 17 => ⟨S1x800000, .i32⟩
  | 18 => ⟨S800000, .i32⟩
  | 19 => ⟨S1x800000, .i32⟩
  | 20 => ⟨S800000, .i32⟩
  | 21 => ⟨S50000x96, .f32⟩
  | 22 => ⟨S1x96, .f32⟩
  | 23 => ⟨S50000x96, .f32⟩
  | 24 => ⟨S50000x96, .f32⟩
  | 25 => ⟨S_, .f32⟩
  | 26 => ⟨S50000x96, .f32⟩
  | 27 => ⟨S50000x96, .f32⟩
  | 28 => ⟨S50000x96, .f32⟩
  | 29 => ⟨S1x96, .f32⟩
  | 30 => ⟨S50000x96, .f32⟩
  | 31 => ⟨S50000x96, .f32⟩
  | 32 => ⟨S800000x96, .f32⟩
  | 33 => ⟨S1x96, .f32⟩
  | 34 => ⟨S800000x96, .f32⟩
  | 35 => ⟨S800000x96, .f32⟩
  | 36 => ⟨S_, .f32⟩
  | 37 => ⟨S800000x96, .f32⟩
  | 38 => ⟨S800000x96, .f32⟩
  | 39 => ⟨S800000x96, .f32⟩
  | 40 => ⟨S1x96, .f32⟩
  | 41 => ⟨S800000x96, .f32⟩
  | 42 => ⟨S800000x96, .f32⟩
  | 43 => ⟨S_, .f32⟩
  | 44 => ⟨S800000, .f32⟩
  | 45 => ⟨S_, .f32⟩
  | 46 => ⟨S50000, .f32⟩
  | 47 => ⟨S800000x1, .i32⟩
  | 48 => ⟨S50000, .f32⟩
  | 49 => ⟨S_, .f32⟩
  | 50 => ⟨S50000, .f32⟩
  | 51 => ⟨S50000, .f32⟩
  | 52 => ⟨S50000x1, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x96, .f32⟩
  | 62 => ⟨S1x96x96, .f32⟩
  | 63 => ⟨S96x96, .f32⟩
  | 64 => ⟨S800000x96, .f32⟩
  | 65 => ⟨S1x96, .f32⟩
  | 66 => ⟨S96, .f32⟩
  | 67 => ⟨S1x96, .f32⟩
  | 68 => ⟨S800000x96, .f32⟩
  | 69 => ⟨S800000x96, .f32⟩
  | 70 => ⟨S800000x96, .f32⟩
  | 71 => ⟨S_, .f32⟩
  | 72 => ⟨S50000x96, .f32⟩
  | 73 => ⟨S800000x1, .i32⟩
  | 74 => ⟨S50000x96, .f32⟩
  | 75 => ⟨S50000x96, .f32⟩
  | 76 => ⟨S50000x96, .f32⟩
  | 77 => ⟨S1x96x96, .f32⟩
  | 78 => ⟨S96x96, .f32⟩
  | 79 => ⟨S50000x96, .f32⟩
  | 80 => ⟨S1x96, .f32⟩
  | 81 => ⟨S96, .f32⟩
  | 82 => ⟨S1x96, .f32⟩
  | 83 => ⟨S50000x96, .f32⟩
  | 84 => ⟨S50000x96, .f32⟩
  | 85 => ⟨S1x96x96, .f32⟩
  | 86 => ⟨S96x96, .f32⟩
  | 87 => ⟨S50000x96, .f32⟩
  | 88 => ⟨S50000x96, .f32⟩
  | 89 => ⟨S50000x96, .f32⟩
  | 90 => ⟨S_, .f32⟩
  | 91 => ⟨S50000x96, .f32⟩
  | 92 => ⟨S50000x96, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x96, .f32⟩
  | 102 => ⟨S1x96x96, .f32⟩
  | 103 => ⟨S96x96, .f32⟩
  | 104 => ⟨S800000x96, .f32⟩
  | 105 => ⟨S1x96, .f32⟩
  | 106 => ⟨S96, .f32⟩
  | 107 => ⟨S1x96, .f32⟩
  | 108 => ⟨S800000x96, .f32⟩
  | 109 => ⟨S800000x96, .f32⟩
  | 110 => ⟨S800000x96, .f32⟩
  | 111 => ⟨S_, .f32⟩
  | 112 => ⟨S50000x96, .f32⟩
  | 113 => ⟨S800000x1, .i32⟩
  | 114 => ⟨S50000x96, .f32⟩
  | 115 => ⟨S50000x96, .f32⟩
  | 116 => ⟨S50000x96, .f32⟩
  | 117 => ⟨S1x96x96, .f32⟩
  | 118 => ⟨S96x96, .f32⟩
  | 119 => ⟨S50000x96, .f32⟩
  | 120 => ⟨S1x96, .f32⟩
  | 121 => ⟨S96, .f32⟩
  | 122 => ⟨S1x96, .f32⟩
  | 123 => ⟨S50000x96, .f32⟩
  | 124 => ⟨S50000x96, .f32⟩
  | 125 => ⟨S1x96x96, .f32⟩
  | 126 => ⟨S96x96, .f32⟩
  | 127 => ⟨S50000x96, .f32⟩
  | _ => ⟨S50000x128, .f32⟩

abbrev hbmTy0_1 (i : Nat) : BufTy := match i % 128 with
  | 0 => ⟨S50000x96, .f32⟩
  | 1 => ⟨S50000x96, .f32⟩
  | 2 => ⟨S_, .f32⟩
  | 3 => ⟨S50000x96, .f32⟩
  | 4 => ⟨S50000x96, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x96, .f32⟩
  | 14 => ⟨S1x96x96, .f32⟩
  | 15 => ⟨S96x96, .f32⟩
  | 16 => ⟨S800000x96, .f32⟩
  | 17 => ⟨S1x96, .f32⟩
  | 18 => ⟨S96, .f32⟩
  | 19 => ⟨S1x96, .f32⟩
  | 20 => ⟨S800000x96, .f32⟩
  | 21 => ⟨S800000x96, .f32⟩
  | 22 => ⟨S800000x96, .f32⟩
  | 23 => ⟨S_, .f32⟩
  | 24 => ⟨S50000x96, .f32⟩
  | 25 => ⟨S800000x1, .i32⟩
  | 26 => ⟨S50000x96, .f32⟩
  | 27 => ⟨S50000x96, .f32⟩
  | 28 => ⟨S50000x96, .f32⟩
  | 29 => ⟨S1x96x96, .f32⟩
  | 30 => ⟨S96x96, .f32⟩
  | 31 => ⟨S50000x96, .f32⟩
  | 32 => ⟨S1x96, .f32⟩
  | 33 => ⟨S96, .f32⟩
  | 34 => ⟨S1x96, .f32⟩
  | 35 => ⟨S50000x96, .f32⟩
  | 36 => ⟨S50000x96, .f32⟩
  | 37 => ⟨S1x96x96, .f32⟩
  | 38 => ⟨S96x96, .f32⟩
  | 39 => ⟨S50000x96, .f32⟩
  | 40 => ⟨S50000x96, .f32⟩
  | 41 => ⟨S_, .f32⟩
  | 42 => ⟨S64x96, .f32⟩
  | 43 => ⟨S50000x1, .i32⟩
  | 44 => ⟨S64x96, .f32⟩
  | 45 => ⟨S_, .f32⟩
  | 46 => ⟨S50000, .f32⟩
  | 47 => ⟨S_, .f32⟩
  | 48 => ⟨S64, .f32⟩
  | 49 => ⟨S50000x1, .i32⟩
  | 50 => ⟨S64, .f32⟩
  | 51 => ⟨S_, .f32⟩
  | 52 => ⟨S64, .f32⟩
  | 53 => ⟨S64, .f32⟩
  | 54 => ⟨S64x1, .f32⟩
  | 55 => ⟨S64x96, .f32⟩
  | 56 => ⟨S64x96, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call0_cst : Ref sig .tc := ⟨.hbm, 25, rfl⟩
abbrev main_call0_v0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call1_cst : Ref sig .tc := ⟨.hbm, 36, rfl⟩
abbrev main_call1_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst : Ref sig .tc := ⟨.hbm, 43, rfl⟩
abbrev main_v22 : Ref sig .tc := ⟨.hbm, 44, rfl⟩
abbrev main_cst_0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_1 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c : Ref sig .tc := ⟨.hbm, 53, rfl⟩
abbrev main_v29 : Ref sig .tc := ⟨.hbm, 54, rfl⟩
abbrev main_v30 : Ref sig .tc := ⟨.hbm, 55, rfl⟩
abbrev main_c_2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_3 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call2_cst : Ref sig .tc := ⟨.hbm, 90, rfl⟩
abbrev main_call2_v0 : Ref sig .tc := ⟨.hbm, 91, rfl⟩
abbrev main_v63 : Ref sig .tc := ⟨.hbm, 92, rfl⟩
abbrev main_c_4 : Ref sig .tc := ⟨.hbm, 93, rfl⟩
abbrev main_v64 : Ref sig .tc := ⟨.hbm, 94, rfl⟩
abbrev main_v65 : Ref sig .tc := ⟨.hbm, 95, rfl⟩
abbrev main_c_5 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_6 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_call3_cst : Ref sig .tc := ⟨.hbm, 130, rfl⟩
abbrev main_call3_v0 : Ref sig .tc := ⟨.hbm, 131, rfl⟩
abbrev main_v98 : Ref sig .tc := ⟨.hbm, 132, rfl⟩
abbrev main_c_7 : Ref sig .tc := ⟨.hbm, 133, rfl⟩
abbrev main_v99 : Ref sig .tc := ⟨.hbm, 134, rfl⟩
abbrev main_v100 : Ref sig .tc := ⟨.hbm, 135, rfl⟩
abbrev main_c_8 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_9 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_cst_10 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_11 : Ref sig .tc := ⟨.hbm, 173, rfl⟩
abbrev main_v135 : Ref sig .tc := ⟨.hbm, 174, rfl⟩
abbrev main_cst_12 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_cst_13 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  bcast_S1x96_S800000x96_0_1 : S1x96.BroadcastsInDim S800000x96 (![0, 1] : Fin 2 → Fin S800000x96.rank)
  bcast_S_S800000x96 : S_.BroadcastsInDim S800000x96 (![] : Fin 0 → Fin S800000x96.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  bcast_S50000x1_S50000x96_0_1 : S50000x1.BroadcastsInDim S50000x96 (![0, 1] : Fin 2 → Fin S50000x96.rank)
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  bcast_S_S64x96 : S_.BroadcastsInDim S64x96 (![] : Fin 0 → Fin S64x96.rank)
  bcast_S_S64 : S_.BroadcastsInDim S64 (![] : Fin 0 → Fin S64.rank)
  bcast_S64_S64x1_0 : S64.BroadcastsInDim S64x1 (![0] : Fin 1 → Fin S64x1.rank)
  bcast_S64x1_S64x96_0_1 : S64x1.BroadcastsInDim S64x96 (![0, 1] : Fin 2 → Fin S64x96.rank)
  dot_S50000x128_S128x96_S50000x96_1_0_0_1_n_n_wf : DotDims.WF S50000x128 S128x96 S50000x96 [1] [0] [0] [1] [] []
  dot_S50000x96_S96x96_S50000x96_1_0_0_1_n_n_wf : DotDims.WF S50000x96 S96x96 S50000x96 [1] [0] [0] [1] [] []
  dot_S800000x32_S32x96_S800000x96_1_0_0_1_n_n_wf : DotDims.WF S800000x32 S32x96 S800000x96 [1] [0] [0] [1] [] []
  dot_S800000x96_S96x96_S800000x96_1_0_0_1_n_n_wf : DotDims.WF S800000x96 S96x96 S800000x96 [1] [0] [0] [1] [] []
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S64x96_S50000x1_S50000x96_1_0_0_1_wf : ScatterDims.WF S64x96 S50000x1 S50000x96 [1] [0] [0] 1
  scatter_S64_S50000x1_S50000_n_0_0_1_wf : ScatterDims.WF S64 S50000x1 S50000 [] [0] [0] 1

variable [Facts₀]

def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S800000x32_S32x96_S800000x96_1_0_0_1_n_n : DotDims S800000x32 S32x96 S800000x96 where
  lhsContracting := [1]
  rhsContracting := [0]
  lhsNonContracting := [0]
  rhsNonContracting := [1]
  lhsBatch := []
  rhsBatch := []
  wf := dot_S800000x32_S32x96_S800000x96_1_0_0_1_n_n_wf
def dot_S800000x96_S96x96_S800000x96_1_0_0_1_n_n : DotDims S800000x96 S96x96 S800000x96 where
  lhsContracting := [1]
  rhsContracting := [0]
  lhsNonContracting := [0]
  rhsNonContracting := [1]
  lhsBatch := []
  rhsBatch := []
  wf := dot_S800000x96_S96x96_S800000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S64x96_S50000x1_S50000x96_1_0_0_1 : ScatterDims S64x96 S50000x1 S50000x96 where
  updateWindowDims := [1]
  insertedWindowDims := [0]
  scatterDimsToOperandDims := [0]
  indexVectorDim := 1
  wf := scatter_S64x96_S50000x1_S50000x96_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.Claims.lean ====
/-
  The five claims, assembled.

  Each program's frame claim is its run with the posts about the result dropped: the two kernels have a frame
  theorem of their own; the reference's run names its result and keeps its seventeen arguments, and the frame is
  the second half.  The idealization rewrote no operation, so there is nothing to preserve.  The algebraic claim
  takes one hypothesis: the kernel's result buffer after its run is the reference's result function of the kernel's
  seventeen argument arrays.  Given it, the common value of the two results is that function of the kernel's
  arguments: the kernel's run ends there by the hypothesis, and the reference's run ends at the same function of
  its own arguments, which agree with the kernel's one by one.
-/
import proofs.«137253_j64622077936098_1_alg».proof.Defs
import proofs.«137253_j64622077936098_1_alg».proof.Proof.Gen.Kernel
import proofs.«137253_j64622077936098_1_alg».proof.Proof.Gen.Kernel.Frame
import proofs.«137253_j64622077936098_1_alg».proof.Proof.Gen.KernelIdeal
import proofs.«137253_j64622077936098_1_alg».proof.Proof.Gen.KernelIdeal.Frame
import proofs.«137253_j64622077936098_1_alg».proof.Proof.Gen.ReferenceIdeal
import proofs.«137253_j64622077936098_1_alg».proof.Proof.Gen.Pre_finite_inputs
import proofs.«137253_j64622077936098_1_alg».proof.Proof.Gen.ReferenceIdeal.Run
import proofs.«137253_j64622077936098_1_alg».proof.Proof.Gen.ReferenceIdeal.Read
import proofs.«137253_j64622077936098_1_alg».proof.Proof.KRun

noncomputable section

open Idealize.ShloMosaic Idealize.ShloMosaic.TcCoe Idealize.SL.Sem

namespace Cert.Proof.Claims

/-! ## The frames -/

theorem frame_k : Cert.frame_Kernel := fun m ρ _ => Cert.Kernel.Gen.frame m ρ

theorem frame_ki : Cert.frame_KernelIdeal := fun m ρ _ => Cert.KernelIdeal.Gen.frame m ρ

/-- The reference's run names its result and keeps its arguments; the frame keeps the arguments only. -/
theorem frame_ri : Cert.frame_ReferenceIdeal := fun m ρ _ =>
  (θ_run Cert.ReferenceIdeal.defs _ _).mono (fun _ h c => (h c).2) (Cert.ReferenceIdeal.Value.run (F := Ideal) m ρ)

/-! ## The idealization -/

theorem preserves : Cert.preserves_Kernel_KernelIdeal := trivial

/-! ## The two results -/

/-- The reference's result function respects equality of its seventeen arguments. -/
theorem val_congr
    {x0 y0 : (⟨Cert.ReferenceIdeal.S50000x128, .f32⟩ : BufTy).Contents (Elt Ideal)} (e0 : x0 = y0)
    {x1 y1 : (⟨Cert.ReferenceIdeal.S2x800000, .i32⟩ : BufTy).Contents (Elt Ideal)} (e1 : x1 = y1)
    {x2 y2 : (⟨Cert.ReferenceIdeal.S800000x32, .f32⟩ : BufTy).Contents (Elt Ideal)} (e2 : x2 = y2)
    {x3 y3 : (⟨Cert.ReferenceIdeal.S50000, .i32⟩ : BufTy).Contents (Elt Ideal)} (e3 : x3 = y3)
    {x4 y4 : (⟨Cert.ReferenceIdeal.S128x96, .f32⟩ : BufTy).Contents (Elt Ideal)} (e4 : x4 = y4)
    {x5 y5 : (⟨Cert.ReferenceIdeal.S96, .f32⟩ : BufTy).Contents (Elt Ideal)} (e5 : x5 = y5)
    {x6 y6 : (⟨Cert.ReferenceIdeal.S96x96, .f32⟩ : BufTy).Contents (Elt Ideal)} (e6 : x6 = y6)
    {x7 y7 : (⟨Cert.ReferenceIdeal.S96, .f32⟩ : BufTy).Contents (Elt Ideal)} (e7 : x7 = y7)
    {x8 y8 : (⟨Cert.ReferenceIdeal.S32x96, .f32⟩ : BufTy).Contents (Elt Ideal)} (e8 : x8 = y8)
    {x9 y9 : (⟨Cert.ReferenceIdeal.S96, .f32⟩ : BufTy).Contents (Elt Ideal)} (e9 : x9 = y9)
    {x10 y10 : (⟨Cert.ReferenceIdeal.S96x96, .f32⟩ : BufTy).Contents (Elt Ideal)} (e10 : x10 = y10)
    {x11 y11 : (⟨Cert.ReferenceIdeal.S96, .f32⟩ : BufTy).Contents (Elt Ideal)} (e11 : x11 = y11)
    {x12 y12 : (⟨Cert.ReferenceIdeal.S3x96x96, .f32⟩ : BufTy).Contents (Elt Ideal)} (e12 : x12 = y12)
    {x13 y13 : (⟨Cert.ReferenceIdeal.S3x96, .f32⟩ : BufTy).Contents (Elt Ideal)} (e13 : x13 = y13)
    {x14 y14 : (⟨Cert.ReferenceIdeal.S3x96x96, .f32⟩ : BufTy).Contents (Elt Ideal)} (e14 : x14 = y14)
    {x15 y15 : (⟨Cert.ReferenceIdeal.S3x96, .f32⟩ : BufTy).Contents (Elt Ideal)} (e15 : x15 = y15)
    {x16 y16 : (⟨Cert.ReferenceIdeal.S3x96x96, .f32⟩ : BufTy).Contents (Elt Ideal)} (e16 : x16 = y16) :
    Cert.ReferenceIdeal.Read.val_main_v143 (F := Ideal) x0 x1 x2 x3 x4 x5 x6 x7 x8 x9 x10 x11 x12 x13 x14 x15 x16
      = Cert.ReferenceIdeal.Read.val_main_v143 (F := Ideal) y0 y1 y2 y3 y4 y5 y6 y7 y8 y9 y10 y11 y12 y13 y14 y15 y16 := by
  subst e0 e1 e2 e3 e4 e5 e6 e7 e8 e9 e10 e11 e12 e13 e14 e15 e16
  rfl

/-- If the kernel's result buffer after its run is the reference's result function of the kernel's argument arrays,
    then from memories that agree on the arguments both programs end with that one value and unchanged arguments. -/
theorem algebraic_of
    (hres : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.KernelIdeal.Gen.W11 m ρ c (Proc.devRef .tc Cert.KernelIdeal.main_v92)
        = Cert.ReferenceIdeal.Read.val_main_v143 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) :
    Cert.algebraic_KernelIdeal_ReferenceIdeal := by
  intro m ρ m' ρ' _ hagree
  refine ⟨fun c => Cert.ReferenceIdeal.Read.val_main_v143 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run (Cert.KernelIdeal.defs (F := Ideal)) _ _).mono (fun r h c => ⟨(h c).1.trans (hres m ρ c), (h c).2⟩)
      (Cert.KernelIdeal.GenP.run_result (F := Ideal) m ρ)
  · refine (θ_run (Cert.ReferenceIdeal.defs (F := Ideal)) _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    exact (Cert.ReferenceIdeal.Read.val_main_v143_eq (F := Ideal) m' c).trans
      (val_congr e0 e1 e2 e3 e4 e5 e6 e7 e8 e9 e10 e11 e12 e13 e14 e15 e16)

/-- Everything the certificate claims, given the same hypothesis. -/
theorem claim_of
    (hres : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.KernelIdeal.Gen.W11 m ρ c (Proc.devRef .tc Cert.KernelIdeal.main_v92)
        = Cert.ReferenceIdeal.Read.val_main_v143 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) :
    Cert.Claim :=
  ⟨Cert.Kernel.Gen.facts, Cert.KernelIdeal.Gen.facts, Cert.ReferenceIdeal.Gen.facts, Cert.Pre_finite_inputs.Gen.facts,
    frame_k, frame_ki, frame_ri, preserves, algebraic_of hres⟩

end Cert.Proof.Claims

end
-- ==== Proof.LibLinear.lean ====
/-
  Dense layers on the extended reals, read at an entry.

  For an [M, K] matrix X, a [K, N] matrix W and a bias b over the N columns, the affine layer has at (r, c) the
  entry  (sum over k < K of X (r, k) * W (k, c)) + b c.  The rectifier is the maximum with zero.  An entry of a
  layer depends on row r of X only: two matrices that agree on that row (a block of rows cut out of a taller
  matrix, read at the row's place in the block) give the same entry.
-/
import Idealize.ShloMosaic.Lib.ValueIdx
import Idealize.ShloMosaic.PureOps.Ideal.Laws

noncomputable section

namespace Cert.LibLinear

open Idealize.ShloMosaic Idealize.ShloMosaic.ValueIdx

variable {M M' K N : ℕ}

/-- The product part of a layer at (r, c): the sum over k of X (r, k) * W (k, c). -/
def dotAt (X : (⟨2, ![M, K]⟩ : Shape).Idx → EReal) (W : (⟨2, ![K, N]⟩ : Shape).Idx → EReal) (r : Fin M) (c : Fin N) : EReal :=
  ∑ k : Fin K, X (ix2 r k) * W (ix2 k c)

/-- The affine layer at (r, c). -/
def linAt (X : (⟨2, ![M, K]⟩ : Shape).Idx → EReal) (W : (⟨2, ![K, N]⟩ : Shape).Idx → EReal) (b : Fin N → EReal)
    (r : Fin M) (c : Fin N) : EReal :=
  dotAt X W r c + b c

/-- The rectifier: the maximum with the zero of binary32. -/
def relu (x : EReal) : EReal := max x (Ideal.ofBits .f32 0x00000000#32)

/-- An array from its entries. -/
def arr2 (f : Fin M → Fin N → EReal) : (⟨2, ![M, N]⟩ : Shape).Idx → EReal := fun j => f (j 0) (j 1)

theorem arr2_ix2 (f : Fin M → Fin N → EReal) (r : Fin M) (c : Fin N) : arr2 f (ix2 r c) = f r c := rfl

/-- The product part reads one row of the left matrix. -/
theorem dotAt_row (X : (⟨2, ![M, K]⟩ : Shape).Idx → EReal) (X' : (⟨2, ![M', K]⟩ : Shape).Idx → EReal)
    (W : (⟨2, ![K, N]⟩ : Shape).Idx → EReal) (r : Fin M) (r' : Fin M') (c : Fin N)
    (h : ∀ k : Fin K, X (ix2 r k) = X' (ix2 r' k)) : dotAt X W r c = dotAt X' W r' c :=
  Finset.sum_congr rfl fun k _ => by rw [h k]

/-- The product part with the right matrix replaced by an equal one, entry by entry. -/
theorem dotAt_right (X : (⟨2, ![M, K]⟩ : Shape).Idx → EReal) (W W' : (⟨2, ![K, N]⟩ : Shape).Idx → EReal)
    (r : Fin M) (c : Fin N) (h : ∀ k : Fin K, W (ix2 k c) = W' (ix2 k c)) : dotAt X W r c = dotAt X W' r c :=
  Finset.sum_congr rfl fun k _ => by rw [h k]

/-- The affine layer reads one row of the left matrix. -/
theorem linAt_row (X : (⟨2, ![M, K]⟩ : Shape).Idx → EReal) (X' : (⟨2, ![M', K]⟩ : Shape).Idx → EReal)
    (W : (⟨2, ![K, N]⟩ : Shape).Idx → EReal) (b : Fin N → EReal) (r : Fin M) (r' : Fin M') (c : Fin N)
    (h : ∀ k : Fin K, X (ix2 r k) = X' (ix2 r' k)) : linAt X W b r c = linAt X' W b r' c := by
  unfold linAt; rw [dotAt_row X X' W r r' c h]

variable {H : ℕ}

/-- Two layers with the rectifier between them, at (r, c):
    (sum over k of relu ((sum over j of X (r, j) * W1 (j, k)) + b1 k) * W2 (k, c)) + b2 c. -/
def mlp2At (X : (⟨2, ![M, K]⟩ : Shape).Idx → EReal) (W1 : (⟨2, ![K, H]⟩ : Shape).Idx → EReal) (b1 : Fin H → EReal)
    (W2 : (⟨2, ![H, N]⟩ : Shape).Idx → EReal) (b2 : Fin N → EReal) (r : Fin M) (c : Fin N) : EReal :=
  linAt (arr2 fun r' k => relu (linAt X W1 b1 r' k)) W2 b2 r c

/-- Two layers read one row of the input. -/
theorem mlp2At_row (X : (⟨2, ![M, K]⟩ : Shape).Idx → EReal) (X' : (⟨2, ![M', K]⟩ : Shape).Idx → EReal)
    (W1 : (⟨2, ![K, H]⟩ : Shape).Idx → EReal) (b1 : Fin H → EReal)
    (W2 : (⟨2, ![H, N]⟩ : Shape).Idx → EReal) (b2 : Fin N → EReal) (r : Fin M) (r' : Fin M') (c : Fin N)
    (h : ∀ k : Fin K, X (ix2 r k) = X' (ix2 r' k)) : mlp2At X W1 b1 W2 b2 r c = mlp2At X' W1 b1 W2 b2 r' c := by
  unfold mlp2At
  refine linAt_row _ _ W2 b2 r r' c fun k => ?_
  rw [arr2_ix2, arr2_ix2, linAt_row X X' W1 b1 r r' k h]

/-- The graph convolution's combine step at (r, c): (A Wl + bl) + Hm Wr, for the aggregated messages A and the node
    features Hm. -/
def convAt (A Hm : (⟨2, ![M, K]⟩ : Shape).Idx → EReal) (Wl : (⟨2, ![K, N]⟩ : Shape).Idx → EReal) (bl : Fin N → EReal)
    (Wr : (⟨2, ![K, N]⟩ : Shape).Idx → EReal) (r : Fin M) (c : Fin N) : EReal :=
  linAt A Wl bl r c + dotAt Hm Wr r c

/-- The combine step reads one row of each of its two inputs. -/
theorem convAt_row (A Hm : (⟨2, ![M, K]⟩ : Shape).Idx → EReal) (A' Hm' : (⟨2, ![M', K]⟩ : Shape).Idx → EReal)
    (Wl : (⟨2, ![K, N]⟩ : Shape).Idx → EReal) (bl : Fin N → EReal) (Wr : (⟨2, ![K, N]⟩ : Shape).Idx → EReal)
    (r : Fin M) (r' : Fin M') (c : Fin N)
    (hA : ∀ k : Fin K, A (ix2 r k) = A' (ix2 r' k)) (hH : ∀ k : Fin K, Hm (ix2 r k) = Hm' (ix2 r' k)) :
    convAt A Hm Wl bl Wr r c = convAt A' Hm' Wl bl Wr r' c := by
  unfold convAt; rw [linAt_row A A' Wl bl r r' c hA, dotAt_row Hm Hm' Wr r r' c hH]

end Cert.LibLinear

end
-- ==== Proof.LibPlainDot.lean ====
/-
  A plain matrix product on the extended reals, read at an entry.

  For dimension numbers that contract the left operand's second axis with the right operand's first and have no
  batch axis, the product of an [M, K] and a [K, N] matrix into the zero accumulator has, at row r and column c,
  the entry  sum over k < K of  lhs (r, k) * rhs (k, c).  The contraction position of the dimension numbers is a
  one-coordinate index; the sum over it is re-indexed through the bijection with that coordinate.  The two facts
  about the non-contracted coordinates (the left index keeps the row, the right index keeps the column) depend on
  the particular dimension numbers and are taken as hypotheses: for literal dimension numbers each is decided by
  unfolding the index map once.
-/
import Idealize.ShloMosaic.Lib.ValueIdx
import Idealize.ShloMosaic.PureOps.Ideal.Laws

noncomputable section

namespace Cert.LibPlainDot

open Idealize.ShloMosaic Idealize.ShloMosaic.ValueIdx

variable {M K N : ℕ} {φ₁ φ₂ : FTy}

/-- The sum over the one-coordinate contraction position is the sum over that coordinate, with the operands read at
    (row, k) and (k, column). -/
theorem contr_sum_ix2 (d : DotDims (⟨2, ![M, K]⟩ : Shape) ⟨2, ![K, N]⟩ ⟨2, ![M, N]⟩)
    (hr : d.contr.rank = 1) (hs : d.contr.size ⟨0, by omega⟩ = K)
    (hlc : d.lhsContracting = [(1 : Fin 2)]) (hrc : d.rhsContracting = [(0 : Fin 2)])
    (hl0 : ∀ (j : (⟨2, ![M, N]⟩ : Shape).Idx) (q : d.contr.Idx), (d.lhsIdx j q (0 : Fin 2)).val = (j (0 : Fin 2)).val)
    (hr1 : ∀ (j : (⟨2, ![M, N]⟩ : Shape).Idx) (q : d.contr.Idx), (d.rhsIdx j q (1 : Fin 2)).val = (j (1 : Fin 2)).val)
    (lhs : FVec Ideal ⟨2, ![M, K]⟩ φ₁) (rhs : FVec Ideal ⟨2, ![K, N]⟩ φ₂) (r : Fin M) (c : Fin N) :
    (∑ q : d.contr.Idx, lhs (d.lhsIdx (ix2 r c) q) * rhs (d.rhsIdx (ix2 r c) q))
      = ∑ k : Fin K, lhs (ix2 r k) * rhs (ix2 k c) := by
  rw [← Equiv.sum_comp (contrEquiv1 d K hr hs).symm]
  refine Finset.sum_congr rfl fun k _ => ?_
  have hk := contrEquiv1_symm_val d K hr hs k
  have el : d.lhsIdx (ix2 r c) ((contrEquiv1 d K hr hs).symm k) = ix2 r k := funext fun a => Fin.ext (by
    match a with
    | ⟨0, _⟩ => exact hl0 _ _
    | ⟨1, _⟩ => exact (d.lhsIdx_val_of_single hlc _ _).trans hk)
  have er : d.rhsIdx (ix2 r c) ((contrEquiv1 d K hr hs).symm k) = ix2 k c := funext fun a => Fin.ext (by
    match a with
    | ⟨0, _⟩ => exact (d.rhsIdx_val_of_single hrc _ _).trans hk
    | ⟨1, _⟩ => exact hr1 _ _)
  rw [el, er]

/-- A matrix product into the zero accumulator, at (r, c), is the sum over k of lhs (r, k) * rhs (k, c). -/
theorem matmul_zero_ix2 (d : DotDims (⟨2, ![M, K]⟩ : Shape) ⟨2, ![K, N]⟩ ⟨2, ![M, N]⟩)
    (hr : d.contr.rank = 1) (hs : d.contr.size ⟨0, by omega⟩ = K)
    (hlc : d.lhsContracting = [(1 : Fin 2)]) (hrc : d.rhsContracting = [(0 : Fin 2)])
    (hl0 : ∀ (j : (⟨2, ![M, N]⟩ : Shape).Idx) (q : d.contr.Idx), (d.lhsIdx j q (0 : Fin 2)).val = (j (0 : Fin 2)).val)
    (hr1 : ∀ (j : (⟨2, ![M, N]⟩ : Shape).Idx) (q : d.contr.Idx), (d.rhsIdx j q (1 : Fin 2)).val = (j (1 : Fin 2)).val)
    (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) :=
  (Ideal.matmul_constant_zero_apply d prec lhs rhs (ix2 r c)).trans
    (contr_sum_ix2 d hr hs hlc hrc hl0 hr1 lhs rhs r c)

end Cert.LibPlainDot

end
-- ==== Proof.Reg0.lean ====
/-
  The node-initialisation call: what its result array holds.

  The call cuts the [50000, 128] node features into ten blocks of 5000 rows; at block t the body multiplies the
  block by the first weight matrix, adds the first bias, rectifies, multiplies by the second weight matrix and adds the
  second bias, and writes the [5000, 96] result as block t of the output.  An entry of two layers depends on one row
  of the input only, so block t of the result is block t of the two-layer function of the whole array; the ten blocks
  cover the rows (row r lies in block r / 5000), so the output array is that function everywhere.
-/
import proofs.«137253_j64622077936098_1_alg».proof.Proof.Gen.KernelIdeal.Frame
import proofs.«137253_j64622077936098_1_alg».proof.Proof.LibLinear
import proofs.«137253_j64622077936098_1_alg».proof.Proof.LibPlainDot
import Idealize.ShloMosaic.Lib.Pipeline.Value
import Idealize.ShloMosaic.Lib.ValueLayout

set_option maxRecDepth 16384

noncomputable section

namespace Cert.KernelIdeal.NodeInit

open Cert.KernelIdeal Cert.KernelIdeal.Gen Idealize.ShloMosaic Idealize.ShloMosaic.ValueIdx Idealize.ShloMosaic.TcCoe Idealize.SL.Sem
open Cert.LibLinear

/-! ## The two matrix products of the body at an entry -/

theorem d1_l0 (j : S5000x96.Idx) (q : dot_S5000x128_S128x96_S5000x96_1_0_0_1_n_n.contr.Idx) :
    (dot_S5000x128_S128x96_S5000x96_1_0_0_1_n_n.lhsIdx j q 0).val = (j 0).val := by
  unfold DotDims.lhsIdx
  rw [dif_neg (show ¬(0 : Fin S5000x128.rank) ∈ dot_S5000x128_S128x96_S5000x96_1_0_0_1_n_n.lhsBatch by decide), dif_pos (show (0 : Fin S5000x128.rank) ∈ dot_S5000x128_S128x96_S5000x96_1_0_0_1_n_n.lhsNonContracting by decide)]
  rfl

theorem d1_r1 (j : S5000x96.Idx) (q : dot_S5000x128_S128x96_S5000x96_1_0_0_1_n_n.contr.Idx) :
    (dot_S5000x128_S128x96_S5000x96_1_0_0_1_n_n.rhsIdx j q 1).val = (j 1).val := by
  unfold DotDims.rhsIdx
  rw [dif_neg (show ¬(1 : Fin S128x96.rank) ∈ dot_S5000x128_S128x96_S5000x96_1_0_0_1_n_n.rhsBatch by decide), dif_pos (show (1 : Fin S128x96.rank) ∈ dot_S5000x128_S128x96_S5000x96_1_0_0_1_n_n.rhsNonContracting by decide)]
  rfl

theorem d2_l0 (j : S5000x96.Idx) (q : dot_S5000x96_S96x96_S5000x96_1_0_0_1_n_n.contr.Idx) :
    (dot_S5000x96_S96x96_S5000x96_1_0_0_1_n_n.lhsIdx j q 0).val = (j 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl

theorem d2_r1 (j : S5000x96.Idx) (q : dot_S5000x96_S96x96_S5000x96_1_0_0_1_n_n.contr.Idx) :
    (dot_S5000x96_S96x96_S5000x96_1_0_0_1_n_n.rhsIdx j q 1).val = (j 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- The first product of a block at (p, k): the sum over the 128 input features. -/
theorem mm1 (a : FVec Ideal S5000x128 .bf16) (b : FVec Ideal S128x96 .bf16) (p : Fin 5000) (k : Fin 96) :
    FloatOps.matmul dot_S5000x128_S128x96_S5000x96_1_0_0_1_n_n none a b (constant S5000x96 .f32 0x00000000#32) (ix2 p k)
      = dotAt a b p k :=
  Cert.LibPlainDot.matmul_zero_ix2 dot_S5000x128_S128x96_S5000x96_1_0_0_1_n_n rfl rfl rfl rfl d1_l0 d1_r1 none a b p k

/-- The second product of a block at (p, q): the sum over the 96 hidden features. -/
theorem mm2 (a : FVec Ideal S5000x96 .bf16) (b : FVec Ideal S96x96 .bf16) (p : Fin 5000) (q : Fin 96) :
    FloatOps.matmul dot_S5000x96_S96x96_S5000x96_1_0_0_1_n_n none a b (constant S5000x96 .f32 0x00000000#32) (ix2 p q)
      = dotAt a b p q :=
  Cert.LibPlainDot.matmul_zero_ix2 dot_S5000x96_S96x96_S5000x96_1_0_0_1_n_n rfl rfl rfl rfl d2_l0 d2_r1 none a b p q

/-! ## The body's stored value at an entry -/

/-- The value the body stores, at (p, q), is the two-layer function of its loaded blocks at (p, q). -/
theorem pay_at (x0 : Vec Ideal S5000x128 .f32) (x1 : Vec Ideal S128x96 .f32) (x2 : Vec Ideal S1x96 .f32)
    (x3 : Vec Ideal S96x96 .f32) (x4 : Vec Ideal S1x96 .f32) (p : Fin 5000) (q : Fin 96) :
    k0_pay1 x0 x1 x2 x3 x4 (ix2 p q)
      = mlp2At x0 x1 (fun k => x2 (ix2 (0 : Fin 1) k)) x3 (fun k => x4 (ix2 (0 : Fin 1) k)) p q := by
  unfold k0_pay1 mlp2At linAt
  dsimp only
  refine congrArg₂ (· + ·) ?_ ?_
  · refine (mm2 _ _ p q).trans ?_
    unfold dotAt
    refine Finset.sum_congr rfl fun k _ => ?_
    refine congrArg₂ (· * ·) ?_ rfl
    rw [arr2_ix2]
    refine congrArg₂ max (congrArg₂ (· + ·) (mm1 _ _ p k) ?_) rfl
    exact (broadcastTo_1b_ab_apply _ _ p k).trans (congrFun (shapeCast_self x2 _) _)
  · exact (broadcastTo_1b_ab_apply _ _ p q).trans (congrFun (shapeCast_self x4 _) _)

/-! ## From the blocks to the array -/

theorem hz : (![0, 0] : Fin 2 → Nat) = fun _ => 0 := funext fun a => by fin_cases a <;> rfl

/-- The index maps over the ten grid points: at point t the input and the output window sit at block t of their
    arrays' rows; the weights and the biases are whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b)) (c : Dev nD)

/-- The two-layer function of the arrays the call finds: node features, two weight matrices, two bias rows. -/
def G : S50000x96.Idx → EReal :=
  arr2 fun r q => mlp2At (V c main_arg0) (V c main_arg4) (fun k => V c main_v4 (ix2 (0 : Fin 1) k))
    (V c main_arg6) (fun k => V c main_v5 (ix2 (0 : Fin 1) k)) r q

/-- A window whose block is its whole array: the block read at an index is the array there. -/
theorem blk1 (t : Fin cfg0.N) : iblk0 V c 1 t = V c main_arg4 := by
  obtain ⟨-, -, e10, e11, -⟩ := idx_facts t
  funext y
  show V c main_arg4 (((cfg0.win 1).blk t).view.emb y) = V c main_arg4 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 96 + 1 * (y 1).val = (y 1).val; omega

theorem blk2 (t : Fin cfg0.N) : iblk0 V c 2 t = V c main_v4 := by
  obtain ⟨-, -, -, -, e20, e21, -⟩ := idx_facts t
  funext y
  show V c main_v4 (((cfg0.win 2).blk t).view.emb y) = V c main_v4 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 96 + 1 * (y 1).val = (y 1).val; omega

theorem blk3 (t : Fin cfg0.N) : iblk0 V c 3 t = V c main_arg6 := by
  obtain ⟨-, -, -, -, -, -, e30, e31, -⟩ := idx_facts t
  funext y
  show V c main_arg6 (((cfg0.win 3).blk t).view.emb y) = V c main_arg6 y
  refine congrArg _ (funext fun a => Fin.ext ?_)
  match a with
  | ⟨0, _⟩ => show win0_3.index t (0 : Fin 2) * 96 + 1 * (y 0).val = (y 0).val; omega
  | ⟨1, _⟩ => show win0_3.index t (1 : Fin 2) * 96 + 1 * (y 1).val = (y 1).val; omega

theorem blk4 (t : Fin cfg0.N) : iblk0 V c 4 t = V c main_v5 := by
  obtain ⟨-, -, -, -, -, -, -, -, e40, e41, -⟩ := idx_facts t
  funext y
  show V c main_v5 (((cfg0.win 4).blk t).view.emb y) = V c main_v5 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 96 + 1 * (y 1).val = (y 1).val; omega

/-- Row p of the input block at point t is row t * 5000 + p of the node features. -/
theorem blk0 (t : Fin cfg0.N) (p : Fin 5000) (k : Fin 128) (h : t.val * 5000 + p.val < 50000) :
    iblk0 V c 0 t (ix2 p k) = V c main_arg0 (ix2 (⟨t.val * 5000 + p.val, h⟩ : Fin 50000) k) := by
  obtain ⟨e00, e01, -⟩ := idx_facts t
  show V c main_arg0 (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- What point t writes back is block t of the two-layer function of the arrays. -/
theorem flushed_eq (t : Fin cfg0.N) :
    (dat0 (F := Ideal) V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x96) hz, View.ld_unit_zero (S := S1x96) hz,
    View.ld_unit_zero (S := S96x96) hz]
  rw [blk1, blk2, blk3, blk4]
  obtain ⟨-, -, -, -, -, -, -, -, -, -, e50, e51⟩ := idx_facts t
  have ht : t.val < 10 := lt_of_lt_of_eq t.isLt N_0
  funext j
  obtain ⟨p, q, rfl⟩ : ∃ (p : Fin 5000) (q : Fin 96), j = ix2 p q := ⟨j 0, j 1, eq_ix2 j⟩
  have hp : t.val * 5000 + p.val < 50000 := by have := p.isLt; omega
  refine (pay_at _ _ _ _ _ p q).trans ?_
  have h5 : ((cfg0.win 5).blk t).view.emb (ix2 p q) = ix2 (⟨t.val * 5000 + p.val, hp⟩ : Fin 50000) q := by
    funext a; apply Fin.ext
    match a with
    | ⟨0, _⟩ => show win0_5.index t (0 : Fin 2) * 5000 + 1 * p.val = t.val * 5000 + p.val; omega
    | ⟨1, _⟩ => show win0_5.index t (1 : Fin 2) * 96 + 1 * q.val = q.val; omega
  show _ = G V c (((cfg0.win 5).blk t).view.emb (ix2 p q))
  rw [h5]
  unfold G
  rw [arr2_ix2]
  exact mlp2At_row _ _ _ _ _ _ p _ q fun k => blk0 V c t p k hp

/-- An index of the output array is in point t's block iff each coordinate is in the block's range. -/
theorem mem_blk (t : Fin cfg0.N) (i : S50000x96.Idx) :
    i ∈ ((cfg0.win 5).blk t).view.set ↔ ∀ a : Fin 2, win0_5.index t a * S5000x96.size a ≤ (i a).val ∧ (i a).val < win0_5.index t a * S5000x96.size a + S5000x96.size a := by
  show i ∈ ((View.whole main_v6).slice (win0_5.rect t)).set ↔ _
  rw [View.set_slice_whole, Rect.mem_set_unit]
  exact Iff.rfl

/-- Every index of the output array is in some point's block: row r in block r / 5000. -/
theorem cover (i : S50000x96.Idx) : ∃ t : Fin cfg0.N, (cfg0.win 5).flush t = true ∧ i ∈ ((cfg0.win 5).blk t).view.set := by
  have hi0 : (i 0).val < 50000 := (i 0).isLt
  have hi1 : (i 1).val < 96 := (i 1).isLt
  have hN : (i 0).val / 5000 < cfg0.N := by rw [show cfg0.N = 10 from N_0]; omega
  obtain ⟨-, -, -, -, -, -, -, -, -, -, e50, e51⟩ := idx_facts ⟨(i 0).val / 5000, hN⟩
  refine ⟨⟨(i 0).val / 5000, hN⟩, flush0_5 _, ?_⟩
  rw [mem_blk]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, hN⟩ (1 : Fin 2) * 96 ≤ (i 1).val ∧ (i 1).val < win0_5.index ⟨(i 0).val / 5000, hN⟩ (1 : Fin 2) * 96 + 96
    omega

/-- The output array after the call: the two-layer function of the arrays the call finds. -/
theorem final : (dat0 (F := Ideal) V c).arrAt 5 cfg0.N = G V c :=
  (dat0 V c).arrAt_eq_of_cover 5 (G V c) (fun t _ => flushed_eq V c t) (cover)

end Cert.KernelIdeal.NodeInit

end
-- ==== Proof.BridgeWalk.lean ====
/-
  Buffers that stay put along the idealized kernel's run.

  The contents of the device's buffers at the boundaries of the program's eleven segments are a fold: a stretch of
  host operations changes only the buffers its operations write, a call changes only its windows' arrays.  A
  buffer that none of the segments between two boundaries writes holds at the later boundary what it held at the
  earlier one: the arguments from the launch on, the edge end points from the first stretch on, the in-degree counts
  from the third, each call's result until its last reader.
-/
import proofs.«137253_j64622077936098_1_alg».proof.Proof.Gen.KernelIdeal.Frame
import Idealize.ShloMosaic.Lib.StableHlo.Run
import Idealize.ShloMosaic.PureOps.Ideal

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.StableHlo

/-- A buffer no operation of a stretch writes holds after the stretch what it held before. -/
macro "skip_ops " o:ident : tactic => `(tactic| exact StableHlo.after_of_forall_not_mem _ _ (List.forall_iff_forall_mem.mp (by
    simp only [$o:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

theorem keep_arg3_1 : W1 m ρ c (Proc.devRef .tc main_arg3) = m ((c : Thread nD τ).loc main_arg3) :=
  (show StableHlo.after hostOps0 (W0 m ρ c) (Proc.devRef .tc main_arg3) = W0 m ρ c (Proc.devRef .tc main_arg3) by skip_ops hostOps0).trans rfl
theorem keep_arg3_2 : W2 m ρ c (Proc.devRef .tc main_arg3) = m ((c : Thread nD τ).loc main_arg3) :=
  (W2_of_ne m ρ c main_arg3 (by decide)).trans (keep_arg3_1 m ρ c)
theorem keep_arg3_3 : W3 m ρ c (Proc.devRef .tc main_arg3) = m ((c : Thread nD τ).loc main_arg3) :=
  (show StableHlo.after hostOps1 (W2 m ρ c) (Proc.devRef .tc main_arg3) = W2 m ρ c (Proc.devRef .tc main_arg3) by skip_ops hostOps1).trans (keep_arg3_2 m ρ c)
theorem keep_arg3_4 : W4 m ρ c (Proc.devRef .tc main_arg3) = m ((c : Thread nD τ).loc main_arg3) :=
  (W4_of_ne m ρ c main_arg3 (by decide)).trans (keep_arg3_3 m ρ c)
theorem keep_arg3_5 : W5 m ρ c (Proc.devRef .tc main_arg3) = m ((c : Thread nD τ).loc main_arg3) :=
  (show StableHlo.after hostOps2 (W4 m ρ c) (Proc.devRef .tc main_arg3) = W4 m ρ c (Proc.devRef .tc main_arg3) by skip_ops hostOps2).trans (keep_arg3_4 m ρ c)
theorem keep_arg3_6 : W6 m ρ c (Proc.devRef .tc main_arg3) = m ((c : Thread nD τ).loc main_arg3) :=
  (W6_of_ne m ρ c main_arg3 (by decide)).trans (keep_arg3_5 m ρ c)
theorem keep_arg3_7 : W7 m ρ c (Proc.devRef .tc main_arg3) = m ((c : Thread nD τ).loc main_arg3) :=
  (show StableHlo.after hostOps3 (W6 m ρ c) (Proc.devRef .tc main_arg3) = W6 m ρ c (Proc.devRef .tc main_arg3) by skip_ops hostOps3).trans (keep_arg3_6 m ρ c)
theorem keep_arg3_8 : W8 m ρ c (Proc.devRef .tc main_arg3) = m ((c : Thread nD τ).loc main_arg3) :=
  (W8_of_ne m ρ c main_arg3 (by decide)).trans (keep_arg3_7 m ρ c)
theorem keep_arg3_9 : W9 m ρ c (Proc.devRef .tc main_arg3) = m ((c : Thread nD τ).loc main_arg3) :=
  (show StableHlo.after hostOps4 (W8 m ρ c) (Proc.devRef .tc main_arg3) = W8 m ρ c (Proc.devRef .tc main_arg3) by skip_ops hostOps4).trans (keep_arg3_8 m ρ c)
theorem keep_arg3_10 : W10 m ρ c (Proc.devRef .tc main_arg3) = m ((c : Thread nD τ).loc main_arg3) :=
  (W10_of_ne m ρ c main_arg3 (by decide)).trans (keep_arg3_9 m ρ c)
theorem keep_arg14_1 : W1 m ρ c (Proc.devRef .tc main_arg14) = m ((c : Thread nD τ).loc main_arg14) :=
  (show StableHlo.after hostOps0 (W0 m ρ c) (Proc.devRef .tc main_arg14) = W0 m ρ c (Proc.devRef .tc main_arg14) by skip_ops hostOps0).trans rfl
theorem keep_arg14_2 : W2 m ρ c (Proc.devRef .tc main_arg14) = m ((c : Thread nD τ).loc main_arg14) :=
  (W2_of_ne m ρ c main_arg14 (by decide)).trans (keep_arg14_1 m ρ c)
theorem keep_arg14_3 : W3 m ρ c (Proc.devRef .tc main_arg14) = m ((c : Thread nD τ).loc main_arg14) :=
  (show StableHlo.after hostOps1 (W2 m ρ c) (Proc.devRef .tc main_arg14) = W2 m ρ c (Proc.devRef .tc main_arg14) by skip_ops hostOps1).trans (keep_arg14_2 m ρ c)
theorem keep_arg14_4 : W4 m ρ c (Proc.devRef .tc main_arg14) = m ((c : Thread nD τ).loc main_arg14) :=
  (W4_of_ne m ρ c main_arg14 (by decide)).trans (keep_arg14_3 m ρ c)
theorem keep_arg14_5 : W5 m ρ c (Proc.devRef .tc main_arg14) = m ((c : Thread nD τ).loc main_arg14) :=
  (show StableHlo.after hostOps2 (W4 m ρ c) (Proc.devRef .tc main_arg14) = W4 m ρ c (Proc.devRef .tc main_arg14) by skip_ops hostOps2).trans (keep_arg14_4 m ρ c)
theorem keep_arg14_6 : W6 m ρ c (Proc.devRef .tc main_arg14) = m ((c : Thread nD τ).loc main_arg14) :=
  (W6_of_ne m ρ c main_arg14 (by decide)).trans (keep_arg14_5 m ρ c)
theorem keep_arg14_7 : W7 m ρ c (Proc.devRef .tc main_arg14) = m ((c : Thread nD τ).loc main_arg14) :=
  (show StableHlo.after hostOps3 (W6 m ρ c) (Proc.devRef .tc main_arg14) = W6 m ρ c (Proc.devRef .tc main_arg14) by skip_ops hostOps3).trans (keep_arg14_6 m ρ c)
theorem keep_arg14_8 : W8 m ρ c (Proc.devRef .tc main_arg14) = m ((c : Thread nD τ).loc main_arg14) :=
  (W8_of_ne m ρ c main_arg14 (by decide)).trans (keep_arg14_7 m ρ c)
theorem keep_arg15_1 : W1 m ρ c (Proc.devRef .tc main_arg15) = m ((c : Thread nD τ).loc main_arg15) :=
  (show StableHlo.after hostOps0 (W0 m ρ c) (Proc.devRef .tc main_arg15) = W0 m ρ c (Proc.devRef .tc main_arg15) by skip_ops hostOps0).trans rfl
theorem keep_arg15_2 : W2 m ρ c (Proc.devRef .tc main_arg15) = m ((c : Thread nD τ).loc main_arg15) :=
  (W2_of_ne m ρ c main_arg15 (by decide)).trans (keep_arg15_1 m ρ c)
theorem keep_arg15_3 : W3 m ρ c (Proc.devRef .tc main_arg15) = m ((c : Thread nD τ).loc main_arg15) :=
  (show StableHlo.after hostOps1 (W2 m ρ c) (Proc.devRef .tc main_arg15) = W2 m ρ c (Proc.devRef .tc main_arg15) by skip_ops hostOps1).trans (keep_arg15_2 m ρ c)
theorem keep_arg15_4 : W4 m ρ c (Proc.devRef .tc main_arg15) = m ((c : Thread nD τ).loc main_arg15) :=
  (W4_of_ne m ρ c main_arg15 (by decide)).trans (keep_arg15_3 m ρ c)
theorem keep_arg15_5 : W5 m ρ c (Proc.devRef .tc main_arg15) = m ((c : Thread nD τ).loc main_arg15) :=
  (show StableHlo.after hostOps2 (W4 m ρ c) (Proc.devRef .tc main_arg15) = W4 m ρ c (Proc.devRef .tc main_arg15) by skip_ops hostOps2).trans (keep_arg15_4 m ρ c)
theorem keep_arg15_6 : W6 m ρ c (Proc.devRef .tc main_arg15) = m ((c : Thread nD τ).loc main_arg15) :=
  (W6_of_ne m ρ c main_arg15 (by decide)).trans (keep_arg15_5 m ρ c)
theorem keep_arg15_7 : W7 m ρ c (Proc.devRef .tc main_arg15) = m ((c : Thread nD τ).loc main_arg15) :=
  (show StableHlo.after hostOps3 (W6 m ρ c) (Proc.devRef .tc main_arg15) = W6 m ρ c (Proc.devRef .tc main_arg15) by skip_ops hostOps3).trans (keep_arg15_6 m ρ c)
theorem keep_arg15_8 : W8 m ρ c (Proc.devRef .tc main_arg15) = m ((c : Thread nD τ).loc main_arg15) :=
  (W8_of_ne m ρ c main_arg15 (by decide)).trans (keep_arg15_7 m ρ c)
theorem keep_arg16_1 : W1 m ρ c (Proc.devRef .tc main_arg16) = m ((c : Thread nD τ).loc main_arg16) :=
  (show StableHlo.after hostOps0 (W0 m ρ c) (Proc.devRef .tc main_arg16) = W0 m ρ c (Proc.devRef .tc main_arg16) by skip_ops hostOps0).trans rfl
theorem keep_arg16_2 : W2 m ρ c (Proc.devRef .tc main_arg16) = m ((c : Thread nD τ).loc main_arg16) :=
  (W2_of_ne m ρ c main_arg16 (by decide)).trans (keep_arg16_1 m ρ c)
theorem keep_arg16_3 : W3 m ρ c (Proc.devRef .tc main_arg16) = m ((c : Thread nD τ).loc main_arg16) :=
  (show StableHlo.after hostOps1 (W2 m ρ c) (Proc.devRef .tc main_arg16) = W2 m ρ c (Proc.devRef .tc main_arg16) by skip_ops hostOps1).trans (keep_arg16_2 m ρ c)
theorem keep_arg16_4 : W4 m ρ c (Proc.devRef .tc main_arg16) = m ((c : Thread nD τ).loc main_arg16) :=
  (W4_of_ne m ρ c main_arg16 (by decide)).trans (keep_arg16_3 m ρ c)
theorem keep_arg16_5 : W5 m ρ c (Proc.devRef .tc main_arg16) = m ((c : Thread nD τ).loc main_arg16) :=
  (show StableHlo.after hostOps2 (W4 m ρ c) (Proc.devRef .tc main_arg16) = W4 m ρ c (Proc.devRef .tc main_arg16) by skip_ops hostOps2).trans (keep_arg16_4 m ρ c)
theorem keep_arg16_6 : W6 m ρ c (Proc.devRef .tc main_arg16) = m ((c : Thread nD τ).loc main_arg16) :=
  (W6_of_ne m ρ c main_arg16 (by decide)).trans (keep_arg16_5 m ρ c)
theorem keep_arg16_7 : W7 m ρ c (Proc.devRef .tc main_arg16) = m ((c : Thread nD τ).loc main_arg16) :=
  (show StableHlo.after hostOps3 (W6 m ρ c) (Proc.devRef .tc main_arg16) = W6 m ρ c (Proc.devRef .tc main_arg16) by skip_ops hostOps3).trans (keep_arg16_6 m ρ c)
theorem keep_arg16_8 : W8 m ρ c (Proc.devRef .tc main_arg16) = m ((c : Thread nD τ).loc main_arg16) :=
  (W8_of_ne m ρ c main_arg16 (by decide)).trans (keep_arg16_7 m ρ c)
theorem keep_arg2_1 : W1 m ρ c (Proc.devRef .tc main_arg2) = m ((c : Thread nD τ).loc main_arg2) :=
  (show StableHlo.after hostOps0 (W0 m ρ c) (Proc.devRef .tc main_arg2) = W0 m ρ c (Proc.devRef .tc main_arg2) by skip_ops hostOps0).trans rfl
theorem keep_arg2_2 : W2 m ρ c (Proc.devRef .tc main_arg2) = m ((c : Thread nD τ).loc main_arg2) :=
  (W2_of_ne m ρ c main_arg2 (by decide)).trans (keep_arg2_1 m ρ c)
theorem keep_arg2_3 : W3 m ρ c (Proc.devRef .tc main_arg2) = m ((c : Thread nD τ).loc main_arg2) :=
  (show StableHlo.after hostOps1 (W2 m ρ c) (Proc.devRef .tc main_arg2) = W2 m ρ c (Proc.devRef .tc main_arg2) by skip_ops hostOps1).trans (keep_arg2_2 m ρ c)
theorem keep_arg8_1 : W1 m ρ c (Proc.devRef .tc main_arg8) = m ((c : Thread nD τ).loc main_arg8) :=
  (show StableHlo.after hostOps0 (W0 m ρ c) (Proc.devRef .tc main_arg8) = W0 m ρ c (Proc.devRef .tc main_arg8) by skip_ops hostOps0).trans rfl
theorem keep_arg8_2 : W2 m ρ c (Proc.devRef .tc main_arg8) = m ((c : Thread nD τ).loc main_arg8) :=
  (W2_of_ne m ρ c main_arg8 (by decide)).trans (keep_arg8_1 m ρ c)
theorem keep_arg8_3 : W3 m ρ c (Proc.devRef .tc main_arg8) = m ((c : Thread nD τ).loc main_arg8) :=
  (show StableHlo.after hostOps1 (W2 m ρ c) (Proc.devRef .tc main_arg8) = W2 m ρ c (Proc.devRef .tc main_arg8) by skip_ops hostOps1).trans (keep_arg8_2 m ρ c)
theorem keep_arg10_1 : W1 m ρ c (Proc.devRef .tc main_arg10) = m ((c : Thread nD τ).loc main_arg10) :=
  (show StableHlo.after hostOps0 (W0 m ρ c) (Proc.devRef .tc main_arg10) = W0 m ρ c (Proc.devRef .tc main_arg10) by skip_ops hostOps0).trans rfl
theorem keep_arg10_2 : W2 m ρ c (Proc.devRef .tc main_arg10) = m ((c : Thread nD τ).loc main_arg10) :=
  (W2_of_ne m ρ c main_arg10 (by decide)).trans (keep_arg10_1 m ρ c)
theorem keep_arg10_3 : W3 m ρ c (Proc.devRef .tc main_arg10) = m ((c : Thread nD τ).loc main_arg10) :=
  (show StableHlo.after hostOps1 (W2 m ρ c) (Proc.devRef .tc main_arg10) = W2 m ρ c (Proc.devRef .tc main_arg10) by skip_ops hostOps1).trans (keep_arg10_2 m ρ c)
theorem keep_arg12_1 : W1 m ρ c (Proc.devRef .tc main_arg12) = m ((c : Thread nD τ).loc main_arg12) :=
  (show StableHlo.after hostOps0 (W0 m ρ c) (Proc.devRef .tc main_arg12) = W0 m ρ c (Proc.devRef .tc main_arg12) by skip_ops hostOps0).trans rfl
theorem keep_arg12_2 : W2 m ρ c (Proc.devRef .tc main_arg12) = m ((c : Thread nD τ).loc main_arg12) :=
  (W2_of_ne m ρ c main_arg12 (by decide)).trans (keep_arg12_1 m ρ c)
theorem keep_arg12_3 : W3 m ρ c (Proc.devRef .tc main_arg12) = m ((c : Thread nD τ).loc main_arg12) :=
  (show StableHlo.after hostOps1 (W2 m ρ c) (Proc.devRef .tc main_arg12) = W2 m ρ c (Proc.devRef .tc main_arg12) by skip_ops hostOps1).trans (keep_arg12_2 m ρ c)
theorem keep_arg9_1 : W1 m ρ c (Proc.devRef .tc main_arg9) = m ((c : Thread nD τ).loc main_arg9) :=
  (show StableHlo.after hostOps0 (W0 m ρ c) (Proc.devRef .tc main_arg9) = W0 m ρ c (Proc.devRef .tc main_arg9) by skip_ops hostOps0).trans rfl
theorem keep_arg9_2 : W2 m ρ c (Proc.devRef .tc main_arg9) = m ((c : Thread nD τ).loc main_arg9) :=
  (W2_of_ne m ρ c main_arg9 (by decide)).trans (keep_arg9_1 m ρ c)
theorem keep_arg11_1 : W1 m ρ c (Proc.devRef .tc main_arg11) = m ((c : Thread nD τ).loc main_arg11) :=
  (show StableHlo.after hostOps0 (W0 m ρ c) (Proc.devRef .tc main_arg11) = W0 m ρ c (Proc.devRef .tc main_arg11) by skip_ops hostOps0).trans rfl
theorem keep_arg11_2 : W2 m ρ c (Proc.devRef .tc main_arg11) = m ((c : Thread nD τ).loc main_arg11) :=
  (W2_of_ne m ρ c main_arg11 (by decide)).trans (keep_arg11_1 m ρ c)
theorem keep_arg13_1 : W1 m ρ c (Proc.devRef .tc main_arg13) = m ((c : Thread nD τ).loc main_arg13) :=
  (show StableHlo.after hostOps0 (W0 m ρ c) (Proc.devRef .tc main_arg13) = W0 m ρ c (Proc.devRef .tc main_arg13) by skip_ops hostOps0).trans rfl
theorem keep_arg13_2 : W2 m ρ c (Proc.devRef .tc main_arg13) = m ((c : Thread nD τ).loc main_arg13) :=
  (W2_of_ne m ρ c main_arg13 (by decide)).trans (keep_arg13_1 m ρ c)
theorem keep_v1_2 : W2 m ρ c (Proc.devRef .tc main_v1) = W1 m ρ c (Proc.devRef .tc main_v1) :=
  (W2_of_ne m ρ c main_v1 (by decide)).trans rfl
theorem keep_v1_3 : W3 m ρ c (Proc.devRef .tc main_v1) = W1 m ρ c (Proc.devRef .tc main_v1) :=
  (show StableHlo.after hostOps1 (W2 m ρ c) (Proc.devRef .tc main_v1) = W2 m ρ c (Proc.devRef .tc main_v1) by skip_ops hostOps1).trans (keep_v1_2 m ρ c)
theorem keep_v1_4 : W4 m ρ c (Proc.devRef .tc main_v1) = W1 m ρ c (Proc.devRef .tc main_v1) :=
  (W4_of_ne m ρ c main_v1 (by decide)).trans (keep_v1_3 m ρ c)
theorem keep_v1_5 : W5 m ρ c (Proc.devRef .tc main_v1) = W1 m ρ c (Proc.devRef .tc main_v1) :=
  (show StableHlo.after hostOps2 (W4 m ρ c) (Proc.devRef .tc main_v1) = W4 m ρ c (Proc.devRef .tc main_v1) by skip_ops hostOps2).trans (keep_v1_4 m ρ c)
theorem keep_v1_6 : W6 m ρ c (Proc.devRef .tc main_v1) = W1 m ρ c (Proc.devRef .tc main_v1) :=
  (W6_of_ne m ρ c main_v1 (by decide)).trans (keep_v1_5 m ρ c)
theorem keep_v1_7 : W7 m ρ c (Proc.devRef .tc main_v1) = W1 m ρ c (Proc.devRef .tc main_v1) :=
  (show StableHlo.after hostOps3 (W6 m ρ c) (Proc.devRef .tc main_v1) = W6 m ρ c (Proc.devRef .tc main_v1) by skip_ops hostOps3).trans (keep_v1_6 m ρ c)
theorem keep_v1_8 : W8 m ρ c (Proc.devRef .tc main_v1) = W1 m ρ c (Proc.devRef .tc main_v1) :=
  (W8_of_ne m ρ c main_v1 (by decide)).trans (keep_v1_7 m ρ c)
theorem keep_v3_2 : W2 m ρ c (Proc.devRef .tc main_v3) = W1 m ρ c (Proc.devRef .tc main_v3) :=
  (W2_of_ne m ρ c main_v3 (by decide)).trans rfl
theorem keep_v3_3 : W3 m ρ c (Proc.devRef .tc main_v3) = W1 m ρ c (Proc.devRef .tc main_v3) :=
  (show StableHlo.after hostOps1 (W2 m ρ c) (Proc.devRef .tc main_v3) = W2 m ρ c (Proc.devRef .tc main_v3) by skip_ops hostOps1).trans (keep_v3_2 m ρ c)
theorem keep_v3_4 : W4 m ρ c (Proc.devRef .tc main_v3) = W1 m ρ c (Proc.devRef .tc main_v3) :=
  (W4_of_ne m ρ c main_v3 (by decide)).trans (keep_v3_3 m ρ c)
theorem keep_v3_5 : W5 m ρ c (Proc.devRef .tc main_v3) = W1 m ρ c (Proc.devRef .tc main_v3) :=
  (show StableHlo.after hostOps2 (W4 m ρ c) (Proc.devRef .tc main_v3) = W4 m ρ c (Proc.devRef .tc main_v3) by skip_ops hostOps2).trans (keep_v3_4 m ρ c)
theorem keep_v3_6 : W6 m ρ c (Proc.devRef .tc main_v3) = W1 m ρ c (Proc.devRef .tc main_v3) :=
  (W6_of_ne m ρ c main_v3 (by decide)).trans (keep_v3_5 m ρ c)
theorem keep_v3_7 : W7 m ρ c (Proc.devRef .tc main_v3) = W1 m ρ c (Proc.devRef .tc main_v3) :=
  (show StableHlo.after hostOps3 (W6 m ρ c) (Proc.devRef .tc main_v3) = W6 m ρ c (Proc.devRef .tc main_v3) by skip_ops hostOps3).trans (keep_v3_6 m ρ c)
theorem keep_v3_8 : W8 m ρ c (Proc.devRef .tc main_v3) = W1 m ρ c (Proc.devRef .tc main_v3) :=
  (W8_of_ne m ρ c main_v3 (by decide)).trans (keep_v3_7 m ρ c)
theorem keep_v17_6 : W6 m ρ c (Proc.devRef .tc main_v17) = W5 m ρ c (Proc.devRef .tc main_v17) :=
  (W6_of_ne m ρ c main_v17 (by decide)).trans rfl
theorem keep_v17_7 : W7 m ρ c (Proc.devRef .tc main_v17) = W5 m ρ c (Proc.devRef .tc main_v17) :=
  (show StableHlo.after hostOps3 (W6 m ρ c) (Proc.devRef .tc main_v17) = W6 m ρ c (Proc.devRef .tc main_v17) by skip_ops hostOps3).trans (keep_v17_6 m ρ c)
theorem keep_v17_8 : W8 m ρ c (Proc.devRef .tc main_v17) = W5 m ρ c (Proc.devRef .tc main_v17) :=
  (W8_of_ne m ρ c main_v17 (by decide)).trans (keep_v17_7 m ρ c)
theorem keep_v6_3 : W3 m ρ c (Proc.devRef .tc main_v6) = W2 m ρ c (Proc.devRef .tc main_v6) :=
  (show StableHlo.after hostOps1 (W2 m ρ c) (Proc.devRef .tc main_v6) = W2 m ρ c (Proc.devRef .tc main_v6) by skip_ops hostOps1).trans rfl
theorem keep_v6_4 : W4 m ρ c (Proc.devRef .tc main_v6) = W2 m ρ c (Proc.devRef .tc main_v6) :=
  (W4_of_ne m ρ c main_v6 (by decide)).trans (keep_v6_3 m ρ c)
theorem keep_v10_1_5 : W5 m ρ c (Proc.devRef .tc main_v10_1) = W4 m ρ c (Proc.devRef .tc main_v10_1) :=
  (show StableHlo.after hostOps2 (W4 m ρ c) (Proc.devRef .tc main_v10_1) = W4 m ρ c (Proc.devRef .tc main_v10_1) by skip_ops hostOps2).trans rfl
theorem keep_v10_1_6 : W6 m ρ c (Proc.devRef .tc main_v10_1) = W4 m ρ c (Proc.devRef .tc main_v10_1) :=
  (W6_of_ne m ρ c main_v10_1 (by decide)).trans (keep_v10_1_5 m ρ c)
theorem keep_v10_2_5 : W5 m ρ c (Proc.devRef .tc main_v10_2) = W4 m ρ c (Proc.devRef .tc main_v10_2) :=
  (show StableHlo.after hostOps2 (W4 m ρ c) (Proc.devRef .tc main_v10_2) = W4 m ρ c (Proc.devRef .tc main_v10_2) by skip_ops hostOps2).trans rfl
theorem keep_v10_2_6 : W6 m ρ c (Proc.devRef .tc main_v10_2) = W4 m ρ c (Proc.devRef .tc main_v10_2) :=
  (W6_of_ne m ρ c main_v10_2 (by decide)).trans (keep_v10_2_5 m ρ c)
theorem keep_v10_2_7 : W7 m ρ c (Proc.devRef .tc main_v10_2) = W4 m ρ c (Proc.devRef .tc main_v10_2) :=
  (show StableHlo.after hostOps3 (W6 m ρ c) (Proc.devRef .tc main_v10_2) = W6 m ρ c (Proc.devRef .tc main_v10_2) by skip_ops hostOps3).trans (keep_v10_2_6 m ρ c)
theorem keep_v10_2_8 : W8 m ρ c (Proc.devRef .tc main_v10_2) = W4 m ρ c (Proc.devRef .tc main_v10_2) :=
  (W8_of_ne m ρ c main_v10_2 (by decide)).trans (keep_v10_2_7 m ρ c)
theorem keep_v6_5 : W5 m ρ c (Proc.devRef .tc main_v6) = W2 m ρ c (Proc.devRef .tc main_v6) :=
  (show StableHlo.after hostOps2 (W4 m ρ c) (Proc.devRef .tc main_v6) = W4 m ρ c (Proc.devRef .tc main_v6) by skip_ops hostOps2).trans (keep_v6_4 m ρ c)
theorem keep_v38_7 : W7 m ρ c (Proc.devRef .tc main_v38) = W6 m ρ c (Proc.devRef .tc main_v38) :=
  (show StableHlo.after hostOps3 (W6 m ρ c) (Proc.devRef .tc main_v38) = W6 m ρ c (Proc.devRef .tc main_v38) by skip_ops hostOps3)
theorem keep_v59_9 : W9 m ρ c (Proc.devRef .tc main_v59) = W8 m ρ c (Proc.devRef .tc main_v59) :=
  (show StableHlo.after hostOps4 (W8 m ρ c) (Proc.devRef .tc main_v59) = W8 m ρ c (Proc.devRef .tc main_v59) by skip_ops hostOps4)

theorem keep_arg0_1 : W1 m ρ c (Proc.devRef .tc main_arg0) = m ((c : Thread nD τ).loc main_arg0) :=
  (show StableHlo.after hostOps0 (W0 m ρ c) (Proc.devRef .tc main_arg0) = W0 m ρ c (Proc.devRef .tc main_arg0) by skip_ops hostOps0).trans rfl
theorem keep_arg4_1 : W1 m ρ c (Proc.devRef .tc main_arg4) = m ((c : Thread nD τ).loc main_arg4) :=
  (show StableHlo.after hostOps0 (W0 m ρ c) (Proc.devRef .tc main_arg4) = W0 m ρ c (Proc.devRef .tc main_arg4) by skip_ops hostOps0).trans rfl
theorem keep_arg6_1 : W1 m ρ c (Proc.devRef .tc main_arg6) = m ((c : Thread nD τ).loc main_arg6) :=
  (show StableHlo.after hostOps0 (W0 m ρ c) (Proc.devRef .tc main_arg6) = W0 m ρ c (Proc.devRef .tc main_arg6) by skip_ops hostOps0).trans rfl

end Cert.KernelIdeal.Bridge

end
-- ==== Proof.BridgeA.lean ====
/-
  The idealized kernel's buffers up to the node-initialisation call's result.

  Before the first call the host reshapes the two node biases to rows; nothing else the call reads is touched.  So the
  call finds the node features, the two weight matrices as launched and the biases as rows, and its result array is
  the two-layer function of the launch arrays.
-/
import proofs.«137253_j64622077936098_1_alg».proof.Proof.Gen.KernelIdeal.Frame
import proofs.«137253_j64622077936098_1_alg».proof.Proof.Reg0
import proofs.«137253_j64622077936098_1_alg».proof.Proof.BridgeWalk
import Idealize.ShloMosaic.Lib.StableHlo.Run

set_option maxRecDepth 16384

noncomputable section

namespace Cert.KernelIdeal.Bridge

open Cert.KernelIdeal Cert.KernelIdeal.Gen Idealize.ShloMosaic Idealize.ShloMosaic.ValueIdx Idealize.ShloMosaic.TcCoe Idealize.SL.Sem
open Idealize.ShloMosaic.StableHlo Cert.LibLinear

variable (m : (ℓ : Loc nD τ sig) → Buf (Elt Ideal) ℓ) (ρ : Dev nD → PrngReg) (c : Dev nD)

/-! ## After the first stretch -/

/-- The first node bias as a row. -/
theorem w1_v4 : W1 m ρ c (Proc.devRef .tc main_v4) = shapeCast S1x96 (m ((c : Thread nD τ).loc main_arg5)) shapeCasts_S96_S1x96 := by
  show StableHlo.after hostOps0 (W0 m ρ c) (Proc.devRef .tc main_v4) = _
  after_results
  rfl
/-- The second node bias as a row. -/
theorem w1_v5 : W1 m ρ c (Proc.devRef .tc main_v5) = shapeCast S1x96 (m ((c : Thread nD τ).loc main_arg7)) shapeCasts_S96_S1x96 := by
  show StableHlo.after hostOps0 (W0 m ρ c) (Proc.devRef .tc main_v5) = _
  after_results
  rfl

/-- The node-initialisation call's result: two layers of the launch arrays. -/
theorem k2_v6 : W2 m ρ c (Proc.devRef .tc main_v6)
    = arr2 fun r q => mlp2At (m ((c : Thread nD τ).loc main_arg0)) (m ((c : Thread nD τ).loc main_arg4))
        (fun k => m ((c : Thread nD τ).loc main_arg5) (ix1 k)) (m ((c : Thread nD τ).loc main_arg6))
        (fun k => m ((c : Thread nD τ).loc main_arg7) (ix1 k)) r q := by
  refine (W2_arr m ρ c 5).trans ((NodeInit.final (V1 m ρ) c).trans ?_)
  unfold NodeInit.G
  have b1 : (fun k : Fin 96 => V1 m ρ c main_v4 (ix2 (0 : Fin 1) k)) = fun k => m ((c : Thread nD τ).loc main_arg5) (ix1 k) :=
    funext fun k => (congrFun (w1_v4 m ρ c) _).trans (shapeCast_a_1a_apply _ _ 0 k)
  have b2 : (fun k : Fin 96 => V1 m ρ c main_v5 (ix2 (0 : Fin 1) k)) = fun k => m ((c : Thread nD τ).loc main_arg7) (ix1 k) :=
    funext fun k => (congrFun (w1_v5 m ρ c) _).trans (shapeCast_a_1a_apply _ _ 0 k)
  rw [b1, b2, show V1 m ρ c main_arg0 = _ from keep_arg0_1 m ρ c, show V1 m ρ c main_arg4 = _ from keep_arg4_1 m ρ c,
    show V1 m ρ c main_arg6 = _ from keep_arg6_1 m ρ c]

end Cert.KernelIdeal.Bridge

end
-- ==== Proof.Reg1.lean ====
/-
  The edge call: what its three result arrays hold.

  The call cuts the [800000, 32] edge features into one hundred blocks of 8000 rows.  At block t the body computes the
  two-layer function of the block (first weight matrix, first bias, rectifier, second weight matrix, second bias),
  an [8000, 96] array, and then, for i = 0, 1, 2, multiplies it by slab i of the [3, 96, 96] weight block and adds row i
  of the [3, 1, 96] bias block; result i is written as block t of output array i.  An entry of a layer depends on one
  row of its left matrix only, so block t of each result is block t of the same function of the whole edge array; the
  hundred blocks cover the rows (row r lies in block r / 8000), so each output array is that function everywhere.
-/
import proofs.«137253_j64622077936098_1_alg».proof.Proof.Gen.KernelIdeal.Frame
import proofs.«137253_j64622077936098_1_alg».proof.Proof.LibLinear
import proofs.«137253_j64622077936098_1_alg».proof.Proof.LibPlainDot
import Idealize.ShloMosaic.Lib.Pipeline.Value
import Idealize.ShloMosaic.Lib.ValueLayout

set_option maxRecDepth 16384

noncomputable section

namespace Cert.KernelIdeal.Edge

open Cert.KernelIdeal Cert.KernelIdeal.Gen Idealize.ShloMosaic Idealize.ShloMosaic.ValueIdx Idealize.ShloMosaic.TcCoe Idealize.SL.Sem
open Cert.LibLinear

/-! ## The matrix products of the body at an entry -/

theorem d1_l0 (j : S8000x96.Idx) (q : dot_S8000x32_S32x96_S8000x96_1_0_0_1_n_n.contr.Idx) :
    (dot_S8000x32_S32x96_S8000x96_1_0_0_1_n_n.lhsIdx j q 0).val = (j 0).val := by
  unfold DotDims.lhsIdx
  rw [dif_neg (show ¬(0 : Fin S8000x32.rank) ∈ dot_S8000x32_S32x96_S8000x96_1_0_0_1_n_n.lhsBatch by decide), dif_pos (show (0 : Fin S8000x32.rank) ∈ dot_S8000x32_S32x96_S8000x96_1_0_0_1_n_n.lhsNonContracting by decide)]
  rfl

theorem d1_r1 (j : S8000x96.Idx) (q : dot_S8000x32_S32x96_S8000x96_1_0_0_1_n_n.contr.Idx) :
    (dot_S8000x32_S32x96_S8000x96_1_0_0_1_n_n.rhsIdx j q 1).val = (j 1).val := by
  unfold DotDims.rhsIdx
  rw [dif_neg (show ¬(1 : Fin S32x96.rank) ∈ dot_S8000x32_S32x96_S8000x96_1_0_0_1_n_n.rhsBatch by decide), dif_pos (show (1 : Fin S32x96.rank) ∈ dot_S8000x32_S32x96_S8000x96_1_0_0_1_n_n.rhsNonContracting by decide)]
  rfl

theorem d2_l0 (j : S8000x96.Idx) (q : dot_S8000x96_S96x96_S8000x96_1_0_0_1_n_n.contr.Idx) :
    (dot_S8000x96_S96x96_S8000x96_1_0_0_1_n_n.lhsIdx j q 0).val = (j 0).val := by
  unfold DotDims.lhsIdx
  rw [dif_neg (show ¬(0 : Fin S8000x96.rank) ∈ dot_S8000x96_S96x96_S8000x96_1_0_0_1_n_n.lhsBatch by decide), dif_pos (show (0 : Fin S8000x96.rank) ∈ dot_S8000x96_S96x96_S8000x96_1_0_0_1_n_n.lhsNonContracting by decide)]
  rfl

theorem d2_r1 (j : S8000x96.Idx) (q : dot_S8000x96_S96x96_S8000x96_1_0_0_1_n_n.contr.Idx) :
    (dot_S8000x96_S96x96_S8000x96_1_0_0_1_n_n.rhsIdx j q 1).val = (j 1).val := by
  unfold DotDims.rhsIdx
  rw [dif_neg (show ¬(1 : Fin S96x96.rank) ∈ dot_S8000x96_S96x96_S8000x96_1_0_0_1_n_n.rhsBatch by decide), dif_pos (show (1 : Fin S96x96.rank) ∈ dot_S8000x96_S96x96_S8000x96_1_0_0_1_n_n.rhsNonContracting by decide)]
  rfl

/-- The first product of a block at (p, k): the sum over the 32 edge features. -/
theorem mm1 (a : FVec Ideal S8000x32 .bf16) (b : FVec Ideal S32x96 .bf16) (p : Fin 8000) (k : Fin 96) :
    FloatOps.matmul dot_S8000x32_S32x96_S8000x96_1_0_0_1_n_n none a b (constant S8000x96 .f32 0x00000000#32) (ix2 p k)
      = dotAt a b p k :=
  Cert.LibPlainDot.matmul_zero_ix2 dot_S8000x32_S32x96_S8000x96_1_0_0_1_n_n rfl rfl rfl rfl d1_l0 d1_r1 none a b p k

/-- A product of an [8000, 96] block with a [96, 96] matrix at (p, q): the sum over the 96 hidden features. -/
theorem mm2 (a : FVec Ideal S8000x96 .bf16) (b : FVec Ideal S96x96 .bf16) (p : Fin 8000) (q : Fin 96) :
    FloatOps.matmul dot_S8000x96_S96x96_S8000x96_1_0_0_1_n_n none a b (constant S8000x96 .f32 0x00000000#32) (ix2 p q)
      = dotAt a b p q :=
  Cert.LibPlainDot.matmul_zero_ix2 dot_S8000x96_S96x96_S8000x96_1_0_0_1_n_n rfl rfl rfl rfl d2_l0 d2_r1 none a b p q

/-! ## The body's values at an entry -/

/-- The two-layer value of a block, at (p, q), is the two-layer function of the loaded blocks at (p, q). -/
theorem hidden_at (x0 : Vec Ideal S8000x32 .f32) (x1 : Vec Ideal S32x96 .f32) (x2 : Vec Ideal S1x96 .f32)
    (x3 : Vec Ideal S96x96 .f32) (x4 : Vec Ideal S1x96 .f32) (p : Fin 8000) (q : Fin 96) :
    k1_pay4 x0 x1 x2 x3 x4 (ix2 p q)
      = mlp2At x0 x1 (fun k => x2 (ix2 (0 : Fin 1) k)) x3 (fun k => x4 (ix2 (0 : Fin 1) k)) p q := by
  unfold k1_pay4 mlp2At linAt
  dsimp only
  refine (truncf_apply (ψ := .bf16) _ bitsLt_bf16_f32 (ix2 p q)).trans ?_
  refine congrArg₂ (· + ·) ?_ ?_
  · refine (mm2 _ _ p q).trans ?_
    unfold dotAt
    refine Finset.sum_congr rfl fun k _ => ?_
    refine congrArg₂ (· * ·) ?_ rfl
    rw [arr2_ix2]
    refine congrArg₂ max (congrArg₂ (· + ·) (mm1 _ _ p k) ?_) rfl
    exact (broadcastTo_1b_ab_apply _ _ p k).trans (congrFun (shapeCast_self x2 _) _)
  · exact (broadcastTo_1b_ab_apply _ _ p q).trans (congrFun (shapeCast_self x4 _) _)

theorem hz2 : (![0, 0] : Fin 2 → Nat) = fun _ => 0 := funext fun a => by fin_cases a <;> rfl

/-- Slab 0 of the stacked weight block, loaded through its rectangle, at (0, k, c) is the block at (0, k, c). -/
theorem ldW0_at (x5 : Vec Ideal S3x96x96 .f32) (k c : Fin 96) :
    View.ld x5 r1_4 (ix3 (0 : Fin 1) k c) = x5 (ix3 (0 : Fin 3) k c) := by
  show x5 (r1_4.idx (ix3 (0 : Fin 1) k c)) = x5 (ix3 (0 : Fin 3) k c)
  refine congrArg x5 (funext fun a => Fin.ext ?_)
  match a with
  | ⟨0, _⟩ => show 0 + 1 * 0 = 0; omega
  | ⟨1, _⟩ => show 0 + 1 * k.val = k.val; omega
  | ⟨2, _⟩ => show 0 + 1 * c.val = c.val; omega

/-- Row 0 of the stacked bias block, loaded through its rectangle, at (0, 0, c) is the block at (0, 0, c). -/
theorem ldB0_at (x6 : Vec Ideal S3x1x96 .f32) (c : Fin 96) :
    View.ld x6 r1_7 (ix3 (0 : Fin 1) (0 : Fin 1) c) = x6 (ix3 (0 : Fin 3) (0 : Fin 1) c) := by
  show x6 (r1_7.idx (ix3 (0 : Fin 1) (0 : Fin 1) c)) = x6 (ix3 (0 : Fin 3) (0 : Fin 1) c)
  refine congrArg x6 (funext fun a => Fin.ext ?_)
  match a with
  | ⟨0, _⟩ => show 0 + 1 * 0 = 0; omega
  | ⟨1, _⟩ => show 0 + 1 * 0 = 0; omega
  | ⟨2, _⟩ => show 0 + 1 * c.val = c.val; omega

/-- What the body leaves in the first output's buffer, at (p, q): the third layer, with slab 0 and bias row 0, of the
    two-layer function of the loaded blocks. -/
theorem out7_at (x0 : Vec Ideal S8000x32 .f32) (x1 : Vec Ideal S32x96 .f32) (x2 : Vec Ideal S1x96 .f32)
    (x3 : Vec Ideal S96x96 .f32) (x4 : Vec Ideal S1x96 .f32) (x5 : Vec Ideal S3x96x96 .f32) (x6 : Vec Ideal S3x1x96 .f32)
    (p : Fin 8000) (q : Fin 96) :
    out1_7 x0 x1 x2 x3 x4 x5 x6 (ix2 p q)
      = linAt (arr2 fun r k => mlp2At x0 x1 (fun k' => x2 (ix2 (0 : Fin 1) k')) x3 (fun k' => x4 (ix2 (0 : Fin 1) k')) r k)
          (fun j : S96x96.Idx => x5 (ix3 (0 : Fin 3) (j 0) (j 1))) (fun k => x6 (ix3 (0 : Fin 3) (0 : Fin 1) k)) p q := by
  unfold out1_7
  rw [View.canon_unit_zero hz2]
  simp only [View.ld_unit_zero (S := S8000x32) hz2, View.ld_unit_zero (S := S32x96) hz2, View.ld_unit_zero (S := S1x96) hz2,
    View.ld_unit_zero (S := S96x96) hz2]
  unfold k1_pay1 k1_pay7 k1_pay8 linAt
  dsimp only
  refine (addf_apply _ _ (ix2 p q)).trans ?_
  refine congrArg₂ (· + ·) ?_ ?_
  · refine (mm2 _ _ p q).trans ?_
    unfold dotAt
    refine Finset.sum_congr rfl fun k _ => ?_
    refine congrArg₂ (· * ·) ?_ ?_
    · rw [arr2_ix2]; exact hidden_at x0 x1 x2 x3 x4 p k
    · refine (truncf_apply (ψ := .bf16) _ bitsLt_bf16_f32 (ix2 k q)).trans ?_
      refine (shapeCast_1ab_ab_apply _ _ k q).trans ?_
      exact ldW0_at x5 k q
  · refine (broadcastTo_1b_ab_apply _ _ p q).trans ?_
    refine (shapeCast_1ab_ab_apply _ _ (0 : Fin 1) q).trans ?_
    exact ldB0_at x6 q

/-- Slab 1 of the stacked weight block, loaded through its rectangle, at (0, k, c) is the block at (1, k, c). -/
theorem ldW1_at (x5 : Vec Ideal S3x96x96 .f32) (k c : Fin 96) :
    View.ld x5 r1_5 (ix3 (0 : Fin 1) k c) = x5 (ix3 (1 : Fin 3) k c) := by
  show x5 (r1_5.idx (ix3 (0 : Fin 1) k c)) = x5 (ix3 (1 : Fin 3) k c)
  refine congrArg x5 (funext fun a => Fin.ext ?_)
  match a with
  | ⟨0, _⟩ => show 1 + 1 * 0 = 1; omega
  | ⟨1, _⟩ => show 0 + 1 * k.val = k.val; omega
  | ⟨2, _⟩ => show 0 + 1 * c.val = c.val; omega

/-- Row 1 of the stacked bias block, loaded through its rectangle, at (0, 0, c) is the block at (1, 0, c). -/
theorem ldB1_at (x6 : Vec Ideal S3x1x96 .f32) (c : Fin 96) :
    View.ld x6 r1_9 (ix3 (0 : Fin 1) (0 : Fin 1) c) = x6 (ix3 (1 : Fin 3) (0 : Fin 1) c) := by
  show x6 (r1_9.idx (ix3 (0 : Fin 1) (0 : Fin 1) c)) = x6 (ix3 (1 : Fin 3) (0 : Fin 1) c)
  refine congrArg x6 (funext fun a => Fin.ext ?_)
  match a with
  | ⟨0, _⟩ => show 1 + 1 * 0 = 1; omega
  | ⟨1, _⟩ => show 0 + 1 * 0 = 0; omega
  | ⟨2, _⟩ => show 0 + 1 * c.val = c.val; omega

/-- What the body leaves in output 1's buffer, at (p, q): the third layer, with slab 1 and bias row 1, of the
    two-layer function of the loaded blocks. -/
theorem out8_at (x0 : Vec Ideal S8000x32 .f32) (x1 : Vec Ideal S32x96 .f32) (x2 : Vec Ideal S1x96 .f32)
    (x3 : Vec Ideal S96x96 .f32) (x4 : Vec Ideal S1x96 .f32) (x5 : Vec Ideal S3x96x96 .f32) (x6 : Vec Ideal S3x1x96 .f32)
    (p : Fin 8000) (q : Fin 96) :
    out1_8 x0 x1 x2 x3 x4 x5 x6 (ix2 p q)
      = linAt (arr2 fun r k => mlp2At x0 x1 (fun k' => x2 (ix2 (0 : Fin 1) k')) x3 (fun k' => x4 (ix2 (0 : Fin 1) k')) r k)
          (fun j : S96x96.Idx => x5 (ix3 (1 : Fin 3) (j 0) (j 1))) (fun k => x6 (ix3 (1 : Fin 3) (0 : Fin 1) k)) p q := by
  unfold out1_8
  rw [View.canon_unit_zero hz2]
  simp only [View.ld_unit_zero (S := S8000x32) hz2, View.ld_unit_zero (S := S32x96) hz2, View.ld_unit_zero (S := S1x96) hz2,
    View.ld_unit_zero (S := S96x96) hz2]
  unfold k1_pay2 k1_pay5 linAt
  dsimp only
  refine (addf_apply _ _ (ix2 p q)).trans ?_
  refine congrArg₂ (· + ·) ?_ ?_
  · refine (mm2 _ _ p q).trans ?_
    unfold dotAt
    refine Finset.sum_congr rfl fun k _ => ?_
    refine congrArg₂ (· * ·) ?_ ?_
    · rw [arr2_ix2]; exact hidden_at x0 x1 x2 x3 x4 p k
    · refine (truncf_apply (ψ := .bf16) _ bitsLt_bf16_f32 (ix2 k q)).trans ?_
      refine (shapeCast_1ab_ab_apply _ _ k q).trans ?_
      exact ldW1_at x5 k q
  · refine (broadcastTo_1b_ab_apply _ _ p q).trans ?_
    refine (shapeCast_1ab_ab_apply _ _ (0 : Fin 1) q).trans ?_
    exact ldB1_at x6 q

/-- Slab 2 of the stacked weight block, loaded through its rectangle, at (0, k, c) is the block at (2, k, c). -/
theorem ldW2_at (x5 : Vec Ideal S3x96x96 .f32) (k c : Fin 96) :
    View.ld x5 r1_6 (ix3 (0 : Fin 1) k c) = x5 (ix3 (2 : Fin 3) k c) := by
  show x5 (r1_6.idx (ix3 (0 : Fin 1) k c)) = x5 (ix3 (2 : Fin 3) k c)
  refine congrArg x5 (funext fun a => Fin.ext ?_)
  match a with
  | ⟨0, _⟩ => show 2 + 1 * 0 = 2; omega
  | ⟨1, _⟩ => show 0 + 1 * k.val = k.val; omega
  | ⟨2, _⟩ => show 0 + 1 * c.val = c.val; omega

/-- Row 2 of the stacked bias block, loaded through its rectangle, at (0, 0, c) is the block at (2, 0, c). -/
theorem ldB2_at (x6 : Vec Ideal S3x1x96 .f32) (c : Fin 96) :
    View.ld x6 r1_10 (ix3 (0 : Fin 1) (0 : Fin 1) c) = x6 (ix3 (2 : Fin 3) (0 : Fin 1) c) := by
  show x6 (r1_10.idx (ix3 (0 : Fin 1) (0 : Fin 1) c)) = x6 (ix3 (2 : Fin 3) (0 : Fin 1) c)
  refine congrArg x6 (funext fun a => Fin.ext ?_)
  match a with
  | ⟨0, _⟩ => show 2 + 1 * 0 = 2; omega
  | ⟨1, _⟩ => show 0 + 1 * 0 = 0; omega
  | ⟨2, _⟩ => show 0 + 1 * c.val = c.val; omega

/-- What the body leaves in output 2's buffer, at (p, q): the third layer, with slab 2 and bias row 2, of the
    two-layer function of the loaded blocks. -/
theorem out9_at (x0 : Vec Ideal S8000x32 .f32) (x1 : Vec Ideal S32x96 .f32) (x2 : Vec Ideal S1x96 .f32)
    (x3 : Vec Ideal S96x96 .f32) (x4 : Vec Ideal S1x96 .f32) (x5 : Vec Ideal S3x96x96 .f32) (x6 : Vec Ideal S3x1x96 .f32)
    (p : Fin 8000) (q : Fin 96) :
    out1_9 x0 x1 x2 x3 x4 x5 x6 (ix2 p q)
      = linAt (arr2 fun r k => mlp2At x0 x1 (fun k' => x2 (ix2 (0 : Fin 1) k')) x3 (fun k' => x4 (ix2 (0 : Fin 1) k')) r k)
          (fun j : S96x96.Idx => x5 (ix3 (2 : Fin 3) (j 0) (j 1))) (fun k => x6 (ix3 (2 : Fin 3) (0 : Fin 1) k)) p q := by
  unfold out1_9
  rw [View.canon_unit_zero hz2]
  simp only [View.ld_unit_zero (S := S8000x32) hz2, View.ld_unit_zero (S := S32x96) hz2, View.ld_unit_zero (S := S1x96) hz2,
    View.ld_unit_zero (S := S96x96) hz2]
  unfold k1_pay3 k1_pay6 linAt
  dsimp only
  refine (addf_apply _ _ (ix2 p q)).trans ?_
  refine congrArg₂ (· + ·) ?_ ?_
  · refine (mm2 _ _ p q).trans ?_
    unfold dotAt
    refine Finset.sum_congr rfl fun k _ => ?_
    refine congrArg₂ (· * ·) ?_ ?_
    · rw [arr2_ix2]; exact hidden_at x0 x1 x2 x3 x4 p k
    · refine (truncf_apply (ψ := .bf16) _ bitsLt_bf16_f32 (ix2 k q)).trans ?_
      refine (shapeCast_1ab_ab_apply _ _ k q).trans ?_
      exact ldW2_at x5 k q
  · refine (broadcastTo_1b_ab_apply _ _ p q).trans ?_
    refine (shapeCast_1ab_ab_apply _ _ (0 : Fin 1) q).trans ?_
    exact ldB2_at x6 q

/-! ## The index maps over the grid -/

/-- The printed index maps, decided over the hundred grid points: the edge window and the three output windows are at
    block t on the row axis and block 0 on the column axis; every other window is at block 0 on each axis. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = 0 ∧ win1_5.index t (1 : Fin 3) = 0 ∧ win1_5.index t (2 : Fin 3) = 0
    ∧ win1_6.index t (0 : Fin 3) = 0 ∧ win1_6.index t (1 : Fin 3) = 0 ∧ win1_6.index t (2 : Fin 3) = 0
    ∧ win1_7.index t (0 : Fin 2) = t.val ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

variable (V : (c : Dev nD) → (b : Ref sig .tc) → Buf (Elt Ideal) ((c : Thread nD τ).loc b)) (c : Dev nD)

/-! ## The input blocks, read off the arrays -/

/-- Block t of the edge array at (p, k) is the array at (t * 8000 + p, k). -/
theorem blk0_at (t : Fin cfg1.N) (p : Fin 8000) (k : Fin 32) (r : Fin 800000)
    (hr : r.val = t.val * 8000 + p.val) : iblk1 V c 0 t (ix2 p k) = V c main_arg2 (ix2 r k) := by
  obtain ⟨e0, e1, -⟩ := idx_facts t
  show V c main_arg2 (((cfg1.win 0).blk t).view.emb (ix2 p k)) = V c main_arg2 (ix2 r k)
  refine congrArg (V c main_arg2) (funext fun a => Fin.ext ?_)
  match a with
  | ⟨0, _⟩ => show win1_0.index t (0 : Fin 2) * 8000 + 1 * p.val = r.val; omega
  | ⟨1, _⟩ => show win1_0.index t (1 : Fin 2) * 32 + 1 * k.val = k.val; omega

/-- The first weight matrix is its one block. -/
theorem blk1_eq (t : Fin cfg1.N) : (iblk1 V c 1 t : S32x96.Idx → EReal) = V c main_arg8 := by
  obtain ⟨-, -, e0, e1, -⟩ := idx_facts t
  funext y
  show V c main_arg8 (((cfg1.win 1).blk t).view.emb y) = V c main_arg8 y
  refine congrArg (V c main_arg8) (funext fun a => Fin.ext ?_)
  match a with
  | ⟨0, _⟩ => show win1_1.index t (0 : Fin 2) * 32 + 1 * (y 0).val = (y 0).val; omega
  | ⟨1, _⟩ => show win1_1.index t (1 : Fin 2) * 96 + 1 * (y 1).val = (y 1).val; omega

/-- The first bias is its one block. -/
theorem blk2_eq (t : Fin cfg1.N) : (iblk1 V c 2 t : S1x96.Idx → EReal) = V c main_v7 := by
  obtain ⟨-, -, -, -, e0, e1, -⟩ := idx_facts t
  funext y
  show V c main_v7 (((cfg1.win 2).blk t).view.emb y) = V c main_v7 y
  refine congrArg (V c main_v7) (funext fun a => Fin.ext ?_)
  match a with
  | ⟨0, _⟩ => show win1_2.index t (0 : Fin 2) * 1 + 1 * (y 0).val = (y 0).val; omega
  | ⟨1, _⟩ => show win1_2.index t (1 : Fin 2) * 96 + 1 * (y 1).val = (y 1).val; omega

/-- The second weight matrix is its one block. -/
theorem blk3_eq (t : Fin cfg1.N) : (iblk1 V c 3 t : S96x96.Idx → EReal) = V c main_arg10 := by
  obtain ⟨-, -, -, -, -, -, e0, e1, -⟩ := idx_facts t
  funext y
  show V c main_arg10 (((cfg1.win 3).blk t).view.emb y) = V c main_arg10 y
  refine congrArg (V c main_arg10) (funext fun a => Fin.ext ?_)
  match a with
  | ⟨0, _⟩ => show win1_3.index t (0 : Fin 2) * 96 + 1 * (y 0).val = (y 0).val; omega
  | ⟨1, _⟩ => show win1_3.index t (1 : Fin 2) * 96 + 1 * (y 1).val = (y 1).val; omega

/-- The second bias is its one block. -/
theorem blk4_eq (t : Fin cfg1.N) : (iblk1 V c 4 t : S1x96.Idx → EReal) = V c main_v8 := by
  obtain ⟨-, -, -, -, -, -, -, -, e0, e1, -⟩ := idx_facts t
  funext y
  show V c main_v8 (((cfg1.win 4).blk t).view.emb y) = V c main_v8 y
  refine congrArg (V c main_v8) (funext fun a => Fin.ext ?_)
  match a with
  | ⟨0, _⟩ => show win1_4.index t (0 : Fin 2) * 1 + 1 * (y 0).val = (y 0).val; omega
  | ⟨1, _⟩ => show win1_4.index t (1 : Fin 2) * 96 + 1 * (y 1).val = (y 1).val; omega

/-- The three stacked weight matrices are their one block. -/
theorem blk5_eq (t : Fin cfg1.N) : (iblk1 V c 5 t : S3x96x96.Idx → EReal) = V c main_arg12 := by
  obtain ⟨-, -, -, -, -, -, -, -, -, -, e0, e1, e2, -⟩ := idx_facts t
  funext y
  show V c main_arg12 (((cfg1.win 5).blk t).view.emb y) = V c main_arg12 y
  refine congrArg (V c main_arg12) (funext fun a => Fin.ext ?_)
  match a with
  | ⟨0, _⟩ => show win1_5.index t (0 : Fin 3) * 3 + 1 * (y 0).val = (y 0).val; omega
  | ⟨1, _⟩ => show win1_5.index t (1 : Fin 3) * 96 + 1 * (y 1).val = (y 1).val; omega
  | ⟨2, _⟩ => show win1_5.index t (2 : Fin 3) * 96 + 1 * (y 2).val = (y 2).val; omega

/-- The three stacked biases are their one block. -/
theorem blk6_eq (t : Fin cfg1.N) : (iblk1 V c 6 t : S3x1x96.Idx → EReal) = V c main_v9 := by
  obtain ⟨-, -, -, -, -, -, -, -, -, -, -, -, -, e0, e1, e2, -⟩ := idx_facts t
  funext y
  show V c main_v9 (((cfg1.win 6).blk t).view.emb y) = V c main_v9 y
  refine congrArg (V c main_v9) (funext fun a => Fin.ext ?_)
  match a with
  | ⟨0, _⟩ => show win1_6.index t (0 : Fin 3) * 3 + 1 * (y 0).val = (y 0).val; omega
  | ⟨1, _⟩ => show win1_6.index t (1 : Fin 3) * 1 + 1 * (y 1).val = (y 1).val; omega
  | ⟨2, _⟩ => show win1_6.index t (2 : Fin 3) * 96 + 1 * (y 2).val = (y 2).val; omega

/-! ## The functions of the arrays the call finds -/

/-- The two-layer function of the edge features: weights and biases as the call finds them. -/
def ea (V : (c : Dev nD) → (b : Ref sig .tc) → Buf (Elt Ideal) ((c : Thread nD τ).loc b)) (c : Dev nD) :
    (⟨2, ![800000, 96]⟩ : Shape).Idx → EReal :=
  arr2 fun r k => mlp2At (V c main_arg2) (V c main_arg8) (fun k' => V c main_v7 (ix2 (0 : Fin 1) k')) (V c main_arg10)
    (fun k' => V c main_v8 (ix2 (0 : Fin 1) k')) r k

/-- The third layer with slab i of the stacked weights and row i of the stacked biases. -/
def et (i : Fin 3) : S800000x96.Idx → EReal :=
  arr2 fun r q => linAt (ea V c) (fun j : S96x96.Idx => V c main_arg12 (ix3 i (j 0) (j 1)))
    (fun k => V c main_v9 (ix3 i (0 : Fin 1) k)) r q

/-- An index of output array 0 is in point t's block iff each coordinate is in the block's range on its axis. -/
theorem mem_blk7 (t : Fin cfg1.N) (i : S800000x96.Idx) :
    i ∈ ((cfg1.win 7).blk t).view.set ↔ ∀ a : Fin 2, win1_7.index t a * S8000x96.size a ≤ (i a).val ∧ (i a).val < win1_7.index t a * S8000x96.size a + S8000x96.size a := by
  show i ∈ ((View.whole main_v10_0).slice (win1_7.rect t)).set ↔ _
  rw [View.set_slice_whole, Rect.mem_set_unit]
  exact Iff.rfl

/-- Row r of output array 0 lies in the block of point r / 8000. -/
theorem cover7 (i : S800000x96.Idx) :
    ∃ t : Fin cfg1.N, (cfg1.win 7).flush t = true ∧ i ∈ ((cfg1.win 7).blk t).view.set := by
  have hi0 : (i 0).val < 800000 := (i 0).isLt
  have hi1 : (i 1).val < 96 := (i 1).isLt
  have ht : (i 0).val / 8000 < cfg1.N := by show _ < 100; omega
  refine ⟨⟨(i 0).val / 8000, ht⟩, flush1_7 _, ?_⟩
  rw [mem_blk7]
  obtain ⟨-, -, -, -, -, -, -, -, -, -, -, -, -, -, -, -, e0, e1, -⟩ := idx_facts ⟨(i 0).val / 8000, ht⟩
  intro a
  match a with
  | ⟨0, _⟩ =>
    show win1_7.index ⟨(i 0).val / 8000, ht⟩ (0 : Fin 2) * 8000 ≤ (i 0).val ∧ (i 0).val < win1_7.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win1_7.index ⟨(i 0).val / 8000, ht⟩ (1 : Fin 2) * 96 ≤ (i 1).val ∧ (i 1).val < win1_7.index ⟨(i 0).val / 8000, ht⟩ (1 : Fin 2) * 96 + 96
    rw [e1]; omega

/-- An element (p, q) of point t's block of output array 0 sits in the array at (t * 8000 + p, q). -/
theorem emb7_at (t : Fin cfg1.N) (p : Fin 8000) (q : Fin 96) (r : Fin 800000) (hr : r.val = t.val * 8000 + p.val) :
    (((cfg1.win 7).blk t).view.emb (ix2 p q) : S800000x96.Idx) = ix2 r q := by
  obtain ⟨-, -, -, -, -, -, -, -, -, -, -, -, -, -, -, -, e0, e1, -⟩ := idx_facts t
  refine funext fun a => Fin.ext ?_
  match a with
  | ⟨0, _⟩ => show win1_7.index t (0 : Fin 2) * 8000 + 1 * p.val = r.val; omega
  | ⟨1, _⟩ => show win1_7.index t (1 : Fin 2) * 96 + 1 * q.val = q.val; omega

/-- What point t writes back to output array 0 is block t of the third layer (slab 0) of the two-layer function. -/
theorem flushed7_eq (t : Fin cfg1.N) :
    (dat1 (F := Ideal) V c).flushed 7 t = ((cfg1.win 7).blk t).view.read (Elt Ideal) (et V c 0) := by
  show (cfg1.win 7).cut (grid1.coords t) ((dat1 V c).after 7 t) = _
  rw [after1_7]
  have ht : t.val < 100 := lt_of_lt_of_eq t.isLt N_1
  funext j
  obtain ⟨p, q, rfl⟩ : ∃ (p : Fin 8000) (q : Fin 96), j = ix2 p q := ⟨j 0, j 1, eq_ix2 j⟩
  have hp : t.val * 8000 + p.val < 800000 := by have := p.isLt; omega
  refine (out7_at (iblk1 V c 0 t) (iblk1 V c 1 t) (iblk1 V c 2 t) (iblk1 V c 3 t) (iblk1 V c 4 t) (iblk1 V c 5 t)
    (iblk1 V c 6 t) p q).trans ?_
  rw [blk1_eq, blk2_eq, blk3_eq, blk4_eq, blk5_eq, blk6_eq]
  show _ = et V c 0 (((cfg1.win 7).blk t).view.emb (ix2 p q))
  rw [emb7_at t p q ⟨t.val * 8000 + p.val, hp⟩ rfl]
  unfold et ea
  rw [arr2_ix2]
  refine linAt_row _ _ _ _ p _ q fun k => ?_
  rw [arr2_ix2, arr2_ix2]
  exact mlp2At_row _ _ _ _ _ _ p _ k fun k' => blk0_at V c t p k' _ rfl

/-- Output array 0 after the call. -/
theorem final7 (V : (c : Dev nD) → (b : Ref sig .tc) → Buf (Elt Ideal) ((c : Thread nD τ).loc b)) (c : Dev nD) :
    (dat1 (F := Ideal) V c).arrAt 7 cfg1.N
      = arr2 fun r q => linAt (ea V c) (fun j : S96x96.Idx => V c main_arg12 (ix3 (0 : Fin 3) (j 0) (j 1)))
          (fun k => V c main_v9 (ix3 (0 : Fin 3) (0 : Fin 1) k)) r q :=
  (dat1 V c).arrAt_eq_of_cover 7 (et V c 0) (fun t _ => flushed7_eq V c t) cover7

/-- An index of output array 1 is in point t's block iff each coordinate is in the block's range on its axis. -/
theorem mem_blk8 (t : Fin cfg1.N) (i : S800000x96.Idx) :
    i ∈ ((cfg1.win 8).blk t).view.set ↔ ∀ a : Fin 2, win1_8.index t a * S8000x96.size a ≤ (i a).val ∧ (i a).val < win1_8.index t a * S8000x96.size a + S8000x96.size a := by
  show i ∈ ((View.whole main_v10_1).slice (win1_8.rect t)).set ↔ _
  rw [View.set_slice_whole, Rect.mem_set_unit]
  exact Iff.rfl

/-- Row r of output array 1 lies in the block of point r / 8000. -/
theorem cover8 (i : S800000x96.Idx) :
    ∃ t : Fin cfg1.N, (cfg1.win 8).flush t = true ∧ i ∈ ((cfg1.win 8).blk t).view.set := by
  have hi0 : (i 0).val < 800000 := (i 0).isLt
  have hi1 : (i 1).val < 96 := (i 1).isLt
  have ht : (i 0).val / 8000 < cfg1.N := by show _ < 100; omega
  refine ⟨⟨(i 0).val / 8000, ht⟩, flush1_8 _, ?_⟩
  rw [mem_blk8]
  obtain ⟨-, -, -, -, -, -, -, -, -, -, -, -, -, -, -, -, -, -, e0, e1, -⟩ := idx_facts ⟨(i 0).val / 8000, ht⟩
  intro a
  match a with
  | ⟨0, _⟩ =>
    show win1_8.index ⟨(i 0).val / 8000, ht⟩ (0 : Fin 2) * 8000 ≤ (i 0).val ∧ (i 0).val < win1_8.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win1_8.index ⟨(i 0).val / 8000, ht⟩ (1 : Fin 2) * 96 ≤ (i 1).val ∧ (i 1).val < win1_8.index ⟨(i 0).val / 8000, ht⟩ (1 : Fin 2) * 96 + 96
    rw [e1]; omega

/-- An element (p, q) of point t's block of output array 1 sits in the array at (t * 8000 + p, q). -/
theorem emb8_at (t : Fin cfg1.N) (p : Fin 8000) (q : Fin 96) (r : Fin 800000) (hr : r.val = t.val * 8000 + p.val) :
    (((cfg1.win 8).blk t).view.emb (ix2 p q) : S800000x96.Idx) = ix2 r q := by
  obtain ⟨-, -, -, -, -, -, -, -, -, -, -, -, -, -, -, -, -, -, e0, e1, -⟩ := idx_facts t
  refine funext fun a => Fin.ext ?_
  match a with
  | ⟨0, _⟩ => show win1_8.index t (0 : Fin 2) * 8000 + 1 * p.val = r.val; omega
  | ⟨1, _⟩ => show win1_8.index t (1 : Fin 2) * 96 + 1 * q.val = q.val; omega

/-- What point t writes back to output array 1 is block t of the third layer (slab 1) of the two-layer function. -/
theorem flushed8_eq (t : Fin cfg1.N) :
    (dat1 (F := Ideal) V c).flushed 8 t = ((cfg1.win 8).blk t).view.read (Elt Ideal) (et V c 1) := by
  show (cfg1.win 8).cut (grid1.coords t) ((dat1 V c).after 8 t) = _
  rw [after1_8]
  have ht : t.val < 100 := lt_of_lt_of_eq t.isLt N_1
  funext j
  obtain ⟨p, q, rfl⟩ : ∃ (p : Fin 8000) (q : Fin 96), j = ix2 p q := ⟨j 0, j 1, eq_ix2 j⟩
  have hp : t.val * 8000 + p.val < 800000 := by have := p.isLt; omega
  refine (out8_at (iblk1 V c 0 t) (iblk1 V c 1 t) (iblk1 V c 2 t) (iblk1 V c 3 t) (iblk1 V c 4 t) (iblk1 V c 5 t)
    (iblk1 V c 6 t) p q).trans ?_
  rw [blk1_eq, blk2_eq, blk3_eq, blk4_eq, blk5_eq, blk6_eq]
  show _ = et V c 1 (((cfg1.win 8).blk t).view.emb (ix2 p q))
  rw [emb8_at t p q ⟨t.val * 8000 + p.val, hp⟩ rfl]
  unfold et ea
  rw [arr2_ix2]
  refine linAt_row _ _ _ _ p _ q fun k => ?_
  rw [arr2_ix2, arr2_ix2]
  exact mlp2At_row _ _ _ _ _ _ p _ k fun k' => blk0_at V c t p k' _ rfl

/-- Output array 1 after the call. -/
theorem final8 (V : (c : Dev nD) → (b : Ref sig .tc) → Buf (Elt Ideal) ((c : Thread nD τ).loc b)) (c : Dev nD) :
    (dat1 (F := Ideal) V c).arrAt 8 cfg1.N
      = arr2 fun r q => linAt (ea V c) (fun j : S96x96.Idx => V c main_arg12 (ix3 (1 : Fin 3) (j 0) (j 1)))
          (fun k => V c main_v9 (ix3 (1 : Fin 3) (0 : Fin 1) k)) r q :=
  (dat1 V c).arrAt_eq_of_cover 8 (et V c 1) (fun t _ => flushed8_eq V c t) cover8

/-- An index of output array 2 is in point t's block iff each coordinate is in the block's range on its axis. -/
theorem mem_blk9 (t : Fin cfg1.N) (i : S800000x96.Idx) :
    i ∈ ((cfg1.win 9).blk t).view.set ↔ ∀ a : Fin 2, win1_9.index t a * S8000x96.size a ≤ (i a).val ∧ (i a).val < win1_9.index t a * S8000x96.size a + S8000x96.size a := by
  show i ∈ ((View.whole main_v10_2).slice (win1_9.rect t)).set ↔ _
  rw [View.set_slice_whole, Rect.mem_set_unit]
  exact Iff.rfl

/-- Row r of output array 2 lies in the block of point r / 8000. -/
theorem cover9 (i : S800000x96.Idx) :
    ∃ t : Fin cfg1.N, (cfg1.win 9).flush t = true ∧ i ∈ ((cfg1.win 9).blk t).view.set := by
  have hi0 : (i 0).val < 800000 := (i 0).isLt
  have hi1 : (i 1).val < 96 := (i 1).isLt
  have ht : (i 0).val / 8000 < cfg1.N := by show _ < 100; omega
  refine ⟨⟨(i 0).val / 8000, ht⟩, flush1_9 _, ?_⟩
  rw [mem_blk9]
  obtain ⟨-, -, -, -, -, -, -, -, -, -, -, -, -, -, -, -, -, -, -, -, e0, e1⟩ := idx_facts ⟨(i 0).val / 8000, ht⟩
  intro a
  match a with
  | ⟨0, _⟩ =>
    show win1_9.index ⟨(i 0).val / 8000, ht⟩ (0 : Fin 2) * 8000 ≤ (i 0).val ∧ (i 0).val < win1_9.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win1_9.index ⟨(i 0).val / 8000, ht⟩ (1 : Fin 2) * 96 ≤ (i 1).val ∧ (i 1).val < win1_9.index ⟨(i 0).val / 8000, ht⟩ (1 : Fin 2) * 96 + 96
    rw [e1]; omega

/-- An element (p, q) of point t's block of output array 2 sits in the array at (t * 8000 + p, q). -/
theorem emb9_at (t : Fin cfg1.N) (p : Fin 8000) (q : Fin 96) (r : Fin 800000) (hr : r.val = t.val * 8000 + p.val) :
    (((cfg1.win 9).blk t).view.emb (ix2 p q) : S800000x96.Idx) = ix2 r q := by
  obtain ⟨-, -, -, -, -, -, -, -, -, -, -, -, -, -, -, -, -, -, -, -, e0, e1⟩ := idx_facts t
  refine funext fun a => Fin.ext ?_
  match a with
  | ⟨0, _⟩ => show win1_9.index t (0 : Fin 2) * 8000 + 1 * p.val = r.val; omega
  | ⟨1, _⟩ => show win1_9.index t (1 : Fin 2) * 96 + 1 * q.val = q.val; omega

/-- What point t writes back to output array 2 is block t of the third layer (slab 2) of the two-layer function. -/
theorem flushed9_eq (t : Fin cfg1.N) :
    (dat1 (F := Ideal) V c).flushed 9 t = ((cfg1.win 9).blk t).view.read (Elt Ideal) (et V c 2) := by
  show (cfg1.win 9).cut (grid1.coords t) ((dat1 V c).after 9 t) = _
  rw [after1_9]
  have ht : t.val < 100 := lt_of_lt_of_eq t.isLt N_1
  funext j
  obtain ⟨p, q, rfl⟩ : ∃ (p : Fin 8000) (q : Fin 96), j = ix2 p q := ⟨j 0, j 1, eq_ix2 j⟩
  have hp : t.val * 8000 + p.val < 800000 := by have := p.isLt; omega
  refine (out9_at (iblk1 V c 0 t) (iblk1 V c 1 t) (iblk1 V c 2 t) (iblk1 V c 3 t) (iblk1 V c 4 t) (iblk1 V c 5 t)
    (iblk1 V c 6 t) p q).trans ?_
  rw [blk1_eq, blk2_eq, blk3_eq, blk4_eq, blk5_eq, blk6_eq]
  show _ = et V c 2 (((cfg1.win 9).blk t).view.emb (ix2 p q))
  rw [emb9_at t p q ⟨t.val * 8000 + p.val, hp⟩ rfl]
  unfold et ea
  rw [arr2_ix2]
  refine linAt_row _ _ _ _ p _ q fun k => ?_
  rw [arr2_ix2, arr2_ix2]
  exact mlp2At_row _ _ _ _ _ _ p _ k fun k' => blk0_at V c t p k' _ rfl

/-- Output array 2 after the call. -/
theorem final9 (V : (c : Dev nD) → (b : Ref sig .tc) → Buf (Elt Ideal) ((c : Thread nD τ).loc b)) (c : Dev nD) :
    (dat1 (F := Ideal) V c).arrAt 9 cfg1.N
      = arr2 fun r q => linAt (ea V c) (fun j : S96x96.Idx => V c main_arg12 (ix3 (2 : Fin 3) (j 0) (j 1)))
          (fun k => V c main_v9 (ix3 (2 : Fin 3) (0 : Fin 1) k)) r q :=
  (dat1 V c).arrAt_eq_of_cover 9 (et V c 2) (fun t _ => flushed9_eq V c t) cover9

end Cert.KernelIdeal.Edge

end
-- ==== Proof.RefStages.lean ====
/-
  The dense stages of the reference, read at an entry.

  The reference is a three-layer graph network.  Its dense stages are: two layers with the rectifier between them on
  the node features and on the edge features; for each of the three layers an affine map of the edge features; and for
  each layer the combine step (A Wl + bl) + H Wr of the aggregated messages A and the node features H, followed in
  the first two layers by adding H and rectifying.  Each stage is a product of matrices summed over the shared axis,
  a bias broadcast along the rows, and pointwise operations, so its entry at (r, q) is the corresponding function of
  the dense-layer library at (r, q).  The gathers and scatter-adds between the stages are not opened here: the
  aggregated messages and the weight and bias slices enter as whole arrays.
-/
import proofs.«137253_j64622077936098_1_alg».proof.Proof.Gen.ReferenceIdeal.Read
import proofs.«137253_j64622077936098_1_alg».proof.Proof.LibLinear
import Idealize.ShloMosaic.Lib.ValueIdx

set_option maxRecDepth 16384

noncomputable section

namespace Cert.ReferenceIdeal.Stages

open Cert.ReferenceIdeal Cert.ReferenceIdeal.Read Idealize.ShloMosaic Idealize.ShloMosaic.ValueIdx Cert.LibLinear

variable (x0 : (⟨S50000x128, .f32⟩ : BufTy).Contents (Elt Ideal)) (x1 : (⟨S2x800000, .i32⟩ : BufTy).Contents (Elt Ideal))
  (x2 : (⟨S800000x32, .f32⟩ : BufTy).Contents (Elt Ideal)) (x4 : (⟨S128x96, .f32⟩ : BufTy).Contents (Elt Ideal))
  (x5 : (⟨S96, .f32⟩ : BufTy).Contents (Elt Ideal)) (x6 : (⟨S96x96, .f32⟩ : BufTy).Contents (Elt Ideal))
  (x7 : (⟨S96, .f32⟩ : BufTy).Contents (Elt Ideal)) (x8 : (⟨S32x96, .f32⟩ : BufTy).Contents (Elt Ideal))
  (x9 : (⟨S96, .f32⟩ : BufTy).Contents (Elt Ideal)) (x10 : (⟨S96x96, .f32⟩ : BufTy).Contents (Elt Ideal))
  (x11 : (⟨S96, .f32⟩ : BufTy).Contents (Elt Ideal)) (x12 : (⟨S3x96x96, .f32⟩ : BufTy).Contents (Elt Ideal))
  (x13 : (⟨S3x96, .f32⟩ : BufTy).Contents (Elt Ideal)) (x14 : (⟨S3x96x96, .f32⟩ : BufTy).Contents (Elt Ideal))
  (x15 : (⟨S3x96, .f32⟩ : BufTy).Contents (Elt Ideal)) (x16 : (⟨S3x96x96, .f32⟩ : BufTy).Contents (Elt Ideal))

/-- Two indices of a rank-2 shape with the same two coordinates are equal. -/
local macro "idx2" : tactic =>
  `(tactic| exact funext fun a => Fin.ext (by match a with | ⟨0, _⟩ => rfl | ⟨1, _⟩ => rfl))

/-- Two indices of a rank-1 shape with the same coordinate are equal. -/
local macro "idx1" : tactic =>
  `(tactic| exact funext fun a => Fin.ext (by match a with | ⟨0, _⟩ => rfl))

/-- The node features after the node network: two layers with the rectifier between them, of the [50000, 128] input. -/
theorem h0_eq :
    val_main_v12 (F := Ideal) x0 x4 x5 x6 x7
      = arr2 fun r q => mlp2At x0 x4 (fun k => x5 (ix1 k)) x6 (fun k => x7 (ix1 k)) r q := by
  funext i
  obtain ⟨r, q, rfl⟩ : ∃ (r : Fin 50000) (q : Fin 96), i = ix2 r q := ⟨i 0, i 1, eq_ix2 i⟩
  have l2 : ∀ k : Fin 96, lidx_main_v9 (ix2 r q) k = ix2 r k := fun k => by idx2
  have r2 : ∀ k : Fin 96, ridx_main_v9 (ix2 r q) k = ix2 k q := fun k => by idx2
  have c2 : idx_main_v10 (idx_main_v11 (ix2 r q)) = ix1 q := by idx1
  have l1 : ∀ (k : Fin 96) (j : Fin 128), lidx_main_v4 (ix2 r k) j = ix2 r j := fun k j => by idx2
  have r1 : ∀ (k : Fin 96) (j : Fin 128), ridx_main_v4 (ix2 r k) j = ix2 j k := fun k j => by idx2
  have c1 : ∀ k : Fin 96, idx_main_v5 (idx_main_v6 (ix2 r k)) = ix1 k := fun k => by idx1
  rw [val_main_v12_apply, val_main_v9_apply, val_main_v11_apply, val_main_v10_apply, arr2_ix2]
  simp only [l2, r2, c2, val_main_v8_apply, val_main_v7_apply, val_main_v4_apply, val_main_v6_apply,
    val_main_v5_apply, val_main_call0_v0_apply, val_main_call0_cst_apply, l1, r1, c1,
    Ideal.addf_def, Ideal.maximumf_def, Ideal.ofBits_def]
  unfold mlp2At linAt dotAt relu
  simp only [arr2_ix2]

/-- The node features after the first layer: the combine step of the aggregated messages and the node features, plus the node features, rectified. -/
theorem h1_eq :
    val_main_v63 (F := Ideal) x0 x1 x2 x4 x5 x6 x7 x8 x9 x10 x11 x12 x13 x14 x15 x16
      = arr2 fun r q => relu (val_main_v12 (F := Ideal) x0 x4 x5 x6 x7 (ix2 r q)
          + convAt (val_main_v49 (F := Ideal) x0 x1 x2 x4 x5 x6 x7 x8 x9 x10 x11 x12 x13) (val_main_v12 (F := Ideal) x0 x4 x5 x6 x7) (val_main_v51 (F := Ideal) x14)
              (fun k => val_main_v54 (F := Ideal) x15 (ix1 k)) (val_main_v59 (F := Ideal) x16) r q) := by
  funext i
  obtain ⟨r, q, rfl⟩ : ∃ (r : Fin 50000) (q : Fin 96), i = ix2 r q := ⟨i 0, i 1, eq_ix2 i⟩
  have l1 : ∀ k : Fin 96, lidx_main_v52 (ix2 r q) k = ix2 r k := fun k => by idx2
  have r1 : ∀ k : Fin 96, ridx_main_v52 (ix2 r q) k = ix2 k q := fun k => by idx2
  have l2 : ∀ k : Fin 96, lidx_main_v60 (ix2 r q) k = ix2 r k := fun k => by idx2
  have r2 : ∀ k : Fin 96, ridx_main_v60 (ix2 r q) k = ix2 k q := fun k => by idx2
  have c1 : idx_main_v55 (idx_main_v56 (ix2 r q)) = ix1 q := by idx1
  rw [val_main_v63_apply, val_main_v62_apply, val_main_v61_apply, val_main_v57_apply, val_main_v52_apply,
    val_main_v60_apply, val_main_v56_apply, val_main_v55_apply, val_main_call2_v0_apply, val_main_call2_cst_apply, arr2_ix2]
  generalize val_main_v49 (F := Ideal) x0 x1 x2 x4 x5 x6 x7 x8 x9 x10 x11 x12 x13 = A
  generalize val_main_v12 (F := Ideal) x0 x4 x5 x6 x7 = H
  generalize val_main_v51 (F := Ideal) x14 = Wl
  generalize val_main_v54 (F := Ideal) x15 = bl
  generalize val_main_v59 (F := Ideal) x16 = Wr
  simp only [l1, r1, l2, r2, c1, Ideal.addf_def, Ideal.maximumf_def, Ideal.ofBits_def]
  unfold relu convAt linAt dotAt
  rfl

/-- The first layer's affine map of the edge features. -/
theorem et0_eq :
    val_main_v43 (F := Ideal) x2 x8 x9 x10 x11 x12 x13
      = arr2 fun r q => linAt (val_main_v21 (F := Ideal) x2 x8 x9 x10 x11) (val_main_v37 (F := Ideal) x12)
          (fun k => val_main_v40 (F := Ideal) x13 (ix1 k)) r q := by
  funext i
  obtain ⟨r, q, rfl⟩ : ∃ (r : Fin 800000) (q : Fin 96), i = ix2 r q := ⟨i 0, i 1, eq_ix2 i⟩
  have l1 : ∀ k : Fin 96, lidx_main_v38 (ix2 r q) k = ix2 r k := fun k => by idx2
  have r1 : ∀ k : Fin 96, ridx_main_v38 (ix2 r q) k = ix2 k q := fun k => by idx2
  have c1 : idx_main_v41 (idx_main_v42 (ix2 r q)) = ix1 q := by idx1
  rw [val_main_v43_apply, val_main_v38_apply, val_main_v42_apply, val_main_v41_apply, arr2_ix2]
  generalize val_main_v21 (F := Ideal) x2 x8 x9 x10 x11 = E
  generalize val_main_v37 (F := Ideal) x12 = W
  generalize val_main_v40 (F := Ideal) x13 = b
  simp only [l1, r1, c1, Ideal.addf_def]
  unfold linAt dotAt
  rfl

/-- The second layer's affine map of the edge features. -/
theorem et1_eq :
    val_main_v78 (F := Ideal) x2 x8 x9 x10 x11 x12 x13
      = arr2 fun r q => linAt (val_main_v21 (F := Ideal) x2 x8 x9 x10 x11) (val_main_v72 (F := Ideal) x12)
          (fun k => val_main_v75 (F := Ideal) x13 (ix1 k)) r q := by
  funext i
  obtain ⟨r, q, rfl⟩ : ∃ (r : Fin 800000) (q : Fin 96), i = ix2 r q := ⟨i 0, i 1, eq_ix2 i⟩
  have l1 : ∀ k : Fin 96, lidx_main_v73 (ix2 r q) k = ix2 r k := fun k => by idx2
  have r1 : ∀ k : Fin 96, ridx_main_v73 (ix2 r q) k = ix2 k q := fun k => by idx2
  have c1 : idx_main_v76 (idx_main_v77 (ix2 r q)) = ix1 q := by idx1
  rw [val_main_v78_apply, val_main_v73_apply, val_main_v77_apply, val_main_v76_apply, arr2_ix2]
  generalize val_main_v21 (F := Ideal) x2 x8 x9 x10 x11 = E
  generalize val_main_v72 (F := Ideal) x12 = W
  generalize val_main_v75 (F := Ideal) x13 = b
  simp only [l1, r1, c1, Ideal.addf_def]
  unfold linAt dotAt
  rfl

/-- The third layer's affine map of the edge features. -/
theorem et2_eq :
    val_main_v113 (F := Ideal) x2 x8 x9 x10 x11 x12 x13
      = arr2 fun r q => linAt (val_main_v21 (F := Ideal) x2 x8 x9 x10 x11) (val_main_v107 (F := Ideal) x12)
          (fun k => val_main_v110 (F := Ideal) x13 (ix1 k)) r q := by
  funext i
  obtain ⟨r, q, rfl⟩ : ∃ (r : Fin 800000) (q : Fin 96), i = ix2 r q := ⟨i 0, i 1, eq_ix2 i⟩
  have l1 : ∀ k : Fin 96, lidx_main_v108 (ix2 r q) k = ix2 r k := fun k => by idx2
  have r1 : ∀ k : Fin 96, ridx_main_v108 (ix2 r q) k = ix2 k q := fun k => by idx2
  have c1 : idx_main_v111 (idx_main_v112 (ix2 r q)) = ix1 q := by idx1
  rw [val_main_v113_apply, val_main_v108_apply, val_main_v112_apply, val_main_v111_apply, arr2_ix2]
  generalize val_main_v21 (F := Ideal) x2 x8 x9 x10 x11 = E
  generalize val_main_v107 (F := Ideal) x12 = W
  generalize val_main_v110 (F := Ideal) x13 = b
  simp only [l1, r1, c1, Ideal.addf_def]
  unfold linAt dotAt
  rfl

/-- The edge features after the edge network: two layers with the rectifier between them, of the [800000, 32] input. -/
theorem ea_eq :
    val_main_v21 (F := Ideal) x2 x8 x9 x10 x11
      = arr2 fun r q => mlp2At x2 x8 (fun k => x9 (ix1 k)) x10 (fun k => x11 (ix1 k)) r q := by
  funext i
  obtain ⟨r, q, rfl⟩ : ∃ (r : Fin 800000) (q : Fin 96), i = ix2 r q := ⟨i 0, i 1, eq_ix2 i⟩
  have l2 : ∀ k : Fin 96, lidx_main_v18 (ix2 r q) k = ix2 r k := fun k => by idx2
  have r2 : ∀ k : Fin 96, ridx_main_v18 (ix2 r q) k = ix2 k q := fun k => by idx2
  have c2 : idx_main_v19 (idx_main_v20 (ix2 r q)) = ix1 q := by idx1
  have l1 : ∀ (k : Fin 96) (j : Fin 32), lidx_main_v13 (ix2 r k) j = ix2 r j := fun k j => by idx2
  have r1 : ∀ (k : Fin 96) (j : Fin 32), ridx_main_v13 (ix2 r k) j = ix2 j k := fun k j => by idx2
  have c1 : ∀ k : Fin 96, idx_main_v14 (idx_main_v15 (ix2 r k)) = ix1 k := fun k => by idx1
  rw [val_main_v21_apply, val_main_v18_apply, val_main_v20_apply, val_main_v19_apply, arr2_ix2]
  simp only [l2, r2, c2, val_main_v17_apply, val_main_v16_apply, val_main_v13_apply, val_main_v15_apply,
    val_main_v14_apply, val_main_call1_v0_apply, val_main_call1_cst_apply, l1, r1, c1,
    Ideal.addf_def, Ideal.maximumf_def, Ideal.ofBits_def]
  unfold mlp2At linAt dotAt relu
  simp only [arr2_ix2]

/-- The node features after the second layer: the combine step of the aggregated messages and the node features, plus the node features, rectified. -/
theorem h2_eq :
    val_main_v98 (F := Ideal) x0 x1 x2 x4 x5 x6 x7 x8 x9 x10 x11 x12 x13 x14 x15 x16
      = arr2 fun r q => relu (val_main_v63 (F := Ideal) x0 x1 x2 x4 x5 x6 x7 x8 x9 x10 x11 x12 x13 x14 x15 x16 (ix2 r q)
          + convAt (val_main_v84 (F := Ideal) x0 x1 x2 x4 x5 x6 x7 x8 x9 x10 x11 x12 x13 x14 x15 x16) (val_main_v63 (F := Ideal) x0 x1 x2 x4 x5 x6 x7 x8 x9 x10 x11 x12 x13 x14 x15 x16) (val_main_v86 (F := Ideal) x14)
              (fun k => val_main_v89 (F := Ideal) x15 (ix1 k)) (val_main_v94 (F := Ideal) x16) r q) := by
  funext i
  obtain ⟨r, q, rfl⟩ : ∃ (r : Fin 50000) (q : Fin 96), i = ix2 r q := ⟨i 0, i 1, eq_ix2 i⟩
  have l1 : ∀ k : Fin 96, lidx_main_v87 (ix2 r q) k = ix2 r k := fun k => by idx2
  have r1 : ∀ k : Fin 96, ridx_main_v87 (ix2 r q) k = ix2 k q := fun k => by idx2
  have l2 : ∀ k : Fin 96, lidx_main_v95 (ix2 r q) k = ix2 r k := fun k => by idx2
  have r2 : ∀ k : Fin 96, ridx_main_v95 (ix2 r q) k = ix2 k q := fun k => by idx2
  have c1 : idx_main_v90 (idx_main_v91 (ix2 r q)) = ix1 q := by idx1
  rw [val_main_v98_apply, val_main_v97_apply, val_main_v96_apply, val_main_v92_apply, val_main_v87_apply,
    val_main_v95_apply, val_main_v91_apply, val_main_v90_apply, val_main_call3_v0_apply, val_main_call3_cst_apply, arr2_ix2]
  generalize val_main_v84 (F := Ideal) x0 x1 x2 x4 x5 x6 x7 x8 x9 x10 x11 x12 x13 x14 x15 x16 = A
  generalize val_main_v63 (F := Ideal) x0 x1 x2 x4 x5 x6 x7 x8 x9 x10 x11 x12 x13 x14 x15 x16 = H
  generalize val_main_v86 (F := Ideal) x14 = Wl
  generalize val_main_v89 (F := Ideal) x15 = bl
  generalize val_main_v94 (F := Ideal) x16 = Wr
  simp only [l1, r1, l2, r2, c1, Ideal.addf_def, Ideal.maximumf_def, Ideal.ofBits_def]
  unfold relu convAt linAt dotAt
  rfl

/-- The node features after the third layer: the combine step of the aggregated messages and the node features. -/
theorem h3_eq :
    val_main_v131 (F := Ideal) x0 x1 x2 x4 x5 x6 x7 x8 x9 x10 x11 x12 x13 x14 x15 x16
      = arr2 fun r q => convAt (val_main_v119 (F := Ideal) x0 x1 x2 x4 x5 x6 x7 x8 x9 x10 x11 x12 x13 x14 x15 x16) (val_main_v98 (F := Ideal) x0 x1 x2 x4 x5 x6 x7 x8 x9 x10 x11 x12 x13 x14 x15 x16) (val_main_v121 (F := Ideal) x14)
              (fun k => val_main_v124 (F := Ideal) x15 (ix1 k)) (val_main_v129 (F := Ideal) x16) r q := by
  funext i
  obtain ⟨r, q, rfl⟩ : ∃ (r : Fin 50000) (q : Fin 96), i = ix2 r q := ⟨i 0, i 1, eq_ix2 i⟩
  have l1 : ∀ k : Fin 96, lidx_main_v122 (ix2 r q) k = ix2 r k := fun k => by idx2
  have r1 : ∀ k : Fin 96, ridx_main_v122 (ix2 r q) k = ix2 k q := fun k => by idx2
  have l2 : ∀ k : Fin 96, lidx_main_v130 (ix2 r q) k = ix2 r k := fun k => by idx2
  have r2 : ∀ k : Fin 96, ridx_main_v130 (ix2 r q) k = ix2 k q := fun k => by idx2
  have c1 : idx_main_v125 (idx_main_v126 (ix2 r q)) = ix1 q := by idx1
  rw [val_main_v131_apply, val_main_v127_apply, val_main_v122_apply,
    val_main_v130_apply, val_main_v126_apply, val_main_v125_apply, arr2_ix2]
  generalize val_main_v119 (F := Ideal) x0 x1 x2 x4 x5 x6 x7 x8 x9 x10 x11 x12 x13 x14 x15 x16 = A
  generalize val_main_v98 (F := Ideal) x0 x1 x2 x4 x5 x6 x7 x8 x9 x10 x11 x12 x13 x14 x15 x16 = H
  generalize val_main_v121 (F := Ideal) x14 = Wl
  generalize val_main_v124 (F := Ideal) x15 = bl
  generalize val_main_v129 (F := Ideal) x16 = Wr
  simp only [l1, r1, l2, r2, c1, Ideal.addf_def]
  unfold convAt linAt dotAt
  rfl

end Cert.ReferenceIdeal.Stages

end
-- ==== Proof.RefSlices.lean ====
/-
  The reference's slices of the stacked edge weights at an entry.

  The reference cuts layer i out of the [3, 96, 96] stack of weight matrices and drops the unit axis; the result at
  (k, q) is the stack at (i, k, q).  Likewise layer i of the [3, 96] stack of biases, as a vector, at k is the stack
  at (i, k).
-/
import proofs.«137253_j64622077936098_1_alg».proof.Proof.Gen.ReferenceIdeal.Read

noncomputable section

namespace Cert.ReferenceIdeal.Slices

open Cert.ReferenceIdeal Cert.ReferenceIdeal.Read Idealize.ShloMosaic Idealize.ShloMosaic.ValueIdx

theorem wt0 (x12 : (⟨S3x96x96, .f32⟩ : BufTy).Contents (Elt Ideal)) (k q : Fin 96) :
    val_main_v37 (F := Ideal) x12 (ix2 k q) = x12 (ix3 (0 : Fin 3) k q) := by
  rw [val_main_v37_apply, val_main_v36_apply]
  refine congrArg x12 (funext fun a => Fin.ext ?_)
  have hk := k.isLt
  have hq := q.isLt
  match a with
  | ⟨0, _⟩ => show 0 = 0; rfl
  | ⟨1, _⟩ => show (k.val * 96 + q.val) / 96 % 96 = k.val; omega
  | ⟨2, _⟩ => show (k.val * 96 + q.val) % 96 = q.val; omega

theorem wt1 (x12 : (⟨S3x96x96, .f32⟩ : BufTy).Contents (Elt Ideal)) (k q : Fin 96) :
    val_main_v72 (F := Ideal) x12 (ix2 k q) = x12 (ix3 (1 : Fin 3) k q) := by
  rw [val_main_v72_apply, val_main_v71_apply]
  refine congrArg x12 (funext fun a => Fin.ext ?_)
  have hk := k.isLt
  have hq := q.isLt
  match a with
  | ⟨0, _⟩ => show 1 + 0 = 1; rfl
  | ⟨1, _⟩ => show (k.val * 96 + q.val) / 96 % 96 = k.val; omega
  | ⟨2, _⟩ => show (k.val * 96 + q.val) % 96 = q.val; omega

theorem wt2 (x12 : (⟨S3x96x96, .f32⟩ : BufTy).Contents (Elt Ideal)) (k q : Fin 96) :
    val_main_v107 (F := Ideal) x12 (ix2 k q) = x12 (ix3 (2 : Fin 3) k q) := by
  rw [val_main_v107_apply, val_main_v106_apply]
  refine congrArg x12 (funext fun a => Fin.ext ?_)
  have hk := k.isLt
  have hq := q.isLt
  match a with
  | ⟨0, _⟩ => show 2 + 0 = 2; rfl
  | ⟨1, _⟩ => show (k.val * 96 + q.val) / 96 % 96 = k.val; omega
  | ⟨2, _⟩ => show (k.val * 96 + q.val) % 96 = q.val; omega

theorem bt0 (x13 : (⟨S3x96, .f32⟩ : BufTy).Contents (Elt Ideal)) (k : Fin 96) :
    val_main_v40 (F := Ideal) x13 (ix1 k) = x13 (ix2 (0 : Fin 3) k) := by
  rw [val_main_v40_apply, val_main_v39_apply]
  refine congrArg x13 (funext fun a => Fin.ext ?_)
  have hk := k.isLt
  match a with
  | ⟨0, _⟩ => show 0 = 0; rfl
  | ⟨1, _⟩ => show k.val % 96 = k.val; omega

theorem bt1 (x13 : (⟨S3x96, .f32⟩ : BufTy).Contents (Elt Ideal)) (k : Fin 96) :
    val_main_v75 (F := Ideal) x13 (ix1 k) = x13 (ix2 (1 : Fin 3) k) := by
  rw [val_main_v75_apply, val_main_v74_apply]
  refine congrArg x13 (funext fun a => Fin.ext ?_)
  have hk := k.isLt
  match a with
  | ⟨0, _⟩ => show 1 + 0 = 1; rfl
  | ⟨1, _⟩ => show k.val % 96 = k.val; omega

theorem bt2 (x13 : (⟨S3x96, .f32⟩ : BufTy).Contents (Elt Ideal)) (k : Fin 96) :
    val_main_v110 (F := Ideal) x13 (ix1 k) = x13 (ix2 (2 : Fin 3) k) := by
  rw [val_main_v110_apply, val_main_v109_apply]
  refine congrArg x13 (funext fun a => Fin.ext ?_)
  have hk := k.isLt
  match a with
  | ⟨0, _⟩ => show 2 + 0 = 2; rfl
  | ⟨1, _⟩ => show k.val % 96 = k.val; omega

end Cert.ReferenceIdeal.Slices

end
-- ==== Proof.BridgeB1.lean ====
/-
  The idealized kernel's buffers up to the edge call's results.

  Before the edge call the host reshapes the two edge biases to rows and the [3, 96] stack of layer biases to
  [3, 1, 96]; the call finds the edge features and the weights as launched.  Its three results are, layer by layer,
  the two-layer function of the edge features times the layer's weight matrix plus the layer's bias: the reference's
  edge terms, the reference slicing the stacks on the host where the call slices its blocks.
-/
import proofs.«137253_j64622077936098_1_alg».proof.Proof.BridgeA
import proofs.«137253_j64622077936098_1_alg».proof.Proof.Reg1
import proofs.«137253_j64622077936098_1_alg».proof.Proof.RefStages
import proofs.«137253_j64622077936098_1_alg».proof.Proof.RefSlices

set_option maxRecDepth 16384

noncomputable section

namespace Cert.KernelIdeal.Bridge

open Cert.KernelIdeal Cert.KernelIdeal.Gen Idealize.ShloMosaic Idealize.ShloMosaic.ValueIdx Idealize.ShloMosaic.TcCoe Idealize.SL.Sem
open Idealize.ShloMosaic.StableHlo Cert.LibLinear
open Cert.ReferenceIdeal.Read

variable (m : (ℓ : Loc nD τ sig) → Buf (Elt Ideal) ℓ) (ρ : Dev nD → PrngReg) (c : Dev nD)

/-- An affine layer with its weight matrix and bias replaced by equal ones, entry by entry. -/
theorem linAt_congr {M K N : ℕ} (X : (⟨2, ![M, K]⟩ : Shape).Idx → EReal) (W W' : (⟨2, ![K, N]⟩ : Shape).Idx → EReal)
    (b b' : Fin N → EReal) (r : Fin M) (q : Fin N) (hW : ∀ (k : Fin K) (q : Fin N), W (ix2 k q) = W' (ix2 k q))
    (hb : ∀ q, b q = b' q) : linAt X W b r q = linAt X W' b' r q := by
  unfold linAt; rw [dotAt_right X W W' r q (fun k => hW k q), hb q]

/-- The node-initialisation call's result is the reference's initial node features. -/
theorem v6_val : W2 m ρ c (Proc.devRef .tc main_v6) = val_main_v12 (F := Ideal) (m ((c : Thread nD τ).loc main_arg0)) (m ((c : Thread nD τ).loc main_arg4)) (m ((c : Thread nD τ).loc main_arg5)) (m ((c : Thread nD τ).loc main_arg6)) (m ((c : Thread nD τ).loc main_arg7)) :=
  (k2_v6 m ρ c).trans (Cert.ReferenceIdeal.Stages.h0_eq _ _ _ _ _).symm

/-! ## The edge call's inputs -/

theorem w3_v7 : W3 m ρ c (Proc.devRef .tc main_v7) = shapeCast S1x96 (m ((c : Thread nD τ).loc main_arg9)) shapeCasts_S96_S1x96 := by
  show StableHlo.after hostOps1 (W2 m ρ c) (Proc.devRef .tc main_v7) = _
  after_results
  rw [keep_arg9_2]
  rfl
theorem w3_v8 : W3 m ρ c (Proc.devRef .tc main_v8) = shapeCast S1x96 (m ((c : Thread nD τ).loc main_arg11)) shapeCasts_S96_S1x96 := by
  show StableHlo.after hostOps1 (W2 m ρ c) (Proc.devRef .tc main_v8) = _
  after_results
  rw [keep_arg11_2]
  rfl
theorem w3_v9 : W3 m ρ c (Proc.devRef .tc main_v9) = shapeCast S3x1x96 (m ((c : Thread nD τ).loc main_arg13)) shapeCasts_S3x96_S3x1x96 := by
  show StableHlo.after hostOps1 (W2 m ρ c) (Proc.devRef .tc main_v9) = _
  after_results
  rw [keep_arg13_2]
  rfl

/-- The stack of layer biases with a unit axis put in: at (i, 0, q) it is the stack at (i, q). -/
theorem bt_row (i : Fin 3) (q : Fin 96) : V3 m ρ c main_v9 (ix3 i (0 : Fin 1) q) = (m ((c : Thread nD τ).loc main_arg13)) (ix2 i q) := by
  refine (congrFun (w3_v9 m ρ c) _).trans (shapeCast_apply _ _ _ _ ?_)
  show (S3x96.rowMajor (ix2 i q)).val = (S3x1x96.rowMajor (ix3 i (0 : Fin 1) q)).val
  rw [Shape.rowMajor_val_two, Shape.rowMajor_val_three]
  show i.val * 96 + q.val = (i.val * 1 + 0) * 96 + q.val
  omega

/-- The edge call's two-layer intermediate is the reference's edge features. -/
theorem ea_val : Edge.ea (V3 m ρ) c = val_main_v21 (F := Ideal) (m ((c : Thread nD τ).loc main_arg2)) (m ((c : Thread nD τ).loc main_arg8)) (m ((c : Thread nD τ).loc main_arg9)) (m ((c : Thread nD τ).loc main_arg10)) (m ((c : Thread nD τ).loc main_arg11)) := by
  unfold Edge.ea
  have b1 : (fun k : Fin 96 => V3 m ρ c main_v7 (ix2 (0 : Fin 1) k)) = fun k => (m ((c : Thread nD τ).loc main_arg9)) (ix1 k) :=
    funext fun k => (congrFun (w3_v7 m ρ c) _).trans (shapeCast_a_1a_apply _ _ 0 k)
  have b2 : (fun k : Fin 96 => V3 m ρ c main_v8 (ix2 (0 : Fin 1) k)) = fun k => (m ((c : Thread nD τ).loc main_arg11)) (ix1 k) :=
    funext fun k => (congrFun (w3_v8 m ρ c) _).trans (shapeCast_a_1a_apply _ _ 0 k)
  rw [b1, b2, show V3 m ρ c main_arg2 = _ from keep_arg2_3 m ρ c, show V3 m ρ c main_arg8 = _ from keep_arg8_3 m ρ c,
    show V3 m ρ c main_arg10 = _ from keep_arg10_3 m ρ c]
  exact (Cert.ReferenceIdeal.Stages.ea_eq _ _ _ _ _).symm

/-- Layer 0's edge term: the edge call's first result is the reference's. -/
theorem et0_val : W4 m ρ c (Proc.devRef .tc main_v10_0) = val_main_v43 (F := Ideal) (m ((c : Thread nD τ).loc main_arg2)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W4_arr m ρ c 7).trans ((Edge.final7 (V3 m ρ) c).trans ?_)
  rw [ea_val, Cert.ReferenceIdeal.Stages.et0_eq]
  funext j
  unfold arr2
  refine linAt_congr _ _ _ _ _ _ _ (fun k q => ?_) (fun q => ?_)
  · exact (congrFun (show V3 m ρ c main_arg12 = _ from keep_arg12_3 m ρ c) _).trans (Cert.ReferenceIdeal.Slices.wt0 _ k q).symm
  · exact (bt_row m ρ c (0 : Fin 3) q).trans (Cert.ReferenceIdeal.Slices.bt0 _ q).symm

/-- Layer 1's edge term: the edge call's second result is the reference's. -/
theorem et1_val : W4 m ρ c (Proc.devRef .tc main_v10_1) = val_main_v78 (F := Ideal) (m ((c : Thread nD τ).loc main_arg2)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W4_arr m ρ c 8).trans ((Edge.final8 (V3 m ρ) c).trans ?_)
  rw [ea_val, Cert.ReferenceIdeal.Stages.et1_eq]
  funext j
  unfold arr2
  refine linAt_congr _ _ _ _ _ _ _ (fun k q => ?_) (fun q => ?_)
  · exact (congrFun (show V3 m ρ c main_arg12 = _ from keep_arg12_3 m ρ c) _).trans (Cert.ReferenceIdeal.Slices.wt1 _ k q).symm
  · exact (bt_row m ρ c (1 : Fin 3) q).trans (Cert.ReferenceIdeal.Slices.bt1 _ q).symm

/-- Layer 2's edge term: the edge call's third result is the reference's. -/
theorem et2_val : W4 m ρ c (Proc.devRef .tc main_v10_2) = val_main_v113 (F := Ideal) (m ((c : Thread nD τ).loc main_arg2)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W4_arr m ρ c 9).trans ((Edge.final9 (V3 m ρ) c).trans ?_)
  rw [ea_val, Cert.ReferenceIdeal.Stages.et2_eq]
  funext j
  unfold arr2
  refine linAt_congr _ _ _ _ _ _ _ (fun k q => ?_) (fun q => ?_)
  · exact (congrFun (show V3 m ρ c main_arg12 = _ from keep_arg12_3 m ρ c) _).trans (Cert.ReferenceIdeal.Slices.wt2 _ k q).symm
  · exact (bt_row m ρ c (2 : Fin 3) q).trans (Cert.ReferenceIdeal.Slices.bt2 _ q).symm

end Cert.KernelIdeal.Bridge

end
-- ==== Proof.Reg2.lean ====
/-
  The first combine call: what its result array holds.

  The call cuts the [50000, 96] aggregated messages A and the [50000, 96] node features H into ten blocks of 5000
  rows; at block t the body multiplies the block of A by the left weight matrix and adds the bias, multiplies the
  block of H by the right weight matrix, adds the two, adds the block of H, rectifies, and writes the [5000, 96] result as block t of the
  output.  An entry of the combine step depends on row r of A and row r of H only, so block t of the result is
  block t of one function of the whole arrays; the ten blocks cover the rows (row r lies in block r / 5000), so the
  output array is that function everywhere.
-/
import proofs.«137253_j64622077936098_1_alg».proof.Proof.Gen.KernelIdeal.Frame
import proofs.«137253_j64622077936098_1_alg».proof.Proof.LibLinear
import proofs.«137253_j64622077936098_1_alg».proof.Proof.LibPlainDot
import Idealize.ShloMosaic.Lib.Pipeline.Value
import Idealize.ShloMosaic.Lib.ValueLayout

set_option maxRecDepth 16384

noncomputable section

namespace Cert.KernelIdeal.Combine2

open Cert.KernelIdeal Cert.KernelIdeal.Gen Idealize.ShloMosaic Idealize.ShloMosaic.ValueIdx Idealize.ShloMosaic.TcCoe Idealize.SL.Sem
open Cert.LibLinear

/-! ## The matrix products of the body at an entry -/

/-- The left operand of the product is read at the entry's row. -/
theorem dot_l0 (j : S5000x96.Idx) (q : dot_S5000x96_S96x96_S5000x96_1_0_0_1_n_n.contr.Idx) :
    (dot_S5000x96_S96x96_S5000x96_1_0_0_1_n_n.lhsIdx j q 0).val = (j 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl

/-- The right operand of the product is read at the entry's column. -/
theorem dot_r1 (j : S5000x96.Idx) (q : dot_S5000x96_S96x96_S5000x96_1_0_0_1_n_n.contr.Idx) :
    (dot_S5000x96_S96x96_S5000x96_1_0_0_1_n_n.rhsIdx j q 1).val = (j 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- A product of a block with a weight matrix at (p, q): the sum over the 96 features. -/
theorem mm (a : FVec Ideal S5000x96 .bf16) (b : FVec Ideal S96x96 .bf16) (p : Fin 5000) (q : Fin 96) :
    FloatOps.matmul dot_S5000x96_S96x96_S5000x96_1_0_0_1_n_n none a b (constant S5000x96 .f32 0x00000000#32) (ix2 p q)
      = dotAt a b p q :=
  Cert.LibPlainDot.matmul_zero_ix2 dot_S5000x96_S96x96_S5000x96_1_0_0_1_n_n rfl rfl rfl rfl dot_l0 dot_r1 none a b p q

/-- The same product as the body writes it: each operand passes through a cast to its own shape and a change of
    float format, both the identity on the extended reals. -/
theorem mmc (a : Vec Ideal S5000x96 .f32) (b : Vec Ideal S96x96 .f32) (h1 : S5000x96.ShapeCasts S5000x96)
    (h2 : S96x96.ShapeCasts S96x96) (hb : FTy.bf16.bits < FTy.f32.bits) (p : Fin 5000) (q : Fin 96) :
    FloatOps.matmul dot_S5000x96_S96x96_S5000x96_1_0_0_1_n_n none
        (truncf .bf16 (shapeCast S5000x96 a h1) hb : FVec Ideal S5000x96 .bf16)
        (truncf .bf16 (shapeCast S96x96 b h2) hb : FVec Ideal S96x96 .bf16) (constant S5000x96 .f32 0x00000000#32) (ix2 p q)
      = dotAt a b p q := by
  rw [shapeCast_self a h1, shapeCast_self b h2]
  exact mm (truncf .bf16 a hb) (truncf .bf16 b hb) p q

/-! ## The body's stored value at an entry -/

/-- The value the body stores, at (p, q): the rectified sum of the node feature and the combine step of the loaded
    blocks at (p, q). -/
theorem pay_at (x0 : Vec Ideal S5000x96 .f32) (x1 : Vec Ideal S96x96 .f32) (x2 : Vec Ideal S1x96 .f32)
    (x3 : Vec Ideal S5000x96 .f32) (x4 : Vec Ideal S96x96 .f32) (p : Fin 5000) (q : Fin 96) :
    k2_pay1 x0 x1 x2 x3 x4 (ix2 p q)
      = relu (x3 (ix2 p q) + convAt x0 x3 x1 (fun k => x2 (ix2 (0 : Fin 1) k)) x4 p q) := by
  unfold k2_pay1 relu convAt linAt
  dsimp only
  refine congrArg₂ max (congrArg₂ (· + ·) ?_ (congrArg₂ (· + ·) (congrArg₂ (· + ·) (mmc _ _ _ _ _ p q) ?_) (mmc _ _ _ _ _ p q))) rfl
  · exact congrFun (shapeCast_self x3 _) _
  · exact (broadcastTo_1b_ab_apply _ _ p q).trans (congrFun (shapeCast_self x2 _) _)

/-! ## From the blocks to the array -/

theorem hz : (![0, 0] : Fin 2 → Nat) = fun _ => 0 := funext fun a => by fin_cases a <;> rfl

/-- The index maps over the ten grid points: at point t the two inputs cut by rows and the output window sit at
    block t of their arrays' rows; the weight matrices and the bias row are whole at every point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b)) (c : Dev nD)

/-- The rectified sum of the node features and the combine step of the arrays the call finds: aggregated messages,
    node features, left weights, bias row, right weights. -/
def G : S50000x96.Idx → EReal :=
  arr2 fun r q => relu (HAdd.hAdd (α := EReal) (β := EReal) (γ := EReal) (V c main_v6 (ix2 r q)) (convAt (V c main_v30) (V c main_v6) (V c main_v32) (fun k => V c main_v37 (ix2 (0 : Fin 1) k)) (V c main_v36) r q))

/-- The left weight matrix's window is its whole array at every point. -/
theorem blkWl (t : Fin cfg2.N) : iblk2 V c 2 t = V c main_v32 := by
  obtain ⟨-, -, -, -, e0, e1, -⟩ := idx_facts t
  funext y
  show V c main_v32 (((cfg2.win 2).blk t).view.emb y) = V c main_v32 y
  refine congrArg _ (funext fun a => Fin.ext ?_)
  match a with
  | ⟨0, _⟩ => show win2_2.index t (0 : Fin 2) * 96 + 1 * (y 0).val = (y 0).val; omega
  | ⟨1, _⟩ => show win2_2.index t (1 : Fin 2) * 96 + 1 * (y 1).val = (y 1).val; omega

/-- The bias row's window is its whole array at every point. -/
theorem blkBl (t : Fin cfg2.N) : iblk2 V c 3 t = V c main_v37 := by
  obtain ⟨-, -, -, -, -, -, e0, e1, -⟩ := idx_facts t
  funext y
  show V c main_v37 (((cfg2.win 3).blk t).view.emb y) = V c main_v37 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 96 + 1 * (y 1).val = (y 1).val; omega

/-- The right weight matrix's window is its whole array at every point. -/
theorem blkWr (t : Fin cfg2.N) : iblk2 V c 4 t = V c main_v36 := by
  obtain ⟨-, -, -, -, -, -, -, -, e0, e1, -⟩ := idx_facts t
  funext y
  show V c main_v36 (((cfg2.win 4).blk t).view.emb y) = V c main_v36 y
  refine congrArg _ (funext fun a => Fin.ext ?_)
  match a with
  | ⟨0, _⟩ => show win2_4.index t (0 : Fin 2) * 96 + 1 * (y 0).val = (y 0).val; omega
  | ⟨1, _⟩ => show win2_4.index t (1 : Fin 2) * 96 + 1 * (y 1).val = (y 1).val; omega

/-- Row p of the block of aggregated messages at point t is row t * 5000 + p of the array. -/
theorem blkA (t : Fin cfg2.N) (p : Fin 5000) (k : Fin 96) (h : t.val * 5000 + p.val < 50000) :
    iblk2 V c 0 t (ix2 p k) = V c main_v30 (ix2 (⟨t.val * 5000 + p.val, h⟩ : Fin 50000) k) := by
  obtain ⟨e0, e1, -⟩ := idx_facts t
  show V c main_v30 (((cfg2.win 0).blk t).view.emb (ix2 p k)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 96 + 1 * k.val = k.val; omega

/-- Row p of the block of node features at point t is row t * 5000 + p of the array. -/
theorem blkH (t : Fin cfg2.N) (p : Fin 5000) (k : Fin 96) (h : t.val * 5000 + p.val < 50000) :
    iblk2 V c 1 t (ix2 p k) = V c main_v6 (ix2 (⟨t.val * 5000 + p.val, h⟩ : Fin 50000) k) := by
  obtain ⟨-, -, e0, e1, -⟩ := idx_facts t
  show V c main_v6 (((cfg2.win 1).blk t).view.emb (ix2 p k)) = _
  refine congrArg _ (funext fun a => Fin.ext ?_)
  match a with
  | ⟨0, _⟩ => show win2_1.index t (0 : Fin 2) * 5000 + 1 * p.val = t.val * 5000 + p.val; omega
  | ⟨1, _⟩ => show win2_1.index t (1 : Fin 2) * 96 + 1 * k.val = k.val; omega

/-- What point t writes back is block t of that function of the arrays. -/
theorem flushed_eq (t : Fin cfg2.N) :
    (dat2 (F := Ideal) V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x96) hz, View.ld_unit_zero (S := S96x96) hz, View.ld_unit_zero (S := S1x96) hz]
  rw [blkWl, blkBl, blkWr]
  obtain ⟨-, -, -, -, -, -, -, -, -, -, e50, e51⟩ := idx_facts t
  have ht : t.val < 10 := lt_of_lt_of_eq t.isLt N_2
  funext j
  obtain ⟨p, q, rfl⟩ : ∃ (p : Fin 5000) (q : Fin 96), j = ix2 p q := ⟨j 0, j 1, eq_ix2 j⟩
  have hp : t.val * 5000 + p.val < 50000 := by have := p.isLt; omega
  refine (pay_at _ _ _ _ _ p q).trans ?_
  have h5 : ((cfg2.win 5).blk t).view.emb (ix2 p q) = ix2 (⟨t.val * 5000 + p.val, hp⟩ : Fin 50000) q := by
    funext a; apply Fin.ext
    match a with
    | ⟨0, _⟩ => show win2_5.index t (0 : Fin 2) * 5000 + 1 * p.val = t.val * 5000 + p.val; omega
    | ⟨1, _⟩ => show win2_5.index t (1 : Fin 2) * 96 + 1 * q.val = q.val; omega
  show _ = G V c (((cfg2.win 5).blk t).view.emb (ix2 p q))
  rw [h5]
  unfold G
  rw [arr2_ix2]
  unfold relu
  refine congrArg₂ max (congrArg₂ (· + ·) (blkH V c t p q hp) ?_) rfl
  exact convAt_row _ _ _ _ _ _ _ p _ q (fun k => blkA V c t p k hp) (fun k => blkH V c t p k hp)

/-- An index of the output array is in point t's block iff each coordinate is in the block's range. -/
theorem mem_blk (t : Fin cfg2.N) (i : S50000x96.Idx) :
    i ∈ ((cfg2.win 5).blk t).view.set ↔ ∀ a : Fin 2, win2_5.index t a * S5000x96.size a ≤ (i a).val ∧ (i a).val < win2_5.index t a * S5000x96.size a + S5000x96.size a := by
  show i ∈ ((View.whole main_v38).slice (win2_5.rect t)).set ↔ _
  rw [View.set_slice_whole, Rect.mem_set_unit]
  exact Iff.rfl

/-- Every index of the output array is in some point's block: row r in block r / 5000. -/
theorem cover (i : S50000x96.Idx) : ∃ t : Fin cfg2.N, (cfg2.win 5).flush t = true ∧ i ∈ ((cfg2.win 5).blk t).view.set := by
  have hi0 : (i 0).val < 50000 := (i 0).isLt
  have hi1 : (i 1).val < 96 := (i 1).isLt
  have hN : (i 0).val / 5000 < cfg2.N := by rw [show cfg2.N = 10 from N_2]; omega
  obtain ⟨-, -, -, -, -, -, -, -, -, -, e50, e51⟩ := idx_facts ⟨(i 0).val / 5000, hN⟩
  refine ⟨⟨(i 0).val / 5000, hN⟩, flush2_5 _, ?_⟩
  rw [mem_blk]
  intro a
  match a with
  | ⟨0, _⟩ =>
    show win2_5.index ⟨(i 0).val / 5000, hN⟩ (0 : Fin 2) * 5000 ≤ (i 0).val ∧ (i 0).val < win2_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, hN⟩ (1 : Fin 2) * 96 ≤ (i 1).val ∧ (i 1).val < win2_5.index ⟨(i 0).val / 5000, hN⟩ (1 : Fin 2) * 96 + 96
    omega

/-- The output array after the call. -/
theorem final : (dat2 (F := Ideal) V c).arrAt 5 cfg2.N
      = arr2 fun r q => relu (HAdd.hAdd (α := EReal) (β := EReal) (γ := EReal) (V c main_v6 (ix2 r q)) (convAt (V c main_v30) (V c main_v6) (V c main_v32) (fun k => V c main_v37 (ix2 (0 : Fin 1) k)) (V c main_v36) r q)) :=
  (dat2 V c).arrAt_eq_of_cover 5 (G V c) (fun t _ => flushed_eq V c t) (cover)

end Cert.KernelIdeal.Combine2

end
-- ==== Proof.Reg3.lean ====
/-
  The second combine call: what its result array holds.

  The call cuts the [50000, 96] aggregated messages A and the [50000, 96] node features H into ten blocks of 5000
  rows; at block t the body multiplies the block of A by the left weight matrix and adds the bias, multiplies the
  block of H by the right weight matrix, adds the two, adds the block of H, rectifies, and writes the [5000, 96] result as block t of the
  output.  An entry of the combine step depends on row r of A and row r of H only, so block t of the result is
  block t of one function of the whole arrays; the ten blocks cover the rows (row r lies in block r / 5000), so the
  output array is that function everywhere.
-/
import proofs.«137253_j64622077936098_1_alg».proof.Proof.Gen.KernelIdeal.Frame
import proofs.«137253_j64622077936098_1_alg».proof.Proof.LibLinear
import proofs.«137253_j64622077936098_1_alg».proof.Proof.LibPlainDot
import Idealize.ShloMosaic.Lib.Pipeline.Value
import Idealize.ShloMosaic.Lib.ValueLayout

set_option maxRecDepth 16384

noncomputable section

namespace Cert.KernelIdeal.Combine3

open Cert.KernelIdeal Cert.KernelIdeal.Gen Idealize.ShloMosaic Idealize.ShloMosaic.ValueIdx Idealize.ShloMosaic.TcCoe Idealize.SL.Sem
open Cert.LibLinear

/-! ## The matrix products of the body at an entry -/

/-- The left operand of the product is read at the entry's row. -/
theorem dot_l0 (j : S5000x96.Idx) (q : dot_S5000x96_S96x96_S5000x96_1_0_0_1_n_n.contr.Idx) :
    (dot_S5000x96_S96x96_S5000x96_1_0_0_1_n_n.lhsIdx j q 0).val = (j 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl

/-- The right operand of the product is read at the entry's column. -/
theorem dot_r1 (j : S5000x96.Idx) (q : dot_S5000x96_S96x96_S5000x96_1_0_0_1_n_n.contr.Idx) :
    (dot_S5000x96_S96x96_S5000x96_1_0_0_1_n_n.rhsIdx j q 1).val = (j 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- A product of a block with a weight matrix at (p, q): the sum over the 96 features. -/
theorem mm (a : FVec Ideal S5000x96 .bf16) (b : FVec Ideal S96x96 .bf16) (p : Fin 5000) (q : Fin 96) :
    FloatOps.matmul dot_S5000x96_S96x96_S5000x96_1_0_0_1_n_n none a b (constant S5000x96 .f32 0x00000000#32) (ix2 p q)
      = dotAt a b p q :=
  Cert.LibPlainDot.matmul_zero_ix2 dot_S5000x96_S96x96_S5000x96_1_0_0_1_n_n rfl rfl rfl rfl dot_l0 dot_r1 none a b p q

/-- The same product as the body writes it: each operand passes through a cast to its own shape and a change of
    float format, both the identity on the extended reals. -/
theorem mmc (a : Vec Ideal S5000x96 .f32) (b : Vec Ideal S96x96 .f32) (h1 : S5000x96.ShapeCasts S5000x96)
    (h2 : S96x96.ShapeCasts S96x96) (hb : FTy.bf16.bits < FTy.f32.bits) (p : Fin 5000) (q : Fin 96) :
    FloatOps.matmul dot_S5000x96_S96x96_S5000x96_1_0_0_1_n_n none
        (truncf .bf16 (shapeCast S5000x96 a h1) hb : FVec Ideal S5000x96 .bf16)
        (truncf .bf16 (shapeCast S96x96 b h2) hb : FVec Ideal S96x96 .bf16) (constant S5000x96 .f32 0x00000000#32) (ix2 p q)
      = dotAt a b p q := by
  rw [shapeCast_self a h1, shapeCast_self b h2]
  exact mm (truncf .bf16 a hb) (truncf .bf16 b hb) p q

/-! ## The body's stored value at an entry -/

/-- The value the body stores, at (p, q): the rectified sum of the node feature and the combine step of the loaded
    blocks at (p, q). -/
theorem pay_at (x0 : Vec Ideal S5000x96 .f32) (x1 : Vec Ideal S96x96 .f32) (x2 : Vec Ideal S1x96 .f32)
    (x3 : Vec Ideal S5000x96 .f32) (x4 : Vec Ideal S96x96 .f32) (p : Fin 5000) (q : Fin 96) :
    k3_pay1 x0 x1 x2 x3 x4 (ix2 p q)
      = relu (x3 (ix2 p q) + convAt x0 x3 x1 (fun k => x2 (ix2 (0 : Fin 1) k)) x4 p q) := by
  unfold k3_pay1 relu convAt linAt
  dsimp only
  refine congrArg₂ max (congrArg₂ (· + ·) ?_ (congrArg₂ (· + ·) (congrArg₂ (· + ·) (mmc _ _ _ _ _ p q) ?_) (mmc _ _ _ _ _ p q))) rfl
  · exact congrFun (shapeCast_self x3 _) _
  · exact (broadcastTo_1b_ab_apply _ _ p q).trans (congrFun (shapeCast_self x2 _) _)

/-! ## From the blocks to the array -/

theorem hz : (![0, 0] : Fin 2 → Nat) = fun _ => 0 := funext fun a => by fin_cases a <;> rfl

/-- The index maps over the ten grid points: at point t the two inputs cut by rows and the output window sit at
    block t of their arrays' rows; the weight matrices and the bias row are whole at every point. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b)) (c : Dev nD)

/-- The rectified sum of the node features and the combine step of the arrays the call finds: aggregated messages,
    node features, left weights, bias row, right weights. -/
def G : S50000x96.Idx → EReal :=
  arr2 fun r q => relu (HAdd.hAdd (α := EReal) (β := EReal) (γ := EReal) (V c main_v38 (ix2 r q)) (convAt (V c main_v51) (V c main_v38) (V c main_v53) (fun k => V c main_v58 (ix2 (0 : Fin 1) k)) (V c main_v57) r q))

/-- The left weight matrix's window is its whole array at every point. -/
theorem blkWl (t : Fin cfg3.N) : iblk3 V c 2 t = V c main_v53 := by
  obtain ⟨-, -, -, -, e0, e1, -⟩ := idx_facts t
  funext y
  show V c main_v53 (((cfg3.win 2).blk t).view.emb y) = V c main_v53 y
  refine congrArg _ (funext fun a => Fin.ext ?_)
  match a with
  | ⟨0, _⟩ => show win3_2.index t (0 : Fin 2) * 96 + 1 * (y 0).val = (y 0).val; omega
  | ⟨1, _⟩ => show win3_2.index t (1 : Fin 2) * 96 + 1 * (y 1).val = (y 1).val; omega

/-- The bias row's window is its whole array at every point. -/
theorem blkBl (t : Fin cfg3.N) : iblk3 V c 3 t = V c main_v58 := by
  obtain ⟨-, -, -, -, -, -, e0, e1, -⟩ := idx_facts t
  funext y
  show V c main_v58 (((cfg3.win 3).blk t).view.emb y) = V c main_v58 y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 96 + 1 * (y 1).val = (y 1).val; omega

/-- The right weight matrix's window is its whole array at every point. -/
theorem blkWr (t : Fin cfg3.N) : iblk3 V c 4 t = V c main_v57 := by
  obtain ⟨-, -, -, -, -, -, -, -, e0, e1, -⟩ := idx_facts t
  funext y
  show V c main_v57 (((cfg3.win 4).blk t).view.emb y) = V c main_v57 y
  refine congrArg _ (funext fun a => Fin.ext ?_)
  match a with
  | ⟨0, _⟩ => show win3_4.index t (0 : Fin 2) * 96 + 1 * (y 0).val = (y 0).val; omega
  | ⟨1, _⟩ => show win3_4.index t (1 : Fin 2) * 96 + 1 * (y 1).val = (y 1).val; omega

/-- Row p of the block of aggregated messages at point t is row t * 5000 + p of the array. -/
theorem blkA (t : Fin cfg3.N) (p : Fin 5000) (k : Fin 96) (h : t.val * 5000 + p.val < 50000) :
    iblk3 V c 0 t (ix2 p k) = V c main_v51 (ix2 (⟨t.val * 5000 + p.val, h⟩ : Fin 50000) k) := by
  obtain ⟨e0, e1, -⟩ := idx_facts t
  show V c main_v51 (((cfg3.win 0).blk t).view.emb (ix2 p k)) = _
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 96 + 1 * k.val = k.val; omega

/-- Row p of the block of node features at point t is row t * 5000 + p of the array. -/
theorem blkH (t : Fin cfg3.N) (p : Fin 5000) (k : Fin 96) (h : t.val * 5000 + p.val < 50000) :
    iblk3 V c 1 t (ix2 p k) = V c main_v38 (ix2 (⟨t.val * 5000 + p.val, h⟩ : Fin 50000) k) := by
  obtain ⟨-, -, e0, e1, -⟩ := idx_facts t
  show V c main_v38 (((cfg3.win 1).blk t).view.emb (ix2 p k)) = _
  refine congrArg _ (funext fun a => Fin.ext ?_)
  match a with
  | ⟨0, _⟩ => show win3_1.index t (0 : Fin 2) * 5000 + 1 * p.val = t.val * 5000 + p.val; omega
  | ⟨1, _⟩ => show win3_1.index t (1 : Fin 2) * 96 + 1 * k.val = k.val; omega

/-- What point t writes back is block t of that function of the arrays. -/
theorem flushed_eq (t : Fin cfg3.N) :
    (dat3 (F := Ideal) V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x96) hz, View.ld_unit_zero (S := S96x96) hz, View.ld_unit_zero (S := S1x96) hz]
  rw [blkWl, blkBl, blkWr]
  obtain ⟨-, -, -, -, -, -, -, -, -, -, e50, e51⟩ := idx_facts t
  have ht : t.val < 10 := lt_of_lt_of_eq t.isLt N_3
  funext j
  obtain ⟨p, q, rfl⟩ : ∃ (p : Fin 5000) (q : Fin 96), j = ix2 p q := ⟨j 0, j 1, eq_ix2 j⟩
  have hp : t.val * 5000 + p.val < 50000 := by have := p.isLt; omega
  refine (pay_at _ _ _ _ _ p q).trans ?_
  have h5 : ((cfg3.win 5).blk t).view.emb (ix2 p q) = ix2 (⟨t.val * 5000 + p.val, hp⟩ : Fin 50000) q := by
    funext a; apply Fin.ext
    match a with
    | ⟨0, _⟩ => show win3_5.index t (0 : Fin 2) * 5000 + 1 * p.val = t.val * 5000 + p.val; omega
    | ⟨1, _⟩ => show win3_5.index t (1 : Fin 2) * 96 + 1 * q.val = q.val; omega
  show _ = G V c (((cfg3.win 5).blk t).view.emb (ix2 p q))
  rw [h5]
  unfold G
  rw [arr2_ix2]
  unfold relu
  refine congrArg₂ max (congrArg₂ (· + ·) (blkH V c t p q hp) ?_) rfl
  exact convAt_row _ _ _ _ _ _ _ p _ q (fun k => blkA V c t p k hp) (fun k => blkH V c t p k hp)

/-- An index of the output array is in point t's block iff each coordinate is in the block's range. -/
theorem mem_blk (t : Fin cfg3.N) (i : S50000x96.Idx) :
    i ∈ ((cfg3.win 5).blk t).view.set ↔ ∀ a : Fin 2, win3_5.index t a * S5000x96.size a ≤ (i a).val ∧ (i a).val < win3_5.index t a * S5000x96.size a + S5000x96.size a := by
  show i ∈ ((View.whole main_v59).slice (win3_5.rect t)).set ↔ _
  rw [View.set_slice_whole, Rect.mem_set_unit]
  exact Iff.rfl

/-- Every index of the output array is in some point's block: row r in block r / 5000. -/
theorem cover (i : S50000x96.Idx) : ∃ t : Fin cfg3.N, (cfg3.win 5).flush t = true ∧ i ∈ ((cfg3.win 5).blk t).view.set := by
  have hi0 : (i 0).val < 50000 := (i 0).isLt
  have hi1 : (i 1).val < 96 := (i 1).isLt
  have hN : (i 0).val / 5000 < cfg3.N := by rw [show cfg3.N = 10 from N_3]; omega
  obtain ⟨-, -, -, -, -, -, -, -, -, -, e50, e51⟩ := idx_facts ⟨(i 0).val / 5000, hN⟩
  refine ⟨⟨(i 0).val / 5000, hN⟩, flush3_5 _, ?_⟩
  rw [mem_blk]
  intro a
  match a with
  | ⟨0, _⟩ =>
    show win3_5.index ⟨(i 0).val / 5000, hN⟩ (0 : Fin 2) * 5000 ≤ (i 0).val ∧ (i 0).val < win3_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win3_5.index ⟨(i 0).val / 5000, hN⟩ (1 : Fin 2) * 96 ≤ (i 1).val ∧ (i 1).val < win3_5.index ⟨(i 0).val / 5000, hN⟩ (1 : Fin 2) * 96 + 96
    omega

/-- The output array after the call. -/
theorem final : (dat3 (F := Ideal) V c).arrAt 5 cfg3.N
      = arr2 fun r q => relu (HAdd.hAdd (α := EReal) (β := EReal) (γ := EReal) (V c main_v38 (ix2 r q)) (convAt (V c main_v51) (V c main_v38) (V c main_v53) (fun k => V c main_v58 (ix2 (0 : Fin 1) k)) (V c main_v57) r q)) :=
  (dat3 V c).arrAt_eq_of_cover 5 (G V c) (fun t _ => flushed_eq V c t) (cover)

end Cert.KernelIdeal.Combine3

end
-- ==== Proof.Reg4.lean ====
/-
  The third combine call: what its result array holds.

  The call cuts the [50000, 96] aggregated messages A and the [50000, 96] node features H into ten blocks of 5000
  rows; at block t the body multiplies the block of A by the left weight matrix and adds the bias, multiplies the
  block of H by the right weight matrix, adds the two and writes the [5000, 96] result as block t of the
  output.  An entry of the combine step depends on row r of A and row r of H only, so block t of the result is
  block t of one function of the whole arrays; the ten blocks cover the rows (row r lies in block r / 5000), so the
  output array is that function everywhere.
-/
import proofs.«137253_j64622077936098_1_alg».proof.Proof.Gen.KernelIdeal.Frame
import proofs.«137253_j64622077936098_1_alg».proof.Proof.LibLinear
import proofs.«137253_j64622077936098_1_alg».proof.Proof.LibPlainDot
import Idealize.ShloMosaic.Lib.Pipeline.Value
import Idealize.ShloMosaic.Lib.ValueLayout

set_option maxRecDepth 16384

noncomputable section

namespace Cert.KernelIdeal.Combine4

open Cert.KernelIdeal Cert.KernelIdeal.Gen Idealize.ShloMosaic Idealize.ShloMosaic.ValueIdx Idealize.ShloMosaic.TcCoe Idealize.SL.Sem
open Cert.LibLinear

/-! ## The matrix products of the body at an entry -/

/-- The left operand of the product is read at the entry's row. -/
theorem dot_l0 (j : S5000x96.Idx) (q : dot_S5000x96_S96x96_S5000x96_1_0_0_1_n_n.contr.Idx) :
    (dot_S5000x96_S96x96_S5000x96_1_0_0_1_n_n.lhsIdx j q 0).val = (j 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl

/-- The right operand of the product is read at the entry's column. -/
theorem dot_r1 (j : S5000x96.Idx) (q : dot_S5000x96_S96x96_S5000x96_1_0_0_1_n_n.contr.Idx) :
    (dot_S5000x96_S96x96_S5000x96_1_0_0_1_n_n.rhsIdx j q 1).val = (j 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- A product of a block with a weight matrix at (p, q): the sum over the 96 features. -/
theorem mm (a : FVec Ideal S5000x96 .bf16) (b : FVec Ideal S96x96 .bf16) (p : Fin 5000) (q : Fin 96) :
    FloatOps.matmul dot_S5000x96_S96x96_S5000x96_1_0_0_1_n_n none a b (constant S5000x96 .f32 0x00000000#32) (ix2 p q)
      = dotAt a b p q :=
  Cert.LibPlainDot.matmul_zero_ix2 dot_S5000x96_S96x96_S5000x96_1_0_0_1_n_n rfl rfl rfl rfl dot_l0 dot_r1 none a b p q

/-- The same product as the body writes it: each operand passes through a cast to its own shape and a change of
    float format, both the identity on the extended reals. -/
theorem mmc (a : Vec Ideal S5000x96 .f32) (b : Vec Ideal S96x96 .f32) (h1 : S5000x96.ShapeCasts S5000x96)
    (h2 : S96x96.ShapeCasts S96x96) (hb : FTy.bf16.bits < FTy.f32.bits) (p : Fin 5000) (q : Fin 96) :
    FloatOps.matmul dot_S5000x96_S96x96_S5000x96_1_0_0_1_n_n none
        (truncf .bf16 (shapeCast S5000x96 a h1) hb : FVec Ideal S5000x96 .bf16)
        (truncf .bf16 (shapeCast S96x96 b h2) hb : FVec Ideal S96x96 .bf16) (constant S5000x96 .f32 0x00000000#32) (ix2 p q)
      = dotAt a b p q := by
  rw [shapeCast_self a h1, shapeCast_self b h2]
  exact mm (truncf .bf16 a hb) (truncf .bf16 b hb) p q

/-! ## The body's stored value at an entry -/

/-- The value the body stores, at (p, q): the combine step of the loaded blocks at (p, q). -/
theorem pay_at (x0 : Vec Ideal S5000x96 .f32) (x1 : Vec Ideal S96x96 .f32) (x2 : Vec Ideal S1x96 .f32)
    (x3 : Vec Ideal S5000x96 .f32) (x4 : Vec Ideal S96x96 .f32) (p : Fin 5000) (q : Fin 96) :
    k4_pay1 x0 x1 x2 x3 x4 (ix2 p q)
      = convAt x0 x3 x1 (fun k => x2 (ix2 (0 : Fin 1) k)) x4 p q := by
  unfold k4_pay1 convAt linAt
  dsimp only
  refine congrArg₂ (· + ·) (congrArg₂ (· + ·) (mmc _ _ _ _ _ p q) ?_) (mmc _ _ _ _ _ p q)
  exact (broadcastTo_1b_ab_apply _ _ p q).trans (congrFun (shapeCast_self x2 _) _)

/-! ## From the blocks to the array -/

theorem hz : (![0, 0] : Fin 2 → Nat) = fun _ => 0 := funext fun a => by fin_cases a <;> rfl

/-- The index maps over the ten grid points: at point t the two inputs cut by rows and the output window sit at
    block t of their arrays' rows; the weight matrices and the bias row are whole at every point. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

variable (V : (c : Dev nD) → (b : Ref sig .tc) → Buf (Elt Ideal) ((c : Thread nD τ).loc b)) (c : Dev nD)

/-- The combine step of the arrays the call finds: aggregated messages, node features, left weights, bias row,
    right weights. -/
def G : S50000x96.Idx → EReal :=
  arr2 fun r q => convAt (V c main_v72) (V c main_v59) (V c main_v74) (fun k => V c main_v79 (ix2 (0 : Fin 1) k)) (V c main_v78) r q

/-- The left weight matrix's window is its whole array at every point. -/
theorem blkWl (t : Fin cfg4.N) : iblk4 V c 2 t = V c main_v74 := by
  obtain ⟨-, -, -, -, e0, e1, -⟩ := idx_facts t
  funext y
  show V c main_v74 (((cfg4.win 2).blk t).view.emb y) = V c main_v74 y
  refine congrArg _ (funext fun a => Fin.ext ?_)
  match a with
  | ⟨0, _⟩ => show win4_2.index t (0 : Fin 2) * 96 + 1 * (y 0).val = (y 0).val; omega
  | ⟨1, _⟩ => show win4_2.index t (1 : Fin 2) * 96 + 1 * (y 1).val = (y 1).val; omega

/-- The bias row's window is its whole array at every point. -/
theorem blkBl (t : Fin cfg4.N) : iblk4 V c 3 t = V c main_v79 := by
  obtain ⟨-, -, -, -, -, -, e0, e1, -⟩ := idx_facts t
  funext y
  show V c main_v79 (((cfg4.win 3).blk t).view.emb y) = V c main_v79 y
  refine congrArg _ (funext fun a => Fin.ext ?_)
  match a with
  | ⟨0, _⟩ => show win4_3.index t (0 : Fin 2) * 1 + 1 * (y 0).val = (y 0).val; omega
  | ⟨1, _⟩ => show win4_3.index t (1 : Fin 2) * 96 + 1 * (y 1).val = (y 1).val; omega

/-- The right weight matrix's window is its whole array at every point. -/
theorem blkWr (t : Fin cfg4.N) : iblk4 V c 4 t = V c main_v78 := by
  obtain ⟨-, -, -, -, -, -, -, -, e0, e1, -⟩ := idx_facts t
  funext y
  show V c main_v78 (((cfg4.win 4).blk t).view.emb y) = V c main_v78 y
  refine congrArg _ (funext fun a => Fin.ext ?_)
  match a with
  | ⟨0, _⟩ => show win4_4.index t (0 : Fin 2) * 96 + 1 * (y 0).val = (y 0).val; omega
  | ⟨1, _⟩ => show win4_4.index t (1 : Fin 2) * 96 + 1 * (y 1).val = (y 1).val; omega

/-- Row p of the block of aggregated messages at point t is row t * 5000 + p of the array. -/
theorem blkA (t : Fin cfg4.N) (p : Fin 5000) (k : Fin 96) (h : t.val * 5000 + p.val < 50000) :
    iblk4 V c 0 t (ix2 p k) = V c main_v72 (ix2 (⟨t.val * 5000 + p.val, h⟩ : Fin 50000) k) := by
  obtain ⟨e0, e1, -⟩ := idx_facts t
  show V c main_v72 (((cfg4.win 0).blk t).view.emb (ix2 p k)) = _
  refine congrArg _ (funext fun a => Fin.ext ?_)
  match a with
  | ⟨0, _⟩ => show win4_0.index t (0 : Fin 2) * 5000 + 1 * p.val = t.val * 5000 + p.val; omega
  | ⟨1, _⟩ => show win4_0.index t (1 : Fin 2) * 96 + 1 * k.val = k.val; omega

/-- Row p of the block of node features at point t is row t * 5000 + p of the array. -/
theorem blkH (t : Fin cfg4.N) (p : Fin 5000) (k : Fin 96) (h : t.val * 5000 + p.val < 50000) :
    iblk4 V c 1 t (ix2 p k) = V c main_v59 (ix2 (⟨t.val * 5000 + p.val, h⟩ : Fin 50000) k) := by
  obtain ⟨-, -, e0, e1, -⟩ := idx_facts t
  show V c main_v59 (((cfg4.win 1).blk t).view.emb (ix2 p k)) = _
  refine congrArg _ (funext fun a => Fin.ext ?_)
  match a with
  | ⟨0, _⟩ => show win4_1.index t (0 : Fin 2) * 5000 + 1 * p.val = t.val * 5000 + p.val; omega
  | ⟨1, _⟩ => show win4_1.index t (1 : Fin 2) * 96 + 1 * k.val = k.val; omega

/-- What point t writes back is block t of that function of the arrays. -/
theorem flushed_eq (t : Fin cfg4.N) :
    (dat4 (F := Ideal) V c).flushed 5 t = ((cfg4.win 5).blk t).view.read (Elt Ideal) (G V c) := by
  show (cfg4.win 5).cut (grid4.coords t) ((dat4 V c).after 5 t) = _
  rw [after4_5]
  unfold out4_5
  rw [View.canon_unit_zero hz]
  simp only [View.ld_unit_zero (S := S5000x96) hz, View.ld_unit_zero (S := S96x96) hz, View.ld_unit_zero (S := S1x96) hz]
  rw [blkWl, blkBl, blkWr]
  obtain ⟨-, -, -, -, -, -, -, -, -, -, e50, e51⟩ := idx_facts t
  have ht : t.val < 10 := lt_of_lt_of_eq t.isLt N_4
  funext j
  obtain ⟨p, q, rfl⟩ : ∃ (p : Fin 5000) (q : Fin 96), j = ix2 p q := ⟨j 0, j 1, eq_ix2 j⟩
  have hp : t.val * 5000 + p.val < 50000 := by have := p.isLt; omega
  refine (pay_at _ _ _ _ _ p q).trans ?_
  have h5 : ((cfg4.win 5).blk t).view.emb (ix2 p q) = ix2 (⟨t.val * 5000 + p.val, hp⟩ : Fin 50000) q := by
    funext a; apply Fin.ext
    match a with
    | ⟨0, _⟩ => show win4_5.index t (0 : Fin 2) * 5000 + 1 * p.val = t.val * 5000 + p.val; omega
    | ⟨1, _⟩ => show win4_5.index t (1 : Fin 2) * 96 + 1 * q.val = q.val; omega
  show _ = G V c (((cfg4.win 5).blk t).view.emb (ix2 p q))
  rw [h5]
  unfold G
  rw [arr2_ix2]
  exact convAt_row _ _ _ _ _ _ _ p _ q (fun k => blkA V c t p k hp) (fun k => blkH V c t p k hp)

/-- An index of the output array is in point t's block iff each coordinate is in the block's range. -/
theorem mem_blk (t : Fin cfg4.N) (i : S50000x96.Idx) :
    i ∈ ((cfg4.win 5).blk t).view.set ↔ ∀ a : Fin 2, win4_5.index t a * S5000x96.size a ≤ (i a).val ∧ (i a).val < win4_5.index t a * S5000x96.size a + S5000x96.size a := by
  show i ∈ ((View.whole main_v80).slice (win4_5.rect t)).set ↔ _
  rw [View.set_slice_whole, Rect.mem_set_unit]
  exact Iff.rfl

/-- Every index of the output array is in some point's block: row r in block r / 5000. -/
theorem cover (i : S50000x96.Idx) : ∃ t : Fin cfg4.N, (cfg4.win 5).flush t = true ∧ i ∈ ((cfg4.win 5).blk t).view.set := by
  have hi0 : (i 0).val < 50000 := (i 0).isLt
  have hi1 : (i 1).val < 96 := (i 1).isLt
  have hN : (i 0).val / 5000 < cfg4.N := by rw [show cfg4.N = 10 from N_4]; omega
  obtain ⟨-, -, -, -, -, -, -, -, -, -, e50, e51⟩ := idx_facts ⟨(i 0).val / 5000, hN⟩
  refine ⟨⟨(i 0).val / 5000, hN⟩, flush4_5 _, ?_⟩
  rw [mem_blk]
  intro a
  match a with
  | ⟨0, _⟩ =>
    show win4_5.index ⟨(i 0).val / 5000, hN⟩ (0 : Fin 2) * 5000 ≤ (i 0).val ∧ (i 0).val < win4_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win4_5.index ⟨(i 0).val / 5000, hN⟩ (1 : Fin 2) * 96 ≤ (i 1).val ∧ (i 1).val < win4_5.index ⟨(i 0).val / 5000, hN⟩ (1 : Fin 2) * 96 + 96
    omega

/-- The output array after the call. -/
theorem final : (dat4 (F := Ideal) V c).arrAt 5 cfg4.N
      = arr2 fun r q => convAt (V c main_v72) (V c main_v59) (V c main_v74) (fun k => V c main_v79 (ix2 (0 : Fin 1) k)) (V c main_v78) r q :=
  (dat4 V c).arrAt_eq_of_cover 5 (G V c) (fun t _ => flushed_eq V c t) (cover)

end Cert.KernelIdeal.Combine4

end
-- ==== Proof.HostChain.lean ====
/-
  The host operations the two programs share.

  Between its calls the kernel program applies, operation for operation, the reference's own host operations: the
  source and destination rows of the edge list; the in-degree of every node, clamped below by one; per layer the
  aggregation (gather the node features at the source of every edge, add the edge term, add up by destination,
  divide by the clamped in-degree) and the slices of the stacked weights and biases; at the end the mean over every
  graph of the batch.  Each chain is named here once, as a function of the arrays it reads, and both programs'
  results are that function of their own arrays.
-/
import proofs.«137253_j64622077936098_1_alg».proof.Proof.Gen.KernelIdeal.Launch
import proofs.«137253_j64622077936098_1_alg».proof.Proof.Gen.ReferenceIdeal.Read
import Idealize.ShloMosaic.Lib.StableHlo.Run
import Idealize.ShloMosaic.Lib.ValueLayout

set_option maxRecDepth 16384

noncomputable section

namespace Cert.HostChain

open Cert.KernelIdeal Cert.KernelIdeal.Gen Idealize.ShloMosaic Idealize.ShloMosaic.ValueIdx Idealize.ShloMosaic.StableHlo

/-- The in-degree of every node, clamped below by one, as a column: a one for every edge is added up at the edge's
    destination, starting from zero; the maximum with one; laid out as [50000, 1]. -/
def cnt (dst : (⟨S800000, .i32⟩ : BufTy).Contents (Elt Ideal)) : (⟨S50000x1, .f32⟩ : BufTy).Contents (Elt Ideal) :=
  broadcastInDim S50000x1 ![0] bcast_S50000_S50000x1_0
    (maximumf (F := Ideal)
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 dst)
        (broadcastInDim S800000 ![] bcast_S_S800000 (constant (F := Ideal) S_ .f32 0x3F800000#32)))
      (broadcastInDim S50000 ![] bcast_S_S50000 (constant (F := Ideal) S_ .f32 0x3F800000#32)))

/-- The aggregation of one layer: the node features are gathered at the source of every edge (a negative source
    index wraps around by 50000), the edge term is added, the sums are added up at the edge's destination starting
    from zero, and every node's row is divided by its clamped in-degree. -/
def agg (h : (⟨S50000x96, .f32⟩ : BufTy).Contents (Elt Ideal)) (et : (⟨S800000x96, .f32⟩ : BufTy).Contents (Elt Ideal))
    (src dst : (⟨S800000, .i32⟩ : BufTy).Contents (Elt Ideal)) (cnt17 : (⟨S50000x1, .f32⟩ : BufTy).Contents (Elt Ideal)) :
    (⟨S50000x96, .f32⟩ : BufTy).Contents (Elt Ideal) :=
  Host.divf (F := Ideal)
    (Host.scatterAdd (F := Ideal) scatter_S50000x96_S800000x1_S800000x96_1_0_0_1
      (broadcastInDim S50000x96 ![] bcast_S_S50000x96 (constant (F := Ideal) S_ .f32 0x00000000#32))
      (broadcastInDim S800000x1 ![0] bcast_S800000_S800000x1_0 dst)
      (addf (F := Ideal)
        (Host.gather gather_S50000x96_S800000x1_S800000x96_1_0_n_n_0_1_196 h
          (broadcastInDim S800000x1 ![0] bcast_S800000_S800000x1_0
            (select
              (cmpi .slt src (broadcastInDim S800000 ![] bcast_S_S800000 (constantI S_ 32 0#32)))
              (addi src (broadcastInDim S800000 ![] bcast_S_S800000 (constantI S_ 32 50000#32)))
              src)))
        et))
    (broadcastInDim S50000x96 ![0, 1] bcast_S50000x1_S50000x96_0_1 cnt17)

/-- The mean over every graph of the batch: the node rows are added up at the node's graph starting from zero, and
    every graph's row is divided by the number of its nodes, clamped below by one. -/
def pool (h : (⟨S50000x96, .f32⟩ : BufTy).Contents (Elt Ideal)) (batch : (⟨S50000, .i32⟩ : BufTy).Contents (Elt Ideal)) :
    (⟨S64x96, .f32⟩ : BufTy).Contents (Elt Ideal) :=
  Host.divf (F := Ideal)
    (Host.scatterAdd (F := Ideal) scatter_S64x96_S50000x1_S50000x96_1_0_0_1
      (broadcastInDim S64x96 ![] bcast_S_S64x96 (constant (F := Ideal) S_ .f32 0x00000000#32))
      (broadcastInDim S50000x1 ![0] bcast_S50000_S50000x1_0 batch)
      h)
    (broadcastInDim S64x96 ![0, 1] bcast_S64x1_S64x96_0_1
      (broadcastInDim S64x1 ![0] bcast_S64_S64x1_0
        (maximumf (F := Ideal)
          (Host.scatterAdd (F := Ideal) scatter_S64_S50000x1_S50000_n_0_0_1
            (broadcastInDim S64 ![] bcast_S_S64 (constant (F := Ideal) S_ .f32 0x00000000#32))
            (broadcastInDim S50000x1 ![0] bcast_S50000_S50000x1_0 batch)
            (broadcastInDim S50000 ![] bcast_S_S50000 (constant (F := Ideal) S_ .f32 0x3F800000#32)))
          (broadcastInDim S64 ![] bcast_S_S64 (constant (F := Ideal) S_ .f32 0x3F800000#32)))))

variable (W : Valuation τ sig (Elt Ideal))

/-- The source row of the edge list, in both programs. -/
theorem s0_v1 : StableHlo.after hostOps0 W (Proc.devRef .tc main_v1)
    = Cert.ReferenceIdeal.Read.val_main_v1 (F := Ideal) (W (Proc.devRef .tc main_arg1)) := by
  after_results
  rfl

/-- The destination row of the edge list, in both programs. -/
theorem s0_v3 : StableHlo.after hostOps0 W (Proc.devRef .tc main_v3)
    = Cert.ReferenceIdeal.Read.val_main_v3 (F := Ideal) (W (Proc.devRef .tc main_arg1)) := by
  after_results
  rfl

/-- The first layer's host stretch computes the clamped in-degree. -/
theorem s2_v17 : StableHlo.after hostOps2 W (Proc.devRef .tc main_v17) = cnt (W (Proc.devRef .tc main_v3)) := by
  after_results_simp
  rfl

/-- The aggregation of the first layer in the kernel program's host stretch. -/
theorem s2_v30 : StableHlo.after hostOps2 W (Proc.devRef .tc main_v30)
    = agg (W (Proc.devRef .tc main_v6)) (W (Proc.devRef .tc main_v10_0)) (W (Proc.devRef .tc main_v1)) (W (Proc.devRef .tc main_v3)) (cnt (W (Proc.devRef .tc main_v3))) := by
  after_results_simp
  rfl

/-- The first layer's slice of the stacked left weights. -/
theorem s2_v32 : StableHlo.after hostOps2 W (Proc.devRef .tc main_v32)
    = Cert.ReferenceIdeal.Read.val_main_v51 (F := Ideal) (W (Proc.devRef .tc main_arg14)) := by
  after_results_simp
  rfl

/-- The first layer's slice of the stacked right weights. -/
theorem s2_v36 : StableHlo.after hostOps2 W (Proc.devRef .tc main_v36)
    = Cert.ReferenceIdeal.Read.val_main_v59 (F := Ideal) (W (Proc.devRef .tc main_arg16)) := by
  after_results_simp
  rfl

/-- The first layer's slice of the stacked biases, which the kernel program lays out as one row. -/
theorem s2_v37 : (fun k : Fin 96 => StableHlo.after hostOps2 W (Proc.devRef .tc main_v37) (ix2 (0 : Fin 1) k))
    = fun k => Cert.ReferenceIdeal.Read.val_main_v54 (F := Ideal) (W (Proc.devRef .tc main_arg15)) (ix1 k) := by
  funext k
  have e : StableHlo.after hostOps2 W (Proc.devRef .tc main_v37)
      = shapeCast S1x96 (Cert.ReferenceIdeal.Read.val_main_v54 (F := Ideal) (W (Proc.devRef .tc main_arg15))) shapeCasts_S96_S1x96 := by
    after_results_simp
    rfl
  rw [e]
  exact shapeCast_a_1a_apply _ _ 0 k

/-- The aggregation of the second layer in the kernel program's host stretch. -/
theorem s3_v51 : StableHlo.after hostOps3 W (Proc.devRef .tc main_v51)
    = agg (W (Proc.devRef .tc main_v38)) (W (Proc.devRef .tc main_v10_1)) (W (Proc.devRef .tc main_v1)) (W (Proc.devRef .tc main_v3)) (W (Proc.devRef .tc main_v17)) := by
  after_results_simp
  rfl

/-- The second layer's slice of the stacked left weights. -/
theorem s3_v53 : StableHlo.after hostOps3 W (Proc.devRef .tc main_v53)
    = Cert.ReferenceIdeal.Read.val_main_v86 (F := Ideal) (W (Proc.devRef .tc main_arg14)) := by
  after_results_simp
  rfl

/-- The second layer's slice of the stacked right weights. -/
theorem s3_v57 : StableHlo.after hostOps3 W (Proc.devRef .tc main_v57)
    = Cert.ReferenceIdeal.Read.val_main_v94 (F := Ideal) (W (Proc.devRef .tc main_arg16)) := by
  after_results_simp
  rfl

/-- The second layer's slice of the stacked biases, which the kernel program lays out as one row. -/
theorem s3_v58 : (fun k : Fin 96 => StableHlo.after hostOps3 W (Proc.devRef .tc main_v58) (ix2 (0 : Fin 1) k))
    = fun k => Cert.ReferenceIdeal.Read.val_main_v89 (F := Ideal) (W (Proc.devRef .tc main_arg15)) (ix1 k) := by
  funext k
  have e : StableHlo.after hostOps3 W (Proc.devRef .tc main_v58)
      = shapeCast S1x96 (Cert.ReferenceIdeal.Read.val_main_v89 (F := Ideal) (W (Proc.devRef .tc main_arg15))) shapeCasts_S96_S1x96 := by
    after_results_simp
    rfl
  rw [e]
  exact shapeCast_a_1a_apply _ _ 0 k

/-- The aggregation of the third layer in the kernel program's host stretch. -/
theorem s4_v72 : StableHlo.after hostOps4 W (Proc.devRef .tc main_v72)
    = agg (W (Proc.devRef .tc main_v59)) (W (Proc.devRef .tc main_v10_2)) (W (Proc.devRef .tc main_v1)) (W (Proc.devRef .tc main_v3)) (W (Proc.devRef .tc main_v17)) := by
  after_results_simp
  rfl

/-- The third layer's slice of the stacked left weights. -/
theorem s4_v74 : StableHlo.after hostOps4 W (Proc.devRef .tc main_v74)
    = Cert.ReferenceIdeal.Read.val_main_v121 (F := Ideal) (W (Proc.devRef .tc main_arg14)) := by
  after_results_simp
  rfl

/-- The third layer's slice of the stacked right weights. -/
theorem s4_v78 : StableHlo.after hostOps4 W (Proc.devRef .tc main_v78)
    = Cert.ReferenceIdeal.Read.val_main_v129 (F := Ideal) (W (Proc.devRef .tc main_arg16)) := by
  after_results_simp
  rfl

/-- The third layer's slice of the stacked biases, which the kernel program lays out as one row. -/
theorem s4_v79 : (fun k : Fin 96 => StableHlo.after hostOps4 W (Proc.devRef .tc main_v79) (ix2 (0 : Fin 1) k))
    = fun k => Cert.ReferenceIdeal.Read.val_main_v124 (F := Ideal) (W (Proc.devRef .tc main_arg15)) (ix1 k) := by
  funext k
  have e : StableHlo.after hostOps4 W (Proc.devRef .tc main_v79)
      = shapeCast S1x96 (Cert.ReferenceIdeal.Read.val_main_v124 (F := Ideal) (W (Proc.devRef .tc main_arg15))) shapeCasts_S96_S1x96 := by
    after_results_simp
    rfl
  rw [e]
  exact shapeCast_a_1a_apply _ _ 0 k

/-- The pooling in the kernel program's last host stretch. -/
theorem s5_v92 : StableHlo.after hostOps5 W (Proc.devRef .tc main_v92)
    = pool (W (Proc.devRef .tc main_v80)) (W (Proc.devRef .tc main_arg3)) := by
  after_results_simp
  rfl

/-! ## The reference's stages are the same functions of its own stages -/

variable (x0 : (⟨Cert.ReferenceIdeal.S50000x128, .f32⟩ : BufTy).Contents (Elt Ideal)) (x1 : (⟨Cert.ReferenceIdeal.S2x800000, .i32⟩ : BufTy).Contents (Elt Ideal))
  (x2 : (⟨Cert.ReferenceIdeal.S800000x32, .f32⟩ : BufTy).Contents (Elt Ideal)) (x3 : (⟨Cert.ReferenceIdeal.S50000, .i32⟩ : BufTy).Contents (Elt Ideal))
  (x4 : (⟨Cert.ReferenceIdeal.S128x96, .f32⟩ : BufTy).Contents (Elt Ideal)) (x5 : (⟨Cert.ReferenceIdeal.S96, .f32⟩ : BufTy).Contents (Elt Ideal))
  (x6 : (⟨Cert.ReferenceIdeal.S96x96, .f32⟩ : BufTy).Contents (Elt Ideal)) (x7 : (⟨Cert.ReferenceIdeal.S96, .f32⟩ : BufTy).Contents (Elt Ideal))
  (x8 : (⟨Cert.ReferenceIdeal.S32x96, .f32⟩ : BufTy).Contents (Elt Ideal)) (x9 : (⟨Cert.ReferenceIdeal.S96, .f32⟩ : BufTy).Contents (Elt Ideal))
  (x10 : (⟨Cert.ReferenceIdeal.S96x96, .f32⟩ : BufTy).Contents (Elt Ideal)) (x11 : (⟨Cert.ReferenceIdeal.S96, .f32⟩ : BufTy).Contents (Elt Ideal))
  (x12 : (⟨Cert.ReferenceIdeal.S3x96x96, .f32⟩ : BufTy).Contents (Elt Ideal)) (x13 : (⟨Cert.ReferenceIdeal.S3x96, .f32⟩ : BufTy).Contents (Elt Ideal))
  (x14 : (⟨Cert.ReferenceIdeal.S3x96x96, .f32⟩ : BufTy).Contents (Elt Ideal)) (x15 : (⟨Cert.ReferenceIdeal.S3x96, .f32⟩ : BufTy).Contents (Elt Ideal))
  (x16 : (⟨Cert.ReferenceIdeal.S3x96x96, .f32⟩ : BufTy).Contents (Elt Ideal))

/-- The reference's clamped in-degree column. -/
theorem r_cnt : Cert.ReferenceIdeal.Read.val_main_v28 (F := Ideal) x1 = cnt (Cert.ReferenceIdeal.Read.val_main_v3 (F := Ideal) x1) := by
  unfold Cert.ReferenceIdeal.Read.val_main_v28 Cert.ReferenceIdeal.Read.val_main_v27 Cert.ReferenceIdeal.Read.val_main_v26 Cert.ReferenceIdeal.Read.val_main_cst_1 Cert.ReferenceIdeal.Read.val_main_v25 Cert.ReferenceIdeal.Read.val_main_v24 Cert.ReferenceIdeal.Read.val_main_v23 Cert.ReferenceIdeal.Read.val_main_cst_0 Cert.ReferenceIdeal.Read.val_main_v22 Cert.ReferenceIdeal.Read.val_main_cst cnt
  generalize Cert.ReferenceIdeal.Read.val_main_v3 (F := Ideal) x1 = d
  rfl

/-- The reference's aggregated messages of the first layer. -/
theorem r_agg0 : Cert.ReferenceIdeal.Read.val_main_v49 (F := Ideal) x0 x1 x2 x4 x5 x6 x7 x8 x9 x10 x11 x12 x13
    = agg (Cert.ReferenceIdeal.Read.val_main_v12 (F := Ideal) x0 x4 x5 x6 x7) (Cert.ReferenceIdeal.Read.val_main_v43 (F := Ideal) x2 x8 x9 x10 x11 x12 x13)
        (Cert.ReferenceIdeal.Read.val_main_v1 (F := Ideal) x1) (Cert.ReferenceIdeal.Read.val_main_v3 (F := Ideal) x1) (Cert.ReferenceIdeal.Read.val_main_v28 (F := Ideal) x1) := by
  unfold Cert.ReferenceIdeal.Read.val_main_v49 Cert.ReferenceIdeal.Read.val_main_v48 Cert.ReferenceIdeal.Read.val_main_v47 Cert.ReferenceIdeal.Read.val_main_v46 Cert.ReferenceIdeal.Read.val_main_v45 Cert.ReferenceIdeal.Read.val_main_cst_3 Cert.ReferenceIdeal.Read.val_main_v44 Cert.ReferenceIdeal.Read.val_main_v35 Cert.ReferenceIdeal.Read.val_main_v34 Cert.ReferenceIdeal.Read.val_main_v33 Cert.ReferenceIdeal.Read.val_main_v32 Cert.ReferenceIdeal.Read.val_main_v31 Cert.ReferenceIdeal.Read.val_main_c_2 Cert.ReferenceIdeal.Read.val_main_v30 Cert.ReferenceIdeal.Read.val_main_v29 Cert.ReferenceIdeal.Read.val_main_c agg
  generalize Cert.ReferenceIdeal.Read.val_main_v12 (F := Ideal) x0 x4 x5 x6 x7 = h
  generalize Cert.ReferenceIdeal.Read.val_main_v43 (F := Ideal) x2 x8 x9 x10 x11 x12 x13 = et
  generalize Cert.ReferenceIdeal.Read.val_main_v1 (F := Ideal) x1 = s
  generalize Cert.ReferenceIdeal.Read.val_main_v3 (F := Ideal) x1 = d
  generalize Cert.ReferenceIdeal.Read.val_main_v28 (F := Ideal) x1 = c
  rfl

/-- The reference's aggregated messages of the second layer. -/
theorem r_agg1 : Cert.ReferenceIdeal.Read.val_main_v84 (F := Ideal) x0 x1 x2 x4 x5 x6 x7 x8 x9 x10 x11 x12 x13 x14 x15 x16
    = agg (Cert.ReferenceIdeal.Read.val_main_v63 (F := Ideal) x0 x1 x2 x4 x5 x6 x7 x8 x9 x10 x11 x12 x13 x14 x15 x16) (Cert.ReferenceIdeal.Read.val_main_v78 (F := Ideal) x2 x8 x9 x10 x11 x12 x13)
        (Cert.ReferenceIdeal.Read.val_main_v1 (F := Ideal) x1) (Cert.ReferenceIdeal.Read.val_main_v3 (F := Ideal) x1) (Cert.ReferenceIdeal.Read.val_main_v28 (F := Ideal) x1) := by
  unfold Cert.ReferenceIdeal.Read.val_main_v84 Cert.ReferenceIdeal.Read.val_main_v83 Cert.ReferenceIdeal.Read.val_main_v82 Cert.ReferenceIdeal.Read.val_main_v81 Cert.ReferenceIdeal.Read.val_main_v80 Cert.ReferenceIdeal.Read.val_main_cst_6 Cert.ReferenceIdeal.Read.val_main_v79 Cert.ReferenceIdeal.Read.val_main_v70 Cert.ReferenceIdeal.Read.val_main_v69 Cert.ReferenceIdeal.Read.val_main_v68 Cert.ReferenceIdeal.Read.val_main_v67 Cert.ReferenceIdeal.Read.val_main_v66 Cert.ReferenceIdeal.Read.val_main_c_5 Cert.ReferenceIdeal.Read.val_main_v65 Cert.ReferenceIdeal.Read.val_main_v64 Cert.ReferenceIdeal.Read.val_main_c_4 agg
  generalize Cert.ReferenceIdeal.Read.val_main_v63 (F := Ideal) x0 x1 x2 x4 x5 x6 x7 x8 x9 x10 x11 x12 x13 x14 x15 x16 = h
  generalize Cert.ReferenceIdeal.Read.val_main_v78 (F := Ideal) x2 x8 x9 x10 x11 x12 x13 = et
  generalize Cert.ReferenceIdeal.Read.val_main_v1 (F := Ideal) x1 = s
  generalize Cert.ReferenceIdeal.Read.val_main_v3 (F := Ideal) x1 = d
  generalize Cert.ReferenceIdeal.Read.val_main_v28 (F := Ideal) x1 = c
  rfl

/-- The reference's aggregated messages of the third layer. -/
theorem r_agg2 : Cert.ReferenceIdeal.Read.val_main_v119 (F := Ideal) x0 x1 x2 x4 x5 x6 x7 x8 x9 x10 x11 x12 x13 x14 x15 x16
    = agg (Cert.ReferenceIdeal.Read.val_main_v98 (F := Ideal) x0 x1 x2 x4 x5 x6 x7 x8 x9 x10 x11 x12 x13 x14 x15 x16) (Cert.ReferenceIdeal.Read.val_main_v113 (F := Ideal) x2 x8 x9 x10 x11 x12 x13)
        (Cert.ReferenceIdeal.Read.val_main_v1 (F := Ideal) x1) (Cert.ReferenceIdeal.Read.val_main_v3 (F := Ideal) x1) (Cert.ReferenceIdeal.Read.val_main_v28 (F := Ideal) x1) := by
  unfold Cert.ReferenceIdeal.Read.val_main_v119 Cert.ReferenceIdeal.Read.val_main_v118 Cert.ReferenceIdeal.Read.val_main_v117 Cert.ReferenceIdeal.Read.val_main_v116 Cert.ReferenceIdeal.Read.val_main_v115 Cert.ReferenceIdeal.Read.val_main_cst_9 Cert.ReferenceIdeal.Read.val_main_v114 Cert.ReferenceIdeal.Read.val_main_v105 Cert.ReferenceIdeal.Read.val_main_v104 Cert.ReferenceIdeal.Read.val_main_v103 Cert.ReferenceIdeal.Read.val_main_v102 Cert.ReferenceIdeal.Read.val_main_v101 Cert.ReferenceIdeal.Read.val_main_c_8 Cert.ReferenceIdeal.Read.val_main_v100 Cert.ReferenceIdeal.Read.val_main_v99 Cert.ReferenceIdeal.Read.val_main_c_7 agg
  generalize Cert.ReferenceIdeal.Read.val_main_v98 (F := Ideal) x0 x1 x2 x4 x5 x6 x7 x8 x9 x10 x11 x12 x13 x14 x15 x16 = h
  generalize Cert.ReferenceIdeal.Read.val_main_v113 (F := Ideal) x2 x8 x9 x10 x11 x12 x13 = et
  generalize Cert.ReferenceIdeal.Read.val_main_v1 (F := Ideal) x1 = s
  generalize Cert.ReferenceIdeal.Read.val_main_v3 (F := Ideal) x1 = d
  generalize Cert.ReferenceIdeal.Read.val_main_v28 (F := Ideal) x1 = c
  rfl

/-- The reference's result: the mean over every graph of the third layer's node features. -/
theorem r_pool : Cert.ReferenceIdeal.Read.val_main_v143 (F := Ideal) x0 x1 x2 x3 x4 x5 x6 x7 x8 x9 x10 x11 x12 x13 x14 x15 x16
    = pool (Cert.ReferenceIdeal.Read.val_main_v131 (F := Ideal) x0 x1 x2 x4 x5 x6 x7 x8 x9 x10 x11 x12 x13 x14 x15 x16) x3 := by
  unfold Cert.ReferenceIdeal.Read.val_main_v143 Cert.ReferenceIdeal.Read.val_main_v142 Cert.ReferenceIdeal.Read.val_main_v141 Cert.ReferenceIdeal.Read.val_main_v140 Cert.ReferenceIdeal.Read.val_main_v139 Cert.ReferenceIdeal.Read.val_main_cst_13 Cert.ReferenceIdeal.Read.val_main_v138 Cert.ReferenceIdeal.Read.val_main_v137 Cert.ReferenceIdeal.Read.val_main_v136 Cert.ReferenceIdeal.Read.val_main_cst_12 Cert.ReferenceIdeal.Read.val_main_v135 Cert.ReferenceIdeal.Read.val_main_cst_11 Cert.ReferenceIdeal.Read.val_main_v134 Cert.ReferenceIdeal.Read.val_main_v133 Cert.ReferenceIdeal.Read.val_main_v132 Cert.ReferenceIdeal.Read.val_main_cst_10 pool
  generalize Cert.ReferenceIdeal.Read.val_main_v131 (F := Ideal) x0 x1 x2 x4 x5 x6 x7 x8 x9 x10 x11 x12 x13 x14 x15 x16 = h
  rfl

end Cert.HostChain

end
-- ==== Proof.BridgeB2.lean ====
/-
  The idealized kernel's buffers from the edge call to the result.

  Each of the three layers is a stretch of host operations followed by a combine call.  The stretch gathers the node
  features at the edges' sources, adds the layer's edge term, scatter-adds by the edges' targets, divides by the
  clamped in-degree, and slices the layer's weights; these are the reference's own host operations, so once the
  buffers going in are the reference's stages, the aggregated messages are.  The call's result is then the reference's
  node features after the layer.  The last stretch pools the node features by graph: again the reference's operations.
-/
import proofs.«137253_j64622077936098_1_alg».proof.Proof.BridgeB1
import proofs.«137253_j64622077936098_1_alg».proof.Proof.Reg2
import proofs.«137253_j64622077936098_1_alg».proof.Proof.Reg3
import proofs.«137253_j64622077936098_1_alg».proof.Proof.Reg4
import proofs.«137253_j64622077936098_1_alg».proof.Proof.HostChain

set_option maxRecDepth 16384

noncomputable section

namespace Cert.KernelIdeal.Bridge

open Cert.KernelIdeal Cert.KernelIdeal.Gen Idealize.ShloMosaic Idealize.ShloMosaic.ValueIdx Idealize.ShloMosaic.TcCoe Idealize.SL.Sem
open Idealize.ShloMosaic.StableHlo Cert.LibLinear
open Cert.ReferenceIdeal.Read Cert.HostChain

variable (m : (ℓ : Loc nD τ sig) → Buf (Elt Ideal) ℓ) (ρ : Dev nD → PrngReg) (c : Dev nD)

/-- The edges' sources and targets, cut out of the edge index by the first stretch. -/
theorem w1_v1 : W1 m ρ c (Proc.devRef .tc main_v1) = val_main_v1 (F := Ideal) (m ((c : Thread nD τ).loc main_arg1)) := s0_v1 (W0 m ρ c)
theorem w1_v3 : W1 m ρ c (Proc.devRef .tc main_v3) = val_main_v3 (F := Ideal) (m ((c : Thread nD τ).loc main_arg1)) := s0_v3 (W0 m ρ c)

/-- The clamped in-degree counts are the reference's. -/
theorem v17_val : W5 m ρ c (Proc.devRef .tc main_v17) = val_main_v28 (F := Ideal) (m ((c : Thread nD τ).loc main_arg1)) := by
  refine (s2_v17 (W4 m ρ c)).trans ?_
  rw [show W4 m ρ c (Proc.devRef .tc main_v3) = _ from (keep_v3_4 m ρ c).trans (w1_v3 m ρ c)]
  exact (r_cnt _).symm

/-! ## Layer 0 -/

/-- The aggregated messages of layer 0 are the reference's. -/
theorem agg0_val : W5 m ρ c (Proc.devRef .tc main_v30) = val_main_v49 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (s2_v30 (W4 m ρ c)).trans ?_
  rw [show W4 m ρ c (Proc.devRef .tc main_v6) = _ from (keep_v6_4 m ρ c).trans (v6_val m ρ c), show W4 m ρ c (Proc.devRef .tc main_v10_0) = _ from et0_val m ρ c,
    show W4 m ρ c (Proc.devRef .tc main_v1) = _ from (keep_v1_4 m ρ c).trans (w1_v1 m ρ c),
    show W4 m ρ c (Proc.devRef .tc main_v3) = _ from (keep_v3_4 m ρ c).trans (w1_v3 m ρ c), ← r_cnt]
  refine Eq.symm ?_
  apply r_agg0
theorem wl0_val : W5 m ρ c (Proc.devRef .tc main_v32) = val_main_v51 (F := Ideal) (m ((c : Thread nD τ).loc main_arg14)) := by
  refine (s2_v32 (W4 m ρ c)).trans ?_
  rw [keep_arg14_4]
theorem wr0_val : W5 m ρ c (Proc.devRef .tc main_v36) = val_main_v59 (F := Ideal) (m ((c : Thread nD τ).loc main_arg16)) := by
  refine (s2_v36 (W4 m ρ c)).trans ?_
  rw [keep_arg16_4]
theorem bl0_row : (fun k : Fin 96 => V5 m ρ c main_v37 (ix2 (0 : Fin 1) k)) = fun k => val_main_v54 (F := Ideal) (m ((c : Thread nD τ).loc main_arg15)) (ix1 k) := by
  refine (s2_v37 (W4 m ρ c)).trans ?_
  rw [keep_arg15_4]
/-- The combine call of layer 0: its result is the reference's node features after the layer. -/
theorem h1_val : W6 m ρ c (Proc.devRef .tc main_v38) = val_main_v63 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W6_arr m ρ c 5).trans ((Combine2.final (V5 m ρ) c).trans ?_)
  rw [bl0_row, show V5 m ρ c main_v6 = _ from (keep_v6_5 m ρ c).trans (v6_val m ρ c), show V5 m ρ c main_v30 = _ from agg0_val m ρ c,
    show V5 m ρ c main_v32 = _ from wl0_val m ρ c, show V5 m ρ c main_v36 = _ from wr0_val m ρ c]
  refine Eq.symm ?_
  apply Cert.ReferenceIdeal.Stages.h1_eq

/-! ## Layer 1 -/

/-- The aggregated messages of layer 1 are the reference's. -/
theorem agg1_val : W7 m ρ c (Proc.devRef .tc main_v51) = val_main_v84 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (s3_v51 (W6 m ρ c)).trans ?_
  rw [show W6 m ρ c (Proc.devRef .tc main_v38) = _ from h1_val m ρ c, show W6 m ρ c (Proc.devRef .tc main_v10_1) = _ from (keep_v10_1_6 m ρ c).trans (et1_val m ρ c),
    show W6 m ρ c (Proc.devRef .tc main_v1) = _ from (keep_v1_6 m ρ c).trans (w1_v1 m ρ c),
    show W6 m ρ c (Proc.devRef .tc main_v3) = _ from (keep_v3_6 m ρ c).trans (w1_v3 m ρ c),
    show W6 m ρ c (Proc.devRef .tc main_v17) = _ from (keep_v17_6 m ρ c).trans (v17_val m ρ c)]
  refine Eq.symm ?_
  apply r_agg1
theorem wl1_val : W7 m ρ c (Proc.devRef .tc main_v53) = val_main_v86 (F := Ideal) (m ((c : Thread nD τ).loc main_arg14)) := by
  refine (s3_v53 (W6 m ρ c)).trans ?_
  rw [keep_arg14_6]
theorem wr1_val : W7 m ρ c (Proc.devRef .tc main_v57) = val_main_v94 (F := Ideal) (m ((c : Thread nD τ).loc main_arg16)) := by
  refine (s3_v57 (W6 m ρ c)).trans ?_
  rw [keep_arg16_6]
theorem bl1_row : (fun k : Fin 96 => V7 m ρ c main_v58 (ix2 (0 : Fin 1) k)) = fun k => val_main_v89 (F := Ideal) (m ((c : Thread nD τ).loc main_arg15)) (ix1 k) := by
  refine (s3_v58 (W6 m ρ c)).trans ?_
  rw [keep_arg15_6]
/-- The combine call of layer 1: its result is the reference's node features after the layer. -/
theorem h2_val : W8 m ρ c (Proc.devRef .tc main_v59) = val_main_v98 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W8_arr m ρ c 5).trans ((Combine3.final (V7 m ρ) c).trans ?_)
  rw [bl1_row, show V7 m ρ c main_v38 = _ from (keep_v38_7 m ρ c).trans (h1_val m ρ c), show V7 m ρ c main_v51 = _ from agg1_val m ρ c,
    show V7 m ρ c main_v53 = _ from wl1_val m ρ c, show V7 m ρ c main_v57 = _ from wr1_val m ρ c]
  refine Eq.symm ?_
  apply Cert.ReferenceIdeal.Stages.h2_eq

/-! ## Layer 2 -/

/-- The aggregated messages of layer 2 are the reference's. -/
theorem agg2_val : W9 m ρ c (Proc.devRef .tc main_v72) = val_main_v119 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (s4_v72 (W8 m ρ c)).trans ?_
  rw [show W8 m ρ c (Proc.devRef .tc main_v59) = _ from h2_val m ρ c, show W8 m ρ c (Proc.devRef .tc main_v10_2) = _ from (keep_v10_2_8 m ρ c).trans (et2_val m ρ c),
    show W8 m ρ c (Proc.devRef .tc main_v1) = _ from (keep_v1_8 m ρ c).trans (w1_v1 m ρ c),
    show W8 m ρ c (Proc.devRef .tc main_v3) = _ from (keep_v3_8 m ρ c).trans (w1_v3 m ρ c),
    show W8 m ρ c (Proc.devRef .tc main_v17) = _ from (keep_v17_8 m ρ c).trans (v17_val m ρ c)]
  refine Eq.symm ?_
  apply r_agg2
theorem wl2_val : W9 m ρ c (Proc.devRef .tc main_v74) = val_main_v121 (F := Ideal) (m ((c : Thread nD τ).loc main_arg14)) := by
  refine (s4_v74 (W8 m ρ c)).trans ?_
  rw [keep_arg14_8]
theorem wr2_val : W9 m ρ c (Proc.devRef .tc main_v78) = val_main_v129 (F := Ideal) (m ((c : Thread nD τ).loc main_arg16)) := by
  refine (s4_v78 (W8 m ρ c)).trans ?_
  rw [keep_arg16_8]
theorem bl2_row : (fun k : Fin 96 => V9 m ρ c main_v79 (ix2 (0 : Fin 1) k)) = fun k => val_main_v124 (F := Ideal) (m ((c : Thread nD τ).loc main_arg15)) (ix1 k) := by
  refine (s4_v79 (W8 m ρ c)).trans ?_
  rw [keep_arg15_8]
/-- The combine call of layer 2: its result is the reference's node features after the layer. -/
theorem h3_val : W10 m ρ c (Proc.devRef .tc main_v80) = val_main_v131 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W10_arr m ρ c 5).trans ((Combine4.final (V9 m ρ) c).trans ?_)
  rw [bl2_row, show V9 m ρ c main_v59 = _ from (keep_v59_9 m ρ c).trans (h2_val m ρ c), show V9 m ρ c main_v72 = _ from agg2_val m ρ c,
    show V9 m ρ c main_v74 = _ from wl2_val m ρ c, show V9 m ρ c main_v78 = _ from wr2_val m ρ c]
  refine Eq.symm ?_
  apply Cert.ReferenceIdeal.Stages.h3_eq

/-! ## The result -/

/-- The kernel's result buffer holds the reference's result term of the launch arrays. -/
theorem result_val : W11 m ρ c (Proc.devRef .tc main_v92) = val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (s5_v92 (W10 m ρ c)).trans ?_
  rw [show W10 m ρ c (Proc.devRef .tc main_v80) = _ from h3_val m ρ c, keep_arg3_10]
  refine Eq.symm ?_
  apply r_pool

end Cert.KernelIdeal.Bridge

end
-- ==== Proof.lean ====
/-
  A three-layer graph network with edge features: the tiled kernel program against the plain reference.

  Both programs take node features [50000, 128], edge features [800000, 32], an edge index and a graph index, and
  compute: initial node features by two dense layers with a rectifier between; edge features likewise, and from them
  one edge term per layer (a dense layer with the layer's slice of the stacked weights); then three rounds of message
  passing — gather the node features at the edges' sources, add the round's edge term, scatter-add by the edges'
  targets, divide by the in-degree clamped to one, and combine  (A Wl + bl) + H Wr  with the node features H (added to
  H and rectified in the first two rounds) —; last the mean of the node features over each graph.

  The kernel program does the dense parts in five tiled calls (ten blocks of 5000 nodes, a hundred blocks of 8000
  edges) and everything irregular on the host between them, with the same host operations as the reference.  On the
  extended reals a change of float format is the identity and a matrix product into a zero accumulator is the plain
  sum over the contracted axis, and an entry of a dense layer depends on one row of its input only; so each call's
  result array is the dense function of the whole arrays it finds (Reg0 … Reg4), which is the reference's stage entry
  by entry (RefStages, RefSlices).  The host operations between are the same functions applied to equal operands
  (HostChain).  Walking the buffers along the program's eleven segments (BridgeWalk, BridgeA, BridgeB1, BridgeB2)
  the result buffer ends at the reference's result term of the launch arrays.  No law is used that fails at an
  infinity: sums and products are never regrouped, so the precondition is not opened.
-/
import proofs.«137253_j64622077936098_1_alg».proof.Defs
import proofs.«137253_j64622077936098_1_alg».proof.Proof.Gen.Kernel
import proofs.«137253_j64622077936098_1_alg».proof.Proof.Gen.Kernel.Skeleton
import proofs.«137253_j64622077936098_1_alg».proof.Proof.Gen.Kernel.Launch
import proofs.«137253_j64622077936098_1_alg».proof.Proof.Gen.Kernel.Points
import proofs.«137253_j64622077936098_1_alg».proof.Proof.Gen.Kernel.Frame
import proofs.«137253_j64622077936098_1_alg».proof.Proof.Gen.KernelIdeal
import proofs.«137253_j64622077936098_1_alg».proof.Proof.Gen.KernelIdeal.Skeleton
import proofs.«137253_j64622077936098_1_alg».proof.Proof.Gen.KernelIdeal.Launch
import proofs.«137253_j64622077936098_1_alg».proof.Proof.Gen.KernelIdeal.Points
import proofs.«137253_j64622077936098_1_alg».proof.Proof.Gen.KernelIdeal.Frame
import proofs.«137253_j64622077936098_1_alg».proof.Proof.Gen.ReferenceIdeal
import proofs.«137253_j64622077936098_1_alg».proof.Proof.Gen.Pre_finite_inputs
import proofs.«137253_j64622077936098_1_alg».proof.Proof.Gen.ReferenceIdeal.Run
import proofs.«137253_j64622077936098_1_alg».proof.Proof.Gen.ReferenceIdeal.Read
import proofs.«137253_j64622077936098_1_alg».proof.Proof.Claims
import proofs.«137253_j64622077936098_1_alg».proof.Proof.BridgeB2
import Idealize.ShloMosaic.Adequacy
import Idealize.ShloMosaic.Init

noncomputable section

namespace Cert.Proof

open Idealize.ShloMosaic Idealize.SL.Sem Cert.Kernel

/-- The three frames are the generated ones (the reference's is its run with the result dropped), the idealization
    rewrote nothing, and the two idealized programs end with equal results because the kernel's result buffer holds
    the reference's result term of the launch arrays. -/
theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves,
  Cert.Proof.Claims.algebraic_of Cert.KernelIdeal.Bridge.result_val⟩

end Cert.Proof

end
